-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg1 : IVec S2x320000 32) (main_arg3 : IVec S2x320000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x320000 32 := broadcastInDim S2x320000 ![] bcast_S_S2x320000 main_c_26
  let main_v70 : IVec S2x320000 1 := cmpi .sge main_arg1 main_v69
  let main_c_27 : IVec S_ 32 := constantI S_ 32 10000#32
  let main_v71 : IVec S2x320000 32 := broadcastInDim S2x320000 ![] bcast_S_S2x320000 main_c_27
  let main_v72 : IVec S2x320000 1 := cmpi .slt main_arg1 main_v71
  let main_v73 : IVec S2x320000 1 := andi main_v70 main_v72
  let main_c_28 : IVec S_ 1 := constantI S_ 1 1#1
  let main_v74 : IVec S_ 1 := (fun x v => Host.reduce IntOp.andi x v reducesTo_S2x320000_S_d0_1 h_S_) main_v73 main_c_28
  let main_v75 : IVec S_ 1 := andi main_v68 main_v74
  let main_c_29 : IVec S_ 32 := constantI S_ 32 0#32
  let main_v76 : IVec S2x320000 32 := broadcastInDim S2x320000 ![] bcast_S_S2x320000 main_c_29
  let main_v77 : IVec S2x320000 1 := cmpi .sge main_arg3 main_v76
  let main_c_30 : IVec S_ 32 := constantI S_ 32 10000#32
  let main_v78 : IVec S2x320000 32 := broadcastInDim S2x320000 ![] bcast_S_S2x320000 main_c_30
  let main_v79 : IVec S2x320000 1 := cmpi .slt main_arg3 main_v78
  let main_v80 : IVec S2x320000 1 := andi main_v77 main_v79
  let main_c_31 : IVec S_ 1 := constantI S_ 1 1#1
  let main_v81 : IVec S_ 1 := (fun x v => Host.reduce IntOp.andi x v reducesTo_S2x320000_S_d0_1 h_S_) main_v80 main_c_31
  let main_v82 : IVec S_ 1 := andi main_v75 main_v81
  main_v82

def fn_part3 {F : FTy → Type} [FloatOps F] (main_arg1 : IVec S2x320000 32) (main_arg3 : IVec S2x320000 32) (main_arg13 : FVec F S256 .f32) (main_arg14 : FVec F S256x128 .f32) (main_arg15 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg3 main_v63 main_v67

def fn_part2 {F : FTy → Type} [FloatOps F] (main_arg1 : IVec S2x320000 32) (main_arg3 : IVec S2x320000 32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg1 main_arg3 main_arg13 main_arg14 main_arg15 main_v48 main_v49 main_v50

def fn_part1 {F : FTy → Type} [FloatOps F] (main_arg1 : IVec S2x320000 32) (main_arg3 : IVec S2x320000 32) (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg3 main_arg9 main_arg10 main_arg11 main_arg12 main_arg13 main_arg14 main_arg15 main_v33

def fn {F : FTy → Type} [FloatOps F] (main_arg0 : FVec F S10000x256 .f32) (main_arg1 : IVec S2x320000 32) (main_arg2 : FVec F S10000x256 .f32) (main_arg3 : IVec S2x320000 32) (main_arg4 : FVec F S256x256 .f32) (main_arg5 : FVec F S256 .f32) (main_arg6 : FVec F S256x256 .f32) (main_arg7 : FVec F S256 .f32) (main_arg8 : FVec F S256x128 .f32) (main_arg9 : FVec F S128 .f32) (main_arg10 : FVec F S256x256 .f32) (main_arg11 : FVec F S256 .f32) (main_arg12 : FVec F S256x256 .f32) (main_arg13 : FVec F S256 .f32) (main_arg14 : FVec F S256x128 .f32) (main_arg15 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg3 main_arg6 main_arg7 main_arg8 main_arg9 main_arg10 main_arg11 main_arg12 main_arg13 main_arg14 main_arg15 main_v13 main_v16
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x10000 : Shape := ⟨2, ![10000, 10000]⟩
abbrev S330000x2 : Shape := ⟨2, ![330000, 2]⟩
abbrev S1000x256 : Shape := ⟨2, ![1000, 256]⟩
abbrev S1x256 : Shape := ⟨2, ![1, 256]⟩
abbrev S200x10000 : Shape := ⟨2, ![200, 10000]⟩
abbrev S200x256 : Shape := ⟨2, ![200, 256]⟩
abbrev S10000x128 : Shape := ⟨2, ![10000, 128]⟩
abbrev S1000x128 : Shape := ⟨2, ![1000, 128]⟩
abbrev S1x128 : Shape := ⟨2, ![1, 128]⟩
abbrev S200x128 : Shape := ⟨2, ![200, 128]⟩

abbrev nBuf : Space → Nat
  | .hbm => 156
  | .vmem => 66
  | .smem => 0
  | _ => 0

abbrev hbmTy0_0 (i : Nat) : BufTy := match i % 128 with
  | 0 => ⟨S10000x256, .f32⟩
  | 1 => ⟨S2x320000, .i32⟩
  | 2 => ⟨S10000x256, .f32⟩
  | 3 => ⟨S2x320000, .i32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256x256, .f32⟩
  | 11 => ⟨S256, .f32⟩
  | 12 => ⟨S256x256, .f32⟩
  | 13 => ⟨S256, .f32⟩
  | 14 => ⟨S256x128, .f32⟩
  | 15 => ⟨S128, .f32⟩
  | 16 => ⟨S1x320000, .i32⟩
  | 17 => ⟨S320000, .i32⟩
  | 18 => ⟨S1x320000, .i32⟩
  | 19 => ⟨S320000, .i32⟩
  | 20 => ⟨S10000, .i32⟩
  | 21 => ⟨S330000, .i32⟩
  | 22 => ⟨S330000, .i32⟩
  | 23 => ⟨S_, .f32⟩
  | 24 => ⟨S330000, .f32⟩
  | 25 => ⟨S_, .f32⟩
  | 26 => ⟨S10000, .f32⟩
  | 27 => ⟨S330000x1, .i32⟩
  | 28 => ⟨S10000, .f32⟩
  | 29 => ⟨S_, .f32⟩
  | 30 => ⟨S10000, .f32⟩
  | 31 => ⟨S10000, .i1⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S_, .i32⟩
  | 47 => ⟨S330000, .i32⟩
  | 48 => ⟨S330000, .i1⟩
  | 49 => ⟨S_, .i32⟩
  | 50 => ⟨S330000, .i32⟩
  | 51 => ⟨S330000, .i32⟩
  | 52 => ⟨S330000, .i32⟩
  | 53 => ⟨S330000x1, .i32⟩
  | 54 => ⟨S330000, .f32⟩
  | 55 => ⟨S330000, .f32⟩
  | 56 => ⟨S_, .f32⟩
  | 57 => ⟨S10000x10000, .f32⟩
  | 58 => ⟨S_, .i32⟩
  | 59 => ⟨S330000, .i32⟩
  | 60 => ⟨S330000, .i1⟩
  | 61 => ⟨S_, .i32⟩
  | 62 => ⟨S330000, .i32⟩
  | 63 => ⟨S330000, .i32⟩
  | 64 => ⟨S330000, .i32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S330000x1, .i32⟩
  | 73 => ⟨S330000x1, .i32⟩
  | 74 => ⟨S330000x2, .i32⟩
  | 75 => ⟨S10000x10000, .f32⟩
  | 76 => ⟨S10000x10000, .bf16⟩
  | 77 => ⟨S10000x256, .bf16⟩
  | 78 => ⟨S1x256, .f32⟩
  | 79 => ⟨S10000x256, .bf16⟩
  | 80 => ⟨S10000x256, .bf16⟩
  | 81 => ⟨S1x256, .f32⟩
  | 82 => ⟨S10000x256, .bf16⟩
  | 83 => ⟨S10000x128, .bf16⟩
  | 84 => ⟨S1x128, .f32⟩
  | 85 => ⟨S10000x128, .f32⟩
  | 86 => ⟨S1x320000, .i32⟩
  | 87 => ⟨S320000, .i32⟩
  | 88 => ⟨S1x320000, .i32⟩
  | 89 => ⟨S320000, .i32⟩
  | 90 => ⟨S10000, .i32⟩
  | 91 => ⟨S330000, .i32⟩
  | 92 => ⟨S330000, .i32⟩
  | 93 => ⟨S_, .f32⟩
  | 94 => ⟨S330000, .f32⟩
  | 95 => ⟨S_, .f32⟩
  | 96 => ⟨S10000, .f32⟩
  | 97 => ⟨S330000x1, .i32⟩
  | 98 => ⟨S10000, .f32⟩
  | 99 => ⟨S_, .f32⟩
  | 100 => ⟨S10000, .f32⟩
  | 101 => ⟨S10000, .i1⟩
  | 102 => ⟨S10000, .f32⟩
  | 103 => ⟨S_, .f32⟩
  | 104 => ⟨S_, .f32⟩
  | 105 => ⟨S10000, .f32⟩
  | 106 => ⟨S10000, .f32⟩
  | 107 => ⟨S_, .i32⟩
  | 108 => ⟨S330000, .i32⟩
  | 109 => ⟨S330000, .i1⟩
  | 110 => ⟨S_, .i32⟩
  | 111 => ⟨S330000, .i32⟩
  | 112 => ⟨S330000, .i32⟩
  | 113 => ⟨S330000, .i32⟩
  | 114 => ⟨S330000x1, .i32⟩
  | 115 => ⟨S330000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000, .f32⟩
  | 125 => ⟨S330000, .f32⟩
  | 126 => ⟨S_, .f32⟩
  | 127 => ⟨S10000x10000, .f32⟩
  | _ => ⟨S10000x256, .f32⟩

abbrev hbmTy0_1 (i : Nat) : BufTy := match i % 128 with
  | 0 => ⟨S_, .i32⟩
  | 1 => ⟨S330000, .i32⟩
  | 2 => ⟨S330000, .i1⟩
  | 3 => ⟨S_, .i32⟩
  | 4 => ⟨S330000, .i32⟩
  | 5 => ⟨S330000, .i32⟩
  | 6 => ⟨S330000, .i32⟩
  | 7 => ⟨S_, .i32⟩
  | 8 => ⟨S330000, .i32⟩
  | 9 => ⟨S330000, .i1⟩
  | 10 => ⟨S_, .i32⟩
  | 11 => ⟨S330000, .i32⟩
  | 12 => ⟨S330000, .i32⟩
  | 13 => ⟨S330000, .i32⟩
  | 14 => ⟨S330000x1, .i32⟩
  | 15 => ⟨S330000x1, .i32⟩
  | 16 => ⟨S330000x2, .i32⟩
  | 17 => ⟨S10000x10000, .f32⟩
  | 18 => ⟨S10000x10000, .bf16⟩
  | 19 => ⟨S10000x256, .bf16⟩
  | 20 => ⟨S1x256, .f32⟩
  | 21 => ⟨S10000x256, .bf16⟩
  | 22 => ⟨S10000x256, .bf16⟩
  | 23 => ⟨S1x256, .f32⟩
  | 24 => ⟨S10000x256, .bf16⟩
  | 25 => ⟨S10000x128, .bf16⟩
  | 26 => ⟨S1x128, .f32⟩
  | 27 => ⟨S10000x128, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .bf16⟩
  | .local _ .vmem, ⟨4, _⟩ => ⟨S1000x256, .bf16⟩
  | .local _ .vmem, ⟨5, _⟩ => ⟨S200x10000, .bf16⟩
  | .local _ .vmem, ⟨6, _⟩ => ⟨S200x10000, .bf16⟩
  | .local _ .vmem, ⟨7, _⟩ => ⟨S10000x256, .bf16⟩
  | .local _ .vmem, ⟨8, _⟩ => ⟨S1x256, .f32⟩
  | .local _ .vmem, ⟨9, _⟩ => ⟨S200x256, .bf16⟩
  | .local _ .vmem, ⟨10, _⟩ => ⟨S200x256, .bf16⟩
  | .local _ .vmem, ⟨11, _⟩ => ⟨S1000x256, .bf16⟩
  | .local _ .vmem, ⟨12, _⟩ => ⟨S1000x256, .bf16⟩
  | .local _ .vmem, ⟨13, _⟩ => ⟨S256x256, .f32⟩
  | .local _ .vmem, ⟨14, _⟩ => ⟨S1000x256, .bf16⟩
  | .local _ .vmem, ⟨15, _⟩ => ⟨S1000x256, .bf16⟩
  | .local _ .vmem, ⟨16, _⟩ => ⟨S200x10000, .bf16⟩
  | .local _ .vmem, ⟨17, _⟩ => ⟨S200x10000, .bf16⟩
  | .local _ .vmem, ⟨18, _⟩ => ⟨S10000x256, .bf16⟩
  | .local _ .vmem, ⟨19, _⟩ => ⟨S1x256, .f32⟩
  | .local _ .vmem, ⟨20, _⟩ => ⟨S200x256, .bf16⟩
  | .local _ .vmem, ⟨21, _⟩ => ⟨S200x256, .bf16⟩
  | .local _ .vmem, ⟨22, _⟩ => ⟨S1000x256, .bf16⟩
  | .local _ .vmem, ⟨23, _⟩ => ⟨S1000x256, .bf16⟩
  | .local _ .vmem, ⟨24, _⟩ => ⟨S256x128, .f32⟩
  | .local _ .vmem, ⟨25, _⟩ => ⟨S1000x128, .bf16⟩
  | .local _ .vmem, ⟨26, _⟩ => ⟨S1000x128, .bf16⟩
  | .local _ .vmem, ⟨27, _⟩ => ⟨S200x10000, .bf16⟩
  | .local _ .vmem, ⟨28, _⟩ => ⟨S200x10000, .bf16⟩
  | .local _ .vmem, ⟨29, _⟩ => ⟨S10000x128, .bf16⟩
  | .local _ .vmem, ⟨30, _⟩ => ⟨S1x128, .f32⟩
  | .local _ .vmem, ⟨31, _⟩ => ⟨S200x128, .f32⟩
  | .local _ .vmem, ⟨32, _⟩ => ⟨S200x128, .f32⟩
  | .local _ .vmem, ⟨33, _⟩ => ⟨S1000x256, .f32⟩
  | .local _ .vmem, ⟨34, _⟩ => ⟨S1000x256, .f32⟩
  | .local _ .vmem, ⟨35, _⟩ => ⟨S256x256, .f32⟩
  | .local _ .vmem, ⟨36, _⟩ => ⟨S1000x256, .bf16⟩
  | .local _ .vmem, ⟨37, _⟩ => ⟨S1000x256, .bf16⟩
  | .local _ .vmem, ⟨38, _⟩ => ⟨S200x10000, .bf16⟩
  | .local _ .vmem, ⟨39, _⟩ => ⟨S200x10000, .bf16⟩
  | .local _ .vmem, ⟨40, _⟩ => ⟨S10000x256, .bf16⟩
  | .local _ .vmem, ⟨41, _⟩ => ⟨S1x256, .f32⟩
  | .local _ .vmem, ⟨42, _⟩ => ⟨S200x256, .bf16⟩
  | .local _ .vmem, ⟨43, _⟩ => ⟨S200x256, .bf16⟩
  | .local _ .vmem, ⟨44, _⟩ => ⟨S1000x256, .bf16⟩
  | .local _ .vmem, ⟨45, _⟩ => ⟨S1000x256, .bf16⟩
  | .local _ .vmem, ⟨46, _⟩ => ⟨S256x256, .f32⟩
  | .local _ .vmem, ⟨47, _⟩ => ⟨S1000x256, .bf16⟩
  | .local _ .vmem, ⟨48, _⟩ => ⟨S1000x256, .bf16⟩
  | .local _ .vmem, ⟨49, _⟩ => ⟨S200x10000, .bf16⟩
  | .local _ .vmem, ⟨50, _⟩ => ⟨S200x10000, .bf16⟩
  | .local _ .vmem, ⟨51, _⟩ => ⟨S10000x256, .bf16⟩
  | .local _ .vmem, ⟨52, _⟩ => ⟨S1x256, .f32⟩
  | .local _ .vmem, ⟨53, _⟩ => ⟨S200x256, .bf16⟩
  | .local _ .vmem, ⟨54, _⟩ => ⟨S200x256, .bf16⟩
  | .local _ .vmem, ⟨55, _⟩ => ⟨S1000x256, .bf16⟩
  | .local _ .vmem, ⟨56, _⟩ => ⟨S1000x256, .bf16⟩
  | .local _ .vmem, ⟨57, _⟩ => ⟨S256x128, .f32⟩
  | .local _ .vmem, ⟨58, _⟩ => ⟨S1000x128, .bf16⟩
  | .local _ .vmem, ⟨59, _⟩ => ⟨S1000x128, .bf16⟩
  | .local _ .vmem, ⟨60, _⟩ => ⟨S200x10000, .bf16⟩
  | .local _ .vmem, ⟨61, _⟩ => ⟨S200x10000, .bf16⟩
  | .local _ .vmem, ⟨62, _⟩ => ⟨S10000x128, .bf16⟩
  | .local _ .vmem, ⟨63, _⟩ => ⟨S1x128, .f32⟩
  | .local _ .vmem, ⟨64, _⟩ => ⟨S200x128, .f32⟩
  | .local _ .vmem, ⟨65, _⟩ => ⟨S200x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_c_7 : Ref sig .tc := ⟨.hbm, 58, rfl⟩
abbrev main_v31 : Ref sig .tc := ⟨.hbm, 59, rfl⟩
abbrev main_v32 : Ref sig .tc := ⟨.hbm, 60, rfl⟩
abbrev main_c_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_call1_v0 : Ref sig .tc := ⟨.hbm, 104, rfl⟩
abbrev main_call1_v1 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_c_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_17 : Ref sig .tc := ⟨.hbm, 116, rfl⟩
abbrev main_v77 : Ref sig .tc := ⟨.hbm, 117, rfl⟩
abbrev main_v78 : Ref sig .tc := ⟨.hbm, 118, rfl⟩
abbrev main_c_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_19 : Ref sig .tc := ⟨.hbm, 126, rfl⟩
abbrev main_v85 : Ref sig .tc := ⟨.hbm, 127, rfl⟩
abbrev main_c_20 : Ref sig .tc := ⟨.hbm, 128, rfl⟩
abbrev main_v86 : Ref sig .tc := ⟨.hbm, 129, rfl⟩
abbrev main_v87 : Ref sig .tc := ⟨.hbm, 130, rfl⟩
abbrev main_c_21 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_c_23 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg3_0 : Ref sig .tc := ⟨.vmem, 53, rfl⟩
abbrev cc9_stg3_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg2_0 : Ref sig .tc := ⟨.vmem, 58, rfl⟩
abbrev cc10_stg2_1 : Ref sig .tc := ⟨.vmem, 59, rfl⟩
abbrev cc11_stg0_0 : Ref sig .tc := ⟨.vmem, 60, rfl⟩
abbrev cc11_stg0_1 : Ref sig .tc := ⟨.vmem, 61, rfl⟩
abbrev cc11_stg1_0 : Ref sig .tc := ⟨.vmem, 62, rfl⟩
abbrev cc11_stg2_0 : Ref sig .tc := ⟨.vmem, 63, rfl⟩
abbrev cc11_stg3_0 : Ref sig .tc := ⟨.vmem, 64, rfl⟩
abbrev cc11_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem3_0 : DmaSem sig := 53
abbrev cc9_sem3_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem3_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S200x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S200x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S200x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S200x10000 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S10000x256 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S200x256 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x256 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1000x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S200x10000 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S10000x128 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S200x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10000x10000 : S_.BroadcastsInDim S10000x10000 (![] : Fin 0 → Fin S10000x10000.rank)
  concatenates_S330000x1_S330000x1_S330000x2_d1 : Shape.Concatenates [S330000x1, S330000x1] S330000x2 1
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  packedbf16_S1000x256_S1000x256_0_0 : (Rect.unit (s := S1000x256) ![0, 0] S1000x256.size inb_S1000x256_S1000x256_0_0).PackedRows (EltTy.packing .bf16)
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10000x10000_S330000x2_S330000_n_01_01_1_wf : ScatterDims.WF S10000x10000 S330000x2 S330000 [] [0, 1] [0, 1] 1
  dot_S1000x256_S256x256_S1000x256_1_0_0_1_n_n_wf : DotDims.WF S1000x256 S256x256 S1000x256 [1] [0] [0] [1] [] []
  dot_S200x10000_S10000x256_S200x256_1_0_0_1_n_n_wf : DotDims.WF S200x10000 S10000x256 S200x256 [1] [0] [0] [1] [] []
  dot_S1000x256_S256x128_S1000x128_1_0_0_1_n_n_wf : DotDims.WF S1000x256 S256x128 S1000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .bf16 = 32 ∨ (Rect.block (s := S10000x256) S1000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .bf16 = 32 ∨ (Rect.block (s := S10000x10000) S200x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .bf16 = 32 ∨ (Rect.block (s := S10000x256) S200x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .bf16 = 32 ∨ (Rect.block (s := S10000x256) S1000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S10000x256.size a
  hwx2_2 : ∀ i : grid2.Coords, EltTy.bits .bf16 = 32 ∨ (Rect.block (s := S10000x256) S1000x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x256.size a ≤ S10000x256.size a
  hwx3_3 : ∀ i : grid3.Coords, EltTy.bits .bf16 = 32 ∨ (Rect.block (s := S10000x256) S200x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .bf16 = 32 ∨ (Rect.block (s := S10000x256) S1000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S10000x128.size a
  hwx4_2 : ∀ i : grid4.Coords, EltTy.bits .bf16 = 32 ∨ (Rect.block (s := S10000x128) S1000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x10000.size a ≤ S10000x10000.size a
  hwx5_0 : ∀ i : grid5.Coords, EltTy.bits .bf16 = 32 ∨ (Rect.block (s := S10000x10000) S200x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .bf16 = 32 ∨ (Rect.block (s := S10000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S200x128.size a ≤ S10000x128.size a
  hwx5_3 : ∀ i : grid5.Coords, EltTy.bits .f32 = 32 ∨ (Rect.block (s := S10000x128) S200x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x256.size a ≤ S10000x256.size a
  hwx6_0 : ∀ i : grid6.Coords, EltTy.bits .f32 = 32 ∨ (Rect.block (s := S10000x256) S1000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x256.size a ≤ S10000x256.size a
  hwx6_2 : ∀ i : grid6.Coords, EltTy.bits .bf16 = 32 ∨ (Rect.block (s := S10000x256) S1000x256.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S200x10000.size a ≤ S10000x10000.size a
  hwx7_0 : ∀ i : grid7.Coords, EltTy.bits .bf16 = 32 ∨ (Rect.block (s := S10000x10000) S200x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x256.size a ≤ S10000x256.size a
  hwx7_1 : ∀ i : grid7.Coords, EltTy.bits .bf16 = 32 ∨ (Rect.block (s := S10000x256) S10000x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S200x256.size a ≤ S10000x256.size a
  hwx7_3 : ∀ i : grid7.Coords, EltTy.bits .bf16 = 32 ∨ (Rect.block (s := S10000x256) S200x256.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S10000x256.size a
  hwx8_0 : ∀ i : grid8.Coords, EltTy.bits .bf16 = 32 ∨ (Rect.block (s := S10000x256) S1000x256.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x256.size a ≤ S256x256.size a
  hwx8_1 : ∀ i : grid8.Coords, EltTy.bits .f32 = 32 ∨ (Rect.block (s := S256x256) S256x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x256.size a ≤ S10000x256.size a
  hwx8_2 : ∀ i : grid8.Coords, EltTy.bits .bf16 = 32 ∨ (Rect.block (s := S10000x256) S1000x256.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S200x10000.size a ≤ S10000x10000.size a
  hwx9_0 : ∀ i : grid9.Coords, EltTy.bits .bf16 = 32 ∨ (Rect.block (s := S10000x10000) S200x10000.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10000x256.size a ≤ S10000x256.size a
  hwx9_1 : ∀ i : grid9.Coords, EltTy.bits .bf16 = 32 ∨ (Rect.block (s := S10000x256) S10000x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S200x256.size a ≤ S10000x256.size a
  hwx9_3 : ∀ i : grid9.Coords, EltTy.bits .bf16 = 32 ∨ (Rect.block (s := S10000x256) S200x256.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x256.size a ≤ S10000x256.size a
  hwx10_0 : ∀ i : grid10.Coords, EltTy.bits .bf16 = 32 ∨ (Rect.block (s := S10000x256) S1000x256.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x128.size a ≤ S10000x128.size a
  hwx10_2 : ∀ i : grid10.Coords, EltTy.bits .bf16 = 32 ∨ (Rect.block (s := S10000x128) S1000x128.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S200x10000.size a ≤ S10000x10000.size a
  hwx11_0 : ∀ i : grid11.Coords, EltTy.bits .bf16 = 32 ∨ (Rect.block (s := S10000x10000) S200x10000.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S10000x128.size a ≤ S10000x128.size a
  hwx11_1 : ∀ i : grid11.Coords, EltTy.bits .bf16 = 32 ∨ (Rect.block (s := S10000x128) S10000x128.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S200x128.size a ≤ S10000x128.size a
  hwx11_3 : ∀ i : grid11.Coords, EltTy.bits .f32 = 32 ∨ (Rect.block (s := S10000x128) S200x128.size (cc11_transform_3 i) (hinb11_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10000x10000_S330000x2_S330000_n_01_01_1 : ScatterDims S10000x10000 S330000x2 S330000 where
  updateWindowDims := []
  insertedWindowDims := [0, 1]
  scatterDimsToOperandDims := [0, 1]
  indexVectorDim := 1
  wf := scatter_S10000x10000_S330000x2_S330000_n_01_01_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S200x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S200x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S200x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg2) S1000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S200x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S10000x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v103) S200x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v103) S1000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S256x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S1000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v100) S200x10000.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S10000x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v106) S200x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v106) S1000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S256x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v107) S1000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v100) S200x10000.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v107) S10000x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v108) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v109) S200x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S10000x128 : Shape := ⟨2, ![10000, 128]⟩
abbrev S330000x128 : Shape := ⟨2, ![330000, 128]⟩
abbrev S1x128 : Shape := ⟨2, ![1, 128]⟩

abbrev nBuf : Space → Nat
  | .hbm => 388
  | .vmem => 0
  | .smem => 0
  | _ => 0

abbrev hbmTy0_0 (i : Nat) : BufTy := match i % 128 with
  | 0 => ⟨S10000x256, .f32⟩
  | 1 => ⟨S2x320000, .i32⟩
  | 2 => ⟨S10000x256, .f32⟩
  | 3 => ⟨S2x320000, .i32⟩
  | 4 => ⟨S256x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256x256, .f32⟩
  | 11 => ⟨S256, .f32⟩
  | 12 => ⟨S256x256, .f32⟩
  | 13 => ⟨S256, .f32⟩
  | 14 => ⟨S256x128, .f32⟩
  | 15 => ⟨S128, .f32⟩
  | 16 => ⟨S1x320000, .i32⟩
  | 17 => ⟨S320000, .i32⟩
  | 18 => ⟨S1x320000, .i32⟩
  | 19 => ⟨S320000, .i32⟩
  | 20 => ⟨S10000, .i32⟩
  | 21 => ⟨S330000, .i32⟩
  | 22 => ⟨S330000, .i32⟩
  | 23 => ⟨S_, .f32⟩
  | 24 => ⟨S330000, .f32⟩
  | 25 => ⟨S_, .f32⟩
  | 26 => ⟨S10000, .f32⟩
  | 27 => ⟨S330000x1, .i32⟩
  | 28 => ⟨S10000, .f32⟩
  | 29 => ⟨S_, .f32⟩
  | 30 => ⟨S10000, .f32⟩
  | 31 => ⟨S10000, .i1⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S_, .i32⟩
  | 47 => ⟨S330000, .i32⟩
  | 48 => ⟨S330000, .i1⟩
  | 49 => ⟨S_, .i32⟩
  | 50 => ⟨S330000, .i32⟩
  | 51 => ⟨S330000, .i32⟩
  | 52 => ⟨S330000, .i32⟩
  | 53 => ⟨S330000x1, .i32⟩
  | 54 => ⟨S330000, .f32⟩
  | 55 => ⟨S330000, .f32⟩
  | 56 => ⟨S10000x256, .f32⟩
  | 57 => ⟨S_, .i32⟩
  | 58 => ⟨S330000, .i32⟩
  | 59 => ⟨S330000, .i1⟩
  | 60 => ⟨S_, .i32⟩
  | 61 => ⟨S330000, .i32⟩
  | 62 => ⟨S330000, .i32⟩
  | 63 => ⟨S330000, .i32⟩
  | 64 => ⟨S330000x1, .i32⟩
  | 65 => ⟨S330000x256, .f32⟩
  | 66 => ⟨S330000x1, .f32⟩
  | 67 => ⟨S330000x256, .f32⟩
  | 68 => ⟨S330000x256, .f32⟩
  | 69 => ⟨S_, .f32⟩
  | 70 => ⟨S10000x256, .f32⟩
  | 71 => ⟨S330000x1, .i32⟩
  | 72 => ⟨S10000x256, .f32⟩
  | 73 => ⟨S1x256, .f32⟩
  | 74 => ⟨S10000x256, .f32⟩
  | 75 => ⟨S10000x256, .f32⟩
  | 76 => ⟨S_, .f32⟩
  | 77 => ⟨S10000x256, .f32⟩
  | 78 => ⟨S10000x256, .f32⟩
  | 79 => ⟨S1x320000, .i32⟩
  | 80 => ⟨S320000, .i32⟩
  | 81 => ⟨S1x320000, .i32⟩
  | 82 => ⟨S320000, .i32⟩
  | 83 => ⟨S10000, .i32⟩
  | 84 => ⟨S330000, .i32⟩
  | 85 => ⟨S330000, .i32⟩
  | 86 => ⟨S_, .f32⟩
  | 87 => ⟨S330000, .f32⟩
  | 88 => ⟨S_, .f32⟩
  | 89 => ⟨S10000, .f32⟩
  | 90 => ⟨S330000x1, .i32⟩
  | 91 => ⟨S10000, .f32⟩
  | 92 => ⟨S_, .f32⟩
  | 93 => ⟨S10000, .f32⟩
  | 94 => ⟨S10000, .i1⟩
  | 95 => ⟨S10000, .f32⟩
  | 96 => ⟨S_, .f32⟩
  | 97 => ⟨S_, .f32⟩
  | 98 => ⟨S10000, .f32⟩
  | 99 => ⟨S10000, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S330000, .f32⟩
  | 109 => ⟨S_, .i32⟩
  | 110 => ⟨S330000, .i32⟩
  | 111 => ⟨S330000, .i1⟩
  | 112 => ⟨S_, .i32⟩
  | 113 => ⟨S330000, .i32⟩
  | 114 => ⟨S330000, .i32⟩
  | 115 => ⟨S330000, .i32⟩
  | 116 => ⟨S330000x1, .i32⟩
  | 117 => ⟨S330000, .f32⟩
  | 118 => ⟨S330000, .f32⟩
  | 119 => ⟨S10000x256, .f32⟩
  | 120 => ⟨S_, .i32⟩
  | 121 => ⟨S330000, .i32⟩
  | 122 => ⟨S330000, .i1⟩
  | 123 => ⟨S_, .i32⟩
  | 124 => ⟨S330000, .i32⟩
  | 125 => ⟨S330000, .i32⟩
  | 126 => ⟨S330000, .i32⟩
  | 127 => ⟨S330000x1, .i32⟩
  | _ => ⟨S10000x256, .f32⟩

abbrev hbmTy0_1 (i : Nat) : BufTy := match i % 128 with
  | 0 => ⟨S330000x256, .f32⟩
  | 1 => ⟨S330000x1, .f32⟩
  | 2 => ⟨S330000x256, .f32⟩
  | 3 => ⟨S330000x256, .f32⟩
  | 4 => ⟨S_, .f32⟩
  | 5 => ⟨S10000x256, .f32⟩
  | 6 => ⟨S330000x1, .i32⟩
  | 7 => ⟨S10000x256, .f32⟩
  | 8 => ⟨S1x256, .f32⟩
  | 9 => ⟨S10000x256, .f32⟩
  | 10 => ⟨S10000x256, .f32⟩
  | 11 => ⟨S_, .f32⟩
  | 12 => ⟨S10000x256, .f32⟩
  | 13 => ⟨S10000x256, .f32⟩
  | 14 => ⟨S1x320000, .i32⟩
  | 15 => ⟨S320000, .i32⟩
  | 16 => ⟨S1x320000, .i32⟩
  | 17 => ⟨S320000, .i32⟩
  | 18 => ⟨S10000, .i32⟩
  | 19 => ⟨S330000, .i32⟩
  | 20 => ⟨S330000, .i32⟩
  | 21 => ⟨S_, .f32⟩
  | 22 => ⟨S330000, .f32⟩
  | 23 => ⟨S_, .f32⟩
  | 24 => ⟨S10000, .f32⟩
  | 25 => ⟨S330000x1, .i32⟩
  | 26 => ⟨S10000, .f32⟩
  | 27 => ⟨S_, .f32⟩
  | 28 => ⟨S10000, .f32⟩
  | 29 => ⟨S10000, .i1⟩
  | 30 => ⟨S10000, .f32⟩
  | 31 => ⟨S_, .f32⟩
  | 32 => ⟨S_, .f32⟩
  | 33 => ⟨S10000, .f32⟩
  | 34 => ⟨S10000, .f32⟩
  | 35 => ⟨S_, .i32⟩
  | 36 => ⟨S330000, .i32⟩
  | 37 => ⟨S330000, .i1⟩
  | 38 => ⟨S_, .i32⟩
  | 39 => ⟨S330000, .i32⟩
  | 40 => ⟨S330000, .i32⟩
  | 41 => ⟨S330000, .i32⟩
  | 42 => ⟨S330000x1, .i32⟩
  | 43 => ⟨S330000, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000, .f32⟩
  | 53 => ⟨S330000, .f32⟩
  | 54 => ⟨S10000x128, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x128, .f32⟩
  | 64 => ⟨S330000x1, .f32⟩
  | 65 => ⟨S330000x128, .f32⟩
  | 66 => ⟨S330000x128, .f32⟩
  | 67 => ⟨S_, .f32⟩
  | 68 => ⟨S10000x128, .f32⟩
  | 69 => ⟨S330000x1, .i32⟩
  | 70 => ⟨S10000x128, .f32⟩
  | 71 => ⟨S1x128, .f32⟩
  | 72 => ⟨S10000x128, .f32⟩
  | 73 => ⟨S10000x128, .f32⟩
  | 74 => ⟨S1x320000, .i32⟩
  | 75 => ⟨S320000, .i32⟩
  | 76 => ⟨S1x320000, .i32⟩
  | 77 => ⟨S320000, .i32⟩
  | 78 => ⟨S10000, .i32⟩
  | 79 => ⟨S330000, .i32⟩
  | 80 => ⟨S330000, .i32⟩
  | 81 => ⟨S_, .f32⟩
  | 82 => ⟨S330000, .f32⟩
  | 83 => ⟨S_, .f32⟩
  | 84 => ⟨S10000, .f32⟩
  | 85 => ⟨S330000x1, .i32⟩
  | 86 => ⟨S10000, .f32⟩
  | 87 => ⟨S_, .f32⟩
  | 88 => ⟨S10000, .f32⟩
  | 89 => ⟨S10000, .i1⟩
  | 90 => ⟨S10000, .f32⟩
  | 91 => ⟨S_, .f32⟩
  | 92 => ⟨S_, .f32⟩
  | 93 => ⟨S10000, .f32⟩
  | 94 => ⟨S10000, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S330000, .f32⟩
  | 104 => ⟨S_, .i32⟩
  | 105 => ⟨S330000, .i32⟩
  | 106 => ⟨S330000, .i1⟩
  | 107 => ⟨S_, .i32⟩
  | 108 => ⟨S330000, .i32⟩
  | 109 => ⟨S330000, .i32⟩
  | 110 => ⟨S330000, .i32⟩
  | 111 => ⟨S330000x1, .i32⟩
  | 112 => ⟨S330000, .f32⟩
  | 113 => ⟨S330000, .f32⟩
  | 114 => ⟨S10000x256, .f32⟩
  | 115 => ⟨S_, .i32⟩
  | 116 => ⟨S330000, .i32⟩
  | 117 => ⟨S330000, .i1⟩
  | 118 => ⟨S_, .i32⟩
  | 119 => ⟨S330000, .i32⟩
  | 120 => ⟨S330000, .i32⟩
  | 121 => ⟨S330000, .i32⟩
  | 122 => ⟨S330000x1, .i32⟩
  | 123 => ⟨S330000x256, .f32⟩
  | 124 => ⟨S330000x1, .f32⟩
  | 125 => ⟨S330000x256, .f32⟩
  | 126 => ⟨S330000x256, .f32⟩
  | 127 => ⟨S_, .f32⟩
  | _ => ⟨S10000x256, .f32⟩

abbrev hbmTy0_2 (i : Nat) : BufTy := match i % 128 with
  | 0 => ⟨S10000x256, .f32⟩
  | 1 => ⟨S330000x1, .i32⟩
  | 2 => ⟨S10000x256, .f32⟩
  | 3 => ⟨S1x256, .f32⟩
  | 4 => ⟨S10000x256, .f32⟩
  | 5 => ⟨S10000x256, .f32⟩
  | 6 => ⟨S_, .f32⟩
  | 7 => ⟨S10000x256, .f32⟩
  | 8 => ⟨S10000x256, .f32⟩
  | 9 => ⟨S1x320000, .i32⟩
  | 10 => ⟨S320000, .i32⟩
  | 11 => ⟨S1x320000, .i32⟩
  | 12 => ⟨S320000, .i32⟩
  | 13 => ⟨S10000, .i32⟩
  | 14 => ⟨S330000, .i32⟩
  | 15 => ⟨S330000, .i32⟩
  | 16 => ⟨S_, .f32⟩
  | 17 => ⟨S330000, .f32⟩
  | 18 => ⟨S_, .f32⟩
  | 19 => ⟨S10000, .f32⟩
  | 20 => ⟨S330000x1, .i32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S330000, .i32⟩
  | 32 => ⟨S330000, .i1⟩
  | 33 => ⟨S_, .i32⟩
  | 34 => ⟨S330000, .i32⟩
  | 35 => ⟨S330000, .i32⟩
  | 36 => ⟨S330000, .i32⟩
  | 37 => ⟨S330000x1, .i32⟩
  | 38 => ⟨S330000, .f32⟩
  | 39 => ⟨S_, .i32⟩
  | 40 => ⟨S330000, .i32⟩
  | 41 => ⟨S330000, .i1⟩
  | 42 => ⟨S_, .i32⟩
  | 43 => ⟨S330000, .i32⟩
  | 44 => ⟨S330000, .i32⟩
  | 45 => ⟨S330000, .i32⟩
  | 46 => ⟨S330000x1, .i32⟩
  | 47 => ⟨S330000, .f32⟩
  | 48 => ⟨S330000, .f32⟩
  | 49 => ⟨S10000x256, .f32⟩
  | 50 => ⟨S_, .i32⟩
  | 51 => ⟨S330000, .i32⟩
  | 52 => ⟨S330000, .i1⟩
  | 53 => ⟨S_, .i32⟩
  | 54 => ⟨S330000, .i32⟩
  | 55 => ⟨S330000, .i32⟩
  | 56 => ⟨S330000, .i32⟩
  | 57 => ⟨S330000x1, .i32⟩
  | 58 => ⟨S330000x256, .f32⟩
  | 59 => ⟨S330000x1, .f32⟩
  | 60 => ⟨S330000x256, .f32⟩
  | 61 => ⟨S330000x256, .f32⟩
  | 62 => ⟨S_, .f32⟩
  | 63 => ⟨S10000x256, .f32⟩
  | 64 => ⟨S330000x1, .i32⟩
  | 65 => ⟨S10000x256, .f32⟩
  | 66 => ⟨S1x256, .f32⟩
  | 67 => ⟨S10000x256, .f32⟩
  | 68 => ⟨S10000x256, .f32⟩
  | 69 => ⟨S_, .f32⟩
  | 70 => ⟨S10000x256, .f32⟩
  | 71 => ⟨S10000x256, .f32⟩
  | 72 => ⟨S1x320000, .i32⟩
  | 73 => ⟨S320000, .i32⟩
  | 74 => ⟨S1x320000, .i32⟩
  | 75 => ⟨S320000, .i32⟩
  | 76 => ⟨S10000, .i32⟩
  | 77 => ⟨S330000, .i32⟩
  | 78 => ⟨S330000, .i32⟩
  | 79 => ⟨S_, .f32⟩
  | 80 => ⟨S330000, .f32⟩
  | 81 => ⟨S_, .f32⟩
  | 82 => ⟨S10000, .f32⟩
  | 83 => ⟨S330000x1, .i32⟩
  | 84 => ⟨S10000, .f32⟩
  | 85 => ⟨S_, .f32⟩
  | 86 => ⟨S10000, .f32⟩
  | 87 => ⟨S10000, .i1⟩
  | 88 => ⟨S10000, .f32⟩
  | 89 => ⟨S_, .f32⟩
  | 90 => ⟨S_, .f32⟩
  | 91 => ⟨S10000, .f32⟩
  | 92 => ⟨S10000, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000, .f32⟩
  | 102 => ⟨S_, .i32⟩
  | 103 => ⟨S330000, .i32⟩
  | 104 => ⟨S330000, .i1⟩
  | 105 => ⟨S_, .i32⟩
  | 106 => ⟨S330000, .i32⟩
  | 107 => ⟨S330000, .i32⟩
  | 108 => ⟨S330000, .i32⟩
  | 109 => ⟨S330000x1, .i32⟩
  | 110 => ⟨S330000, .f32⟩
  | 111 => ⟨S330000, .f32⟩
  | 112 => ⟨S10000x128, .f32⟩
  | 113 => ⟨S_, .i32⟩
  | 114 => ⟨S330000, .i32⟩
  | 115 => ⟨S330000, .i1⟩
  | 116 => ⟨S_, .i32⟩
  | 117 => ⟨S330000, .i32⟩
  | 118 => ⟨S330000, .i32⟩
  | 119 => ⟨S330000, .i32⟩
  | 120 => ⟨S330000x1, .i32⟩
  | 121 => ⟨S330000x128, .f32⟩
  | 122 => ⟨S330000x1, .f32⟩
  | 123 => ⟨S330000x128, .f32⟩
  | 124 => ⟨S330000x128, .f32⟩
  | 125 => ⟨S_, .f32⟩
  | 126 => ⟨S10000x128, .f32⟩
  | 127 => ⟨S330000x1, .i32⟩
  | _ => ⟨S10000x256, .f32⟩

abbrev hbmTy0_3 (i : Nat) : BufTy := match i % 128 with
  | 0 => ⟨S10000x128, .f32⟩
  | 1 => ⟨S1x128, .f32⟩
  | 2 => ⟨S10000x128, .f32⟩
  | 3 => ⟨S10000x128, .f32⟩
  | _ => ⟨S10000x256, .f32⟩

abbrev hbmTy (i : Nat) : BufTy := match i / 128 with
  | 0 => hbmTy0_0 i
  | 1 => hbmTy0_1 i
  | 2 => hbmTy0_2 i
  | 3 => hbmTy0_3 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v62 : Ref sig .tc := ⟨.hbm, 99, rfl⟩
abbrev main_c_13 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_15 : Ref sig .tc := ⟨.hbm, 109, rfl⟩
abbrev main_v70 : Ref sig .tc := ⟨.hbm, 110, rfl⟩
abbrev main_v71 : Ref sig .tc := ⟨.hbm, 111, rfl⟩
abbrev main_c_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call3_cst : Ref sig .tc := ⟨.hbm, 139, rfl⟩
abbrev main_call3_v0 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_20 : Ref sig .tc := ⟨.hbm, 149, rfl⟩
abbrev main_v103 : Ref sig .tc := ⟨.hbm, 150, rfl⟩
abbrev main_cst_21 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_22 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_23 : Ref sig .tc := ⟨.hbm, 159, rfl⟩
abbrev main_call4_v0 : Ref sig .tc := ⟨.hbm, 160, rfl⟩
abbrev main_call4_v1 : Ref sig .tc := ⟨.hbm, 161, rfl⟩
abbrev main_v110 : Ref sig .tc := ⟨.hbm, 162, rfl⟩
abbrev main_c_24 : Ref sig .tc := ⟨.hbm, 163, rfl⟩
abbrev main_v111 : Ref sig .tc := ⟨.hbm, 164, rfl⟩
abbrev main_v112 : Ref sig .tc := ⟨.hbm, 165, rfl⟩
abbrev main_c_25 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_26 : Ref sig .tc := ⟨.hbm, 172, rfl⟩
abbrev main_v118 : Ref sig .tc := ⟨.hbm, 173, rfl⟩
abbrev main_v119 : Ref sig .tc := ⟨.hbm, 174, rfl⟩
abbrev main_c_27 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c_28 : Ref sig .tc := ⟨.hbm, 183, rfl⟩
abbrev main_v127 : Ref sig .tc := ⟨.hbm, 184, rfl⟩
abbrev main_v128 : Ref sig .tc := ⟨.hbm, 185, rfl⟩
abbrev main_c_29 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_30 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_31 : Ref sig .tc := ⟨.hbm, 209, rfl⟩
abbrev main_v150 : Ref sig .tc := ⟨.hbm, 210, rfl⟩
abbrev main_cst_32 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_33 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_34 : Ref sig .tc := ⟨.hbm, 219, rfl⟩
abbrev main_call5_v0 : Ref sig .tc := ⟨.hbm, 220, rfl⟩
abbrev main_call5_v1 : Ref sig .tc := ⟨.hbm, 221, rfl⟩
abbrev main_v157 : Ref sig .tc := ⟨.hbm, 222, rfl⟩
abbrev main_c_35 : Ref sig .tc := ⟨.hbm, 223, rfl⟩
abbrev main_v158 : Ref sig .tc := ⟨.hbm, 224, rfl⟩
abbrev main_v159 : Ref sig .tc := ⟨.hbm, 225, rfl⟩
abbrev main_c_36 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_c_37 : Ref sig .tc := ⟨.hbm, 232, rfl⟩
abbrev main_v165 : Ref sig .tc := ⟨.hbm, 233, rfl⟩
abbrev main_v166 : Ref sig .tc := ⟨.hbm, 234, rfl⟩
abbrev main_c_38 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_c_39 : Ref sig .tc := ⟨.hbm, 243, rfl⟩
abbrev main_v174 : Ref sig .tc := ⟨.hbm, 244, rfl⟩
abbrev main_v175 : Ref sig .tc := ⟨.hbm, 245, rfl⟩
abbrev main_c_40 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_cst_41 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_call6_cst : Ref sig .tc := ⟨.hbm, 262, rfl⟩
abbrev main_call6_v0 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_42 : Ref sig .tc := ⟨.hbm, 272, rfl⟩
abbrev main_v198 : Ref sig .tc := ⟨.hbm, 273, rfl⟩
abbrev main_cst_43 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_cst_44 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_cst_45 : Ref sig .tc := ⟨.hbm, 282, rfl⟩
abbrev main_call7_v0 : Ref sig .tc := ⟨.hbm, 283, rfl⟩
abbrev main_call7_v1 : Ref sig .tc := ⟨.hbm, 284, rfl⟩
abbrev main_v205 : Ref sig .tc := ⟨.hbm, 285, rfl⟩
abbrev main_c_46 : Ref sig .tc := ⟨.hbm, 286, rfl⟩
abbrev main_v206 : Ref sig .tc := ⟨.hbm, 287, rfl⟩
abbrev main_v207 : Ref sig .tc := ⟨.hbm, 288, rfl⟩
abbrev main_c_47 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_c_48 : Ref sig .tc := ⟨.hbm, 295, rfl⟩
abbrev main_v213 : Ref sig .tc := ⟨.hbm, 296, rfl⟩
abbrev main_v214 : Ref sig .tc := ⟨.hbm, 297, rfl⟩
abbrev main_c_49 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_c_50 : Ref sig .tc := ⟨.hbm, 306, rfl⟩
abbrev main_v222 : Ref sig .tc := ⟨.hbm, 307, rfl⟩
abbrev main_v223 : Ref sig .tc := ⟨.hbm, 308, rfl⟩
abbrev main_c_51 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_cst_52 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_call8_cst : Ref sig .tc := ⟨.hbm, 325, rfl⟩
abbrev main_call8_v0 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_cst_53 : Ref sig .tc := ⟨.hbm, 335, rfl⟩
abbrev main_v246 : Ref sig .tc := ⟨.hbm, 336, rfl⟩
abbrev main_cst_54 : Ref sig .tc := ⟨.hbm, 337, rfl⟩
abbrev main_v247 : Ref sig .tc := ⟨.hbm, 338, rfl⟩
abbrev main_v248 : Ref sig .tc := ⟨.hbm, 339, rfl⟩
abbrev main_v249 : Ref sig .tc := ⟨.hbm, 340, rfl⟩
abbrev main_cst_55 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_cst_56 : Ref sig .tc := ⟨.hbm, 345, rfl⟩
abbrev main_call9_v0 : Ref sig .tc := ⟨.hbm, 346, rfl⟩
abbrev main_call9_v1 : Ref sig .tc := ⟨.hbm, 347, rfl⟩
abbrev main_v253 : Ref sig .tc := ⟨.hbm, 348, rfl⟩
abbrev main_c_57 : Ref sig .tc := ⟨.hbm, 349, rfl⟩
abbrev main_v254 : Ref sig .tc := ⟨.hbm, 350, rfl⟩
abbrev main_v255 : Ref sig .tc := ⟨.hbm, 351, rfl⟩
abbrev main_c_58 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_c_59 : Ref sig .tc := ⟨.hbm, 358, rfl⟩
abbrev main_v261 : Ref sig .tc := ⟨.hbm, 359, rfl⟩
abbrev main_v262 : Ref sig .tc := ⟨.hbm, 360, rfl⟩
abbrev main_c_60 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_c_61 : Ref sig .tc := ⟨.hbm, 369, rfl⟩
abbrev main_v270 : Ref sig .tc := ⟨.hbm, 370, rfl⟩
abbrev main_v271 : Ref sig .tc := ⟨.hbm, 371, rfl⟩
abbrev main_c_62 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_v279 : Ref sig .tc := ⟨.hbm, 380, rfl⟩
abbrev main_cst_63 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x256_S10000x256_1_0_0_1_n_n_wf : DotDims.WF S10000x256 S256x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x128_S10000x128_1_0_0_1_n_n_wf : DotDims.WF S10000x256 S256x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf

class Facts : Prop extends Facts₀ where

variable [Facts]
-- ==== Proof.RefSpec.lean ====
/-
  The reference, stage by stage.

  Each stream of the reference is three graph convolutions. A convolution takes the edge list (row 0 of the index
  argument: sources, row 1: destinations), extends it by one self-loop per node, counts each node's in-degree
  (a scatter-add of ones over the destinations), takes dinv = 1/sqrt(deg) where the degree is positive and 0 elsewhere,
  gives edge e the weight norm e = dinv(src e) · dinv(dst e), multiplies the features by the layer's matrix, gathers the
  product's row src e for every edge, scales it by norm e, adds the scaled rows into the rows dst e (a scatter-add from
  zero), and adds the bias to every row; the first two convolutions are followed by max(·, 0).
  The program's run ends with each result at the composition of these stages; that composition, opened, is the
  run's own term.
-/
import proofs.«100568_j75265006895440_2_alg».proof.Proof.RefRunP

noncomputable section

namespace Cert.RefSpec

open Cert.ReferenceIdeal Cert.ReferenceIdeal.Gen Idealize.ShloMosaic Idealize.ShloMosaic.TcCoe Idealize.SL.Sem Idealize.ShloMosaic.StableHlo

variable {F : FTy → Type} [FloatOps F]

/-- The sources of the edges, then one self-loop per node. -/
def srcExt (x1 : IVec S2x320000 32) : IVec S330000 32 :=
  concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0
/-- The destinations of the edges, then one self-loop per node. -/
def dstExt (x1 : IVec S2x320000 32) : IVec S330000 32 :=
  concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0
/-- A negative index counts from the end: v + 10000 where v < 0, v elsewhere. -/
def wrapI (v : IVec S330000 32) : IVec S330000 32 :=
  select (cmpi .slt v (broadcastInDim S330000 ![] bcast_S_S330000 (constantI S_ 32 0#32))) (addi v (broadcastInDim S330000 ![] bcast_S_S330000 (constantI S_ 32 10000#32))) v
/-- A list of indices as a column of one-component index vectors. -/
def col (v : IVec S330000 32) : IVec S330000x1 32 := broadcastInDim S330000x1 ![0] bcast_S330000_S330000x1_0 v
/-- The zero vector over the nodes. -/
def zerosN : FVec F S10000 .f32 := broadcastInDim S10000 ![] bcast_S_S10000 (constant (F := F) S_ .f32 0x00000000#32)
/-- One per edge. -/
def onesE : FVec F S330000 .f32 := broadcastInDim S330000 ![] bcast_S_S330000 (constant (F := F) S_ .f32 0x3F800000#32)
/-- The in-degree of every node, self-loop included. -/
def deg (x1 : IVec S2x320000 32) : FVec F S10000 .f32 :=
  Host.scatterAdd scatter_S10000_S330000x1_S330000_n_0_0_1 (zerosN (F := F)) (col (dstExt x1)) (onesE (F := F))
/-- 1/sqrt(deg) where the degree is positive, 0 elsewhere. -/
def dinv (x1 : IVec S2x320000 32) : FVec F S10000 .f32 :=
  select (cmpf .ogt (deg (F := F) x1) (zerosN (F := F))) (Host.rsqrt (deg (F := F) x1)) (broadcastInDim S10000 ![] bcast_S_S10000 (id (constant (F := F) S_ .f32 0x00000000#32)))
/-- The weight of every edge: dinv at its source times dinv at its destination. -/
def norm (x1 : IVec S2x320000 32) : FVec F S330000 .f32 :=
  mulf (Host.gather gather_S10000_S330000x1_S330000_n_0_n_n_0_1_1 (dinv (F := F) x1) (col (wrapI (srcExt x1))))
    (Host.gather gather_S10000_S330000x1_S330000_n_0_n_n_0_1_1 (dinv (F := F) x1) (col (wrapI (dstExt x1))))

/-- The scaled rows summed into their destinations, 256 features wide. -/
def agg256 (x1 : IVec S2x320000 32) (Hm : FVec F S10000x256 .f32) : FVec F S10000x256 .f32 :=
  Host.scatterAdd scatter_S10000x256_S330000x1_S330000x256_1_0_0_1 (broadcastInDim S10000x256 ![] bcast_S_S10000x256 (constant (F := F) S_ .f32 0x00000000#32)) (col (dstExt x1))
    (mulf (Host.gather gather_S10000x256_S330000x1_S330000x256_1_0_n_n_0_1_1256 Hm (col (wrapI (srcExt x1))))
      (broadcastInDim S330000x256 ![0, 1] bcast_S330000x1_S330000x256_0_1 (broadcastInDim S330000x1 ![0] bcast_S330000_S330000x1_0 (norm (F := F) x1))))
/-- The same, 128 features wide. -/
def agg128 (x1 : IVec S2x320000 32) (Hm : FVec F S10000x128 .f32) : FVec F S10000x128 .f32 :=
  Host.scatterAdd scatter_S10000x128_S330000x1_S330000x128_1_0_0_1 (broadcastInDim S10000x128 ![] bcast_S_S10000x128 (constant (F := F) S_ .f32 0x00000000#32)) (col (dstExt x1))
    (mulf (Host.gather gather_S10000x128_S330000x1_S330000x128_1_0_n_n_0_1_1128 Hm (col (wrapI (srcExt x1))))
      (broadcastInDim S330000x128 ![0, 1] bcast_S330000x1_S330000x128_0_1 (broadcastInDim S330000x1 ![0] bcast_S330000_S330000x1_0 (norm (F := F) x1))))

/-- A convolution to 256 features: transform, aggregate, add the bias to every row. -/
def conv256 (x1 : IVec S2x320000 32) (X : FVec F S10000x256 .f32) (W : FVec F S256x256 .f32) (b : FVec F S256 .f32) : FVec F S10000x256 .f32 :=
  addf (agg256 x1 (Host.dotGeneral dot_S10000x256_S256x256_S10000x256_1_0_0_1_n_n none X W))
    (broadcastInDim S10000x256 ![0, 1] bcast_S1x256_S10000x256_0_1 (broadcastInDim S1x256 ![1] bcast_S256_S1x256_1 b))
/-- A convolution to 128 features. -/
def conv128 (x1 : IVec S2x320000 32) (X : FVec F S10000x256 .f32) (W : FVec F S256x128 .f32) (b : FVec F S128 .f32) : FVec F S10000x128 .f32 :=
  addf (agg128 x1 (Host.dotGeneral dot_S10000x256_S256x128_S10000x128_1_0_0_1_n_n none X W))
    (broadcastInDim S10000x128 ![0, 1] bcast_S1x128_S10000x128_0_1 (broadcastInDim S1x128 ![1] bcast_S128_S1x128_1 b))
/-- max(·, 0) entry by entry. -/
def relu256 (X : FVec F S10000x256 .f32) : FVec F S10000x256 .f32 :=
  maximumf X (broadcastInDim S10000x256 ![] bcast_S_S10000x256 (constant (F := F) S_ .f32 0x00000000#32))

/-- One stream: three convolutions, the first two followed by max(·, 0). -/
def stack (x1 : IVec S2x320000 32) (X : FVec F S10000x256 .f32) (W1 : FVec F S256x256 .f32) (b1 : FVec F S256 .f32)
    (W2 : FVec F S256x256 .f32) (b2 : FVec F S256 .f32) (W3 : FVec F S256x128 .f32) (b3 : FVec F S128 .f32) : FVec F S10000x128 .f32 :=
  conv128 x1 (relu256 (conv256 x1 (relu256 (conv256 x1 X W1 b1)) W2 b2)) W3 b3

variable (m : (ℓ : Loc nD τ sig) → Buf (Elt F) ℓ) (c : Dev nD)

/-- The first stream's result term is the stack of its arguments. -/
theorem res_x : Cert.ReferenceIdeal.ValueP.res_main_v142 m c
    = stack (m ((c.tc : Thread nD τ).loc main_arg1)) (m ((c.tc : Thread nD τ).loc main_arg0))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := rfl

/-- The second stream's result term is the stack of its arguments. -/
theorem res_y : Cert.ReferenceIdeal.ValueP.res_main_v285 m c
    = stack (m ((c.tc : Thread nD τ).loc main_arg3)) (m ((c.tc : Thread nD τ).loc main_arg2))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15)) := rfl

end Cert.RefSpec

end
-- ==== Proof.LibRealEntries.lean ====
/-
  Entries that are real numbers, and the two spellings of a batch's variance.

  On the extended reals the sum and the product are total, but distributing a product over a sum, or cancelling, is
  sound only away from the infinities. `IsReal x` says that `x` is a real number. The operations a normalisation layer is
  spelled with keep entries real: sums, differences, products, maxima, finite sums, a quotient by a nonzero real, the
  reciprocal square root of a positive real; and so do a product of matrices (every entry a finite sum of products), a
  read through an index map, a scatter that adds updates onto an array (every entry the old entry plus a finite sum of
  updates) and a sum over an axis.

  For real entries x_1 … x_n with mean μ = (∑ x_i)/n the mean of the squared deviations, (∑ (x_i − μ)²)/n, is the mean
  of the squares minus the squared mean, (∑ x_i²)/n − μ·μ: expand the square and use ∑ x_i = n·μ. It is nonnegative, so
  adding a positive real and taking the reciprocal square root gives a real.
-/
import Idealize.ShloMosaic.PureOps.Ideal.Laws

noncomputable section

open scoped BigOperators

namespace Cert.LibRealEntries

open Idealize.ShloMosaic

/-- An extended real that is a real number. -/
def IsReal (x : EReal) : Prop := ∃ r : ℝ, x = (r : EReal)

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  rcases max_choice x y with h | h <;> rw [h] <;> assumption

theorem sum {ι : Type} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- A quotient by a nonzero real. -/
theorem div {x : EReal} (hx : IsReal x) {n : ℝ} (hn : n ≠ 0) : IsReal (Ideal.div x (n : EReal)) := by
  rw [Ideal.div_coe hn]; exact mul hx (coe _)

/-- The reciprocal square root of a positive real. -/
theorem rsqrt_pos {r : ℝ} (h : 0 < r) : IsReal (Ideal.rsqrt (r : EReal)) := by
  rw [Ideal.rsqrt_coe, if_neg (not_lt.mpr h.le), if_neg h.ne']; exact coe _

end IsReal

/-! ## Whole arrays -/

/-- Every entry is a real number. -/
def AllReal {ι : Type} (v : ι → EReal) : Prop := ∀ i, IsReal (v i)

namespace AllReal

variable {ι κ : Type}

theorem const {x : EReal} (hx : IsReal x) : AllReal (fun _ : ι => x) := fun _ => hx

/-- A read through any index map. -/
theorem comp {v : ι → EReal} (hv : AllReal v) (e : κ → ι) : AllReal (fun j => v (e j)) := fun j => hv (e j)

theorem add {u v : ι → EReal} (hu : AllReal u) (hv : AllReal v) : AllReal (fun i => u i + v i) := fun i => (hu i).add (hv i)
theorem sub {u v : ι → EReal} (hu : AllReal u) (hv : AllReal v) : AllReal (fun i => u i - v i) := fun i => (hu i).sub (hv i)
theorem mul {u v : ι → EReal} (hu : AllReal u) (hv : AllReal v) : AllReal (fun i => u i * v i) := fun i => (hu i).mul (hv i)
theorem max {u v : ι → EReal} (hu : AllReal u) (hv : AllReal v) : AllReal (fun i => Max.max (u i) (v i)) := fun i => (hu i).max (hv i)

/-- Layout operations read the operand through an index map. -/
theorem broadcastInDim {s t : Shape} (dims : Fin s.rank → Fin t.rank) (h : s.BroadcastsInDim t dims) {x : s.Idx → EReal}
    (hx : AllReal x) : AllReal (Idealize.ShloMosaic.broadcastInDim t dims h x) := fun _ => hx _

theorem broadcastTo {s t : Shape} (h : s.Broadcasts t) {x : s.Idx → EReal} (hx : AllReal x) :
    AllReal (Idealize.ShloMosaic.broadcastTo t x h) := fun _ => hx _

theorem shapeCast {s t : Shape} (h : s.ShapeCasts t) {x : s.Idx → EReal} (hx : AllReal x) :
    AllReal (Idealize.ShloMosaic.shapeCast t x h) := fun _ => hx _

theorem gather {s si t : Shape} {w : Nat} (d : GatherDims s si t) {x : s.Idx → EReal} (idx : IVec si w) (hx : AllReal x) :
    AllReal (Host.gather d x idx) := fun _ => hx _

/-- The entrywise operations on arrays. -/
theorem vaddf {s : Shape} {φ : FTy} {x y : FVec Ideal s φ} (hx : AllReal x) (hy : AllReal y) :
    AllReal (Idealize.ShloMosaic.addf x y) := fun i => (hx i).add (hy i)
theorem vsubf {s : Shape} {φ : FTy} {x y : FVec Ideal s φ} (hx : AllReal x) (hy : AllReal y) :
    AllReal (Idealize.ShloMosaic.subf x y) := fun i => (hx i).sub (hy i)
theorem vmulf {s : Shape} {φ : FTy} {x y : FVec Ideal s φ} (hx : AllReal x) (hy : AllReal y) :
    AllReal (Idealize.ShloMosaic.mulf x y) := fun i => (hx i).mul (hy i)
theorem vmaximumf {s : Shape} {φ : FTy} {x y : FVec Ideal s φ} (hx : AllReal x) (hy : AllReal y) :
    AllReal (Idealize.ShloMosaic.maximumf x y) := fun i => (hx i).max (hy i)

/-- The host's product of two arrays of reals: every entry is a finite sum of products. -/
theorem dotGeneral {sl sr so : Shape} {φ₁ φ₂ : FTy} (d : DotDims sl sr so) (prec : Option ContractPrecision) (sched : HostSchedule)
    {lhs : FVec Ideal sl φ₁} {rhs : FVec Ideal sr φ₂} (hl : AllReal lhs) (hr : AllReal rhs) :
    AllReal (FloatOps.dotGeneral d prec sched lhs rhs) := fun j => by
  rw [Ideal.dotGeneral_apply]
  exact IsReal.sum _ _ fun k _ => (hl _).mul (hr _)

/-- A scatter that adds real updates onto an array of reals: every entry is the old entry plus a finite sum of updates. -/
theorem scatterAdd {s si su : Shape} {φ : FTy} {w : Nat} (d : ScatterDims s si su) (sched : HostSchedule)
    {x : FVec Ideal s φ} (idx : IVec si w) {upd : FVec Ideal su φ} (hx : AllReal x) (hu : AllReal upd) :
    AllReal (FloatOps.hostScatterAdd d sched x idx upd) := fun i => by
  rw [Ideal.hostScatterAdd_def]
  exact (hx i).add (IsReal.sum _ _ fun j _ => hu j)

/-- The host's sum over axes, from a real initial value. -/
theorem hostReduceAdd {s t : Shape} {φ : FTy} (axes : List (Fin s.rank)) (h : s.ReducesTo axes t) (sched : HostSchedule)
    {v : FVec Ideal s φ} {init : Ideal φ} (hv : AllReal v) (hi : IsReal init) :
    AllReal (FloatOps.hostReduceAdd axes h sched v init) := fun j => by
  rw [Ideal.hostReduceAdd_def]
  exact hi.add (IsReal.sum _ _ fun i _ => hv i)

end AllReal

/-! ## Nonnegative reals: a count -/

/-- An extended real that is a nonnegative real number. -/
def IsNonneg (x : EReal) : Prop := ∃ r : ℝ, 0 ≤ r ∧ x = (r : EReal)

namespace IsNonneg

theorem add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem sum {ι : Type} (s : Finset ι) (f : ι → EReal) (h : ∀ i ∈ s, IsNonneg (f i)) : IsNonneg (∑ i ∈ s, f i) := by
  classical
  induction s using Finset.induction_on with
  | empty => exact ⟨0, le_refl _, by simp⟩
  | insert a s ha ih =>
    rw [Finset.sum_insert ha]
    exact add (h a (Finset.mem_insert_self a s)) (ih fun i hi => h i (Finset.mem_insert_of_mem hi))

/-- A scatter that adds nonnegative updates onto nonnegative entries: a count of edges is one. -/
theorem scatterAdd {s si su : Shape} {φ : FTy} {w : Nat} (d : ScatterDims s si su) (sched : HostSchedule)
    {x : FVec Ideal s φ} (idx : IVec si w) {upd : FVec Ideal su φ} (hx : ∀ i, IsNonneg (x i)) (hu : ∀ j, IsNonneg (upd j)) (i : s.Idx) :
    IsNonneg (FloatOps.hostScatterAdd d sched x idx upd i) := by
  rw [Ideal.hostScatterAdd_def]
  exact (hx i).add (sum _ _ fun j _ => hu j)

end IsNonneg

/-! ## The two spellings of the variance -/

variable {ι : Type} [Fintype ι]

/-- Over the reals: the mean of the squared deviations is the mean of the squares minus the squared mean. -/
theorem real_moments (r : ι → ℝ) (n : ℝ) (hn : (Fintype.card ι : ℝ) = n) (h0 : n ≠ 0) :
    (∑ i, (r i - (∑ i, r i) * (1 / n)) * (r i - (∑ i, r i) * (1 / n))) * (1 / n)
      = (∑ i, r i * r i) * (1 / n) - ((∑ i, r i) * (1 / n)) * ((∑ i, r i) * (1 / n)) := by
  set S := ∑ i, r i with hS
  have h1 : ∑ i, (r i - S * (1 / n)) * (r i - S * (1 / n))
      = ∑ i, r i * r i - 2 * (S * (1 / n)) * S + n * ((S * (1 / n)) * (S * (1 / n))) := by
    have : ∀ i, (r i - S * (1 / n)) * (r i - S * (1 / n))
        = r i * r i - 2 * (S * (1 / n)) * r i + (S * (1 / n)) * (S * (1 / n)) := fun i => by ring
    simp only [this, Finset.sum_add_distrib, Finset.sum_sub_distrib, ← Finset.mul_sum, Finset.sum_const, Finset.card_univ,
      nsmul_eq_mul, hn, ← hS]
    ring
  rw [h1]
  field_simp
  ring

/-- The sum of the squared deviations of reals is a nonnegative real. -/
theorem real_dev_nonneg (r : ι → ℝ) (μ : ℝ) : 0 ≤ ∑ i, (r i - μ) * (r i - μ) :=
  Finset.sum_nonneg fun i _ => mul_self_nonneg _

/-- On the extended reals, for real entries: the mean of the squared deviations from the mean is the mean of the
    squares minus the squared mean. -/
theorem moments (x : ι → EReal) (hx : AllReal x) (n : ℝ) (hn : (Fintype.card ι : ℝ) = n) (h0 : n ≠ 0) :
    Ideal.div (∑ i, (x i - Ideal.div (∑ i, x i) n) * (x i - Ideal.div (∑ i, x i) n)) n
      = Ideal.div (∑ i, x i * x i) n - Ideal.div (∑ i, x i) n * Ideal.div (∑ i, x i) n := by
  choose r hr using hx
  obtain rfl : x = fun i => (r i : EReal) := funext hr
  simp only [Ideal.div_coe h0, ← coe_sum, ← EReal.coe_mul, ← EReal.coe_sub]
  exact congrArg _ (real_moments r n hn h0)

/-- For real entries the mean of the squared deviations plus a positive real has a real reciprocal square root. -/
theorem rsqrt_var_isReal (x : ι → EReal) (hx : AllReal x) (n : ℝ) (hn : (Fintype.card ι : ℝ) = n) (h0 : n ≠ 0)
    {e : ℝ} (he : 0 < e) :
    IsReal (Ideal.rsqrt (Ideal.div (∑ i, (x i - Ideal.div (∑ i, x i) n) * (x i - Ideal.div (∑ i, x i) n)) n + (e : EReal))) := by
  choose r hr using hx
  obtain rfl : x = fun i => (r i : EReal) := funext hr
  have hnpos : 0 < n := by
    have : (0 : ℝ) ≤ n := hn ▸ Nat.cast_nonneg _
    exact lt_of_le_of_ne this (Ne.symm h0)
  simp only [Ideal.div_coe h0, ← coe_sum, ← EReal.coe_mul, ← EReal.coe_sub, ← EReal.coe_add]
  refine IsReal.rsqrt_pos ?_
  have := real_dev_nonneg r ((∑ i, r i) * (1 / n))
  have h2 : 0 ≤ (∑ i, (r i - (∑ i, r i) * (1 / n)) * (r i - (∑ i, r i) * (1 / n))) * (1 / n) :=
    mul_nonneg this (by positivity)
  linarith

/-- The mean of real entries is real. -/
theorem mean_isReal (x : ι → EReal) (hx : AllReal x) (n : ℝ) (h0 : n ≠ 0) : IsReal (Ideal.div (∑ i, x i) n) :=
  (IsReal.sum _ _ fun i _ => hx i).div h0

end Cert.LibRealEntries

end
-- ==== Proof.PreFacts.lean ====
/-
  The precondition of the certificate, read back as facts about its sixteen arguments.

  The precondition is the conjunction of sixteen tests, each a conjunction over all entries of one argument. For a float
  argument x the test at an entry is |x| < +∞, where |x| = max x (-x) on the extended reals and the bound is the value of
  the pattern 0x7F800000, which is +∞: max x (-x) < ⊤ excludes x = ⊤ (then max x (-x) = ⊤) and x = ⊥ (then -x = ⊤), so x is
  a real number. For an integer argument a the test at an entry is (a ≥ 0) ∧ (a < 10000), both comparisons signed, so the
  entry read as a signed integer lies in [0, 10000). A conjunction of one-bit words is 1 exactly when each word is 1, and
  a conjunction over all entries that is 1 met only 1s; so the whole predicate being 1 gives every entry test.
-/
import proofs.«100568_j75265006895440_2_alg».proof.Proof.Gen.Pre_finite_inputs
import proofs.«100568_j75265006895440_2_alg».proof.Proof.LibRealEntries
import Idealize.ShloMosaic.Lib.ReduceAll
import Idealize.ShloMosaic.Lib.ValueIdx

noncomputable section

namespace Cert.PreFacts

open Cert.LibRealEntries Idealize.ShloMosaic Cert.Pre_finite_inputs

/-- The scalar shape has one index. -/
instance : Subsingleton S_.Idx := ⟨fun a b => funext fun d => d.elim0⟩

/-- One entry: |x| < +∞ on the extended reals says that x is a real number. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have h' : max (x : EReal) (-(x : EReal)) < ⊤ := by
    by_contra hn
    have h0 : Ideal.cmp .olt (max (x : EReal) (-(x : EReal))) ⊤ = 0#1 := by simp [Ideal.cmp, hn]
    rw [h0] at h
    exact absurd h (by decide)
  rw [max_lt_iff] at h'
  obtain ⟨h1, h2⟩ := h'
  induction x using EReal.rec with
  | bot => simp at h2
  | coe r => exact ⟨r, rfl⟩
  | top => simp at h1

/-- A float argument: the conjunction over all entries of |x| < +∞ being 1 says every entry is a real number. -/
theorem allReal_of_all {s : Shape} {axes : List (Fin s.rank)} (x : FVec Ideal s .f32)
    (bc : S_.BroadcastsInDim s (![] : Fin 0 → Fin s.rank)) (hr : s.ReducesTo axes S_) (hu : 0 < S_.numel) (init : IVec S_ 1)
    (h : Host.reduce IntOp.andi (cmpf .olt (Host.absf x) (broadcastInDim s ![] bc (constant S_ .f32 0x7F800000#32))) init hr hu
      ValueIdx.ix0 = 1#1) : AllReal x := fun i =>
  isReal_of_abs_lt_inf (x i) (Host.reduce_andi_all _ init hr hu ValueIdx.ix0 h i)

/-- An integer argument: the conjunction over all entries of (a ≥ 0) ∧ (a < 10000) being 1 says every entry, read signed,
    lies in [0, 10000). -/
theorem range_of_all {s : Shape} {axes : List (Fin s.rank)} (a : IVec s 32)
    (bc : S_.BroadcastsInDim s (![] : Fin 0 → Fin s.rank)) (hr : s.ReducesTo axes S_) (hu : 0 < S_.numel) (init : IVec S_ 1)
    (h : Host.reduce IntOp.andi (andi (cmpi .sge a (broadcastInDim s ![] bc (constantI S_ 32 0#32)))
        (cmpi .slt a (broadcastInDim s ![] bc (constantI S_ 32 10000#32)))) init hr hu ValueIdx.ix0 = 1#1) :
    ∀ i, 0 ≤ (a i).toInt ∧ (a i).toInt < 10000 := fun i => by
  have e := Host.reduce_andi_all _ init hr hu ValueIdx.ix0 h i
  change IntOp.andi (IntOp.cmpi .sge (a i) 0#32) (IntOp.cmpi .slt (a i) 10000#32) = 1#1 at e
  rw [IntOp.andi_eq_one, IntOp.cmpi_sge, IntOp.cmpi_slt] at e
  have h0 : (0#32 : BitVec 32).toInt = 0 := by decide
  have h1 : (10000#32 : BitVec 32).toInt = 10000 := by decide
  rw [h0, h1] at e
  exact e

/-- A conjunction of two scalar one-bit arrays, read at the one index. -/
theorem andi_ix0 (x y : IVec S_ 1) : andi x y ValueIdx.ix0 = IntOp.andi (x ValueIdx.ix0) (y ValueIdx.ix0) := rfl

/-- THE PRECONDITION DECODED: every float argument has real entries, and both integer arguments have entries in
    [0, 10000). -/
theorem of_fn (a0 : FVec Ideal S10000x256 .f32) (a1 : IVec S2x320000 32) (a2 : FVec Ideal S10000x256 .f32) (a3 : IVec S2x320000 32)
    (a4 : FVec Ideal S256x256 .f32) (a5 : FVec Ideal S256 .f32) (a6 : FVec Ideal S256x256 .f32) (a7 : FVec Ideal S256 .f32)
    (a8 : FVec Ideal S256x128 .f32) (a9 : FVec Ideal S128 .f32) (a10 : FVec Ideal S256x256 .f32) (a11 : FVec Ideal S256 .f32)
    (a12 : FVec Ideal S256x256 .f32) (a13 : FVec Ideal S256 .f32) (a14 : FVec Ideal S256x128 .f32) (a15 : FVec Ideal S128 .f32)
    (h : Cert.Pre_finite_inputs.fn (F := Ideal) a0 a1 a2 a3 a4 a5 a6 a7 a8 a9 a10 a11 a12 a13 a14 a15 = fun _ => 1#1) :
    (AllReal a0 ∧ AllReal a2 ∧ AllReal a4 ∧ AllReal a5 ∧ AllReal a6 ∧ AllReal a7 ∧ AllReal a8 ∧ AllReal a9 ∧ AllReal a10
        ∧ AllReal a11 ∧ AllReal a12 ∧ AllReal a13 ∧ AllReal a14 ∧ AllReal a15)
      ∧ (∀ i, 0 ≤ (a1 i).toInt ∧ (a1 i).toInt < 10000) ∧ (∀ i, 0 ≤ (a3 i).toInt ∧ (a3 i).toInt < 10000) := by
  have e := congrFun h ValueIdx.ix0
  dsimp only [Cert.Pre_finite_inputs.fn, fn_part1, fn_part2, fn_part3, fn_part4] at e
  simp only [andi_ix0, IntOp.andi_eq_one] at e
  obtain ⟨⟨⟨⟨⟨⟨⟨⟨⟨⟨⟨⟨⟨⟨⟨h0, h2⟩, h4⟩, h5⟩, h6⟩, h7⟩, h8⟩, h9⟩, h10⟩, h11⟩, h12⟩, h13⟩, h14⟩, h15⟩, h1⟩, h3⟩ := e
  exact ⟨⟨allReal_of_all a0 _ _ _ _ h0, allReal_of_all a2 _ _ _ _ h2, allReal_of_all a4 _ _ _ _ h4, allReal_of_all a5 _ _ _ _ h5,
      allReal_of_all a6 _ _ _ _ h6, allReal_of_all a7 _ _ _ _ h7, allReal_of_all a8 _ _ _ _ h8, allReal_of_all a9 _ _ _ _ h9,
      allReal_of_all a10 _ _ _ _ h10, allReal_of_all a11 _ _ _ _ h11, allReal_of_all a12 _ _ _ _ h12,
      allReal_of_all a13 _ _ _ _ h13, allReal_of_all a14 _ _ _ _ h14, allReal_of_all a15 _ _ _ _ h15⟩,
    range_of_all a1 _ _ _ _ h1, range_of_all a3 _ _ _ _ h3⟩

end Cert.PreFacts

end
-- ==== Proof.RefSide.lean ====
/-
  The reference's side of the comparison.

  The reference program, run from any memory, terminates without fault, leaves its sixteen arguments as they were, and
  leaves each of its two results at the composition of its operations applied to the arguments: for each stream the
  stack of three graph convolutions (edge list extended by self-loops, in-degree, edge weights, per-edge accumulation,
  bias, max(·, 0) after the first two). Dropping the two result equations leaves the statement that the arguments are
  unchanged. The precondition on the kernel's arguments, a conjunction of sixteen tests each over all entries of one
  argument, says that every float argument has real entries and that every entry of the two edge arrays is a node
  number in [0, 10000).
-/
import proofs.«100568_j75265006895440_2_alg».proof.Defs
import proofs.«100568_j75265006895440_2_alg».proof.Proof.RefRunP
import proofs.«100568_j75265006895440_2_alg».proof.Proof.RefSpec
import proofs.«100568_j75265006895440_2_alg».proof.Proof.PreFacts

noncomputable section

namespace Cert.RefSide

open Idealize.ShloMosaic Idealize.SL.Sem Cert.LibRealEntries

/-- The reference runs and leaves its arguments unchanged. -/
theorem frame_ri : Cert.frame_ReferenceIdeal := fun m ρ _ =>
  (θ_run Cert.ReferenceIdeal.defs _ _).mono (fun _ h c => (h c).2.2) (Cert.ReferenceIdeal.ValueP.run (F := Ideal) m ρ)

/-- The precondition read back on every device: real float arguments, edge arrays of node numbers. -/
theorem pre_facts (m : (ℓ : Loc Cert.KernelIdeal.nD Cert.KernelIdeal.τ Cert.KernelIdeal.sig) → Buf (Elt Ideal) ℓ)
    (h : Cert.Pre_KernelIdeal m) (c : Dev Cert.KernelIdeal.nD) :
    (AllReal ((m ((c.tc : Thread Cert.KernelIdeal.nD Cert.KernelIdeal.τ).loc Cert.KernelIdeal.main_arg0)) : FVec Ideal Cert.Pre_finite_inputs.S10000x256 .f32)
      ∧ AllReal ((m ((c.tc : Thread Cert.KernelIdeal.nD Cert.KernelIdeal.τ).loc Cert.KernelIdeal.main_arg2)) : FVec Ideal Cert.Pre_finite_inputs.S10000x256 .f32)
      ∧ AllReal ((m ((c.tc : Thread Cert.KernelIdeal.nD Cert.KernelIdeal.τ).loc Cert.KernelIdeal.main_arg4)) : FVec Ideal Cert.Pre_finite_inputs.S256x256 .f32)
      ∧ AllReal ((m ((c.tc : Thread Cert.KernelIdeal.nD Cert.KernelIdeal.τ).loc Cert.KernelIdeal.main_arg5)) : FVec Ideal Cert.Pre_finite_inputs.S256 .f32)
      ∧ AllReal ((m ((c.tc : Thread Cert.KernelIdeal.nD Cert.KernelIdeal.τ).loc Cert.KernelIdeal.main_arg6)) : FVec Ideal Cert.Pre_finite_inputs.S256x256 .f32)
      ∧ AllReal ((m ((c.tc : Thread Cert.KernelIdeal.nD Cert.KernelIdeal.τ).loc Cert.KernelIdeal.main_arg7)) : FVec Ideal Cert.Pre_finite_inputs.S256 .f32)
      ∧ AllReal ((m ((c.tc : Thread Cert.KernelIdeal.nD Cert.KernelIdeal.τ).loc Cert.KernelIdeal.main_arg8)) : FVec Ideal Cert.Pre_finite_inputs.S256x128 .f32)
      ∧ AllReal ((m ((c.tc : Thread Cert.KernelIdeal.nD Cert.KernelIdeal.τ).loc Cert.KernelIdeal.main_arg9)) : FVec Ideal Cert.Pre_finite_inputs.S128 .f32)
      ∧ AllReal ((m ((c.tc : Thread Cert.KernelIdeal.nD Cert.KernelIdeal.τ).loc Cert.KernelIdeal.main_arg10)) : FVec Ideal Cert.Pre_finite_inputs.S256x256 .f32)
      ∧ AllReal ((m ((c.tc : Thread Cert.KernelIdeal.nD Cert.KernelIdeal.τ).loc Cert.KernelIdeal.main_arg11)) : FVec Ideal Cert.Pre_finite_inputs.S256 .f32)
      ∧ AllReal ((m ((c.tc : Thread Cert.KernelIdeal.nD Cert.KernelIdeal.τ).loc Cert.KernelIdeal.main_arg12)) : FVec Ideal Cert.Pre_finite_inputs.S256x256 .f32)
      ∧ AllReal ((m ((c.tc : Thread Cert.KernelIdeal.nD Cert.KernelIdeal.τ).loc Cert.KernelIdeal.main_arg13)) : FVec Ideal Cert.Pre_finite_inputs.S256 .f32)
      ∧ AllReal ((m ((c.tc : Thread Cert.KernelIdeal.nD Cert.KernelIdeal.τ).loc Cert.KernelIdeal.main_arg14)) : FVec Ideal Cert.Pre_finite_inputs.S256x128 .f32)
      ∧ AllReal ((m ((c.tc : Thread Cert.KernelIdeal.nD Cert.KernelIdeal.τ).loc Cert.KernelIdeal.main_arg15)) : FVec Ideal Cert.Pre_finite_inputs.S128 .f32))
    ∧ (∀ i, 0 ≤ (((m ((c.tc : Thread Cert.KernelIdeal.nD Cert.KernelIdeal.τ).loc Cert.KernelIdeal.main_arg1)) : IVec Cert.Pre_finite_inputs.S2x320000 32) i).toInt ∧ (((m ((c.tc : Thread Cert.KernelIdeal.nD Cert.KernelIdeal.τ).loc Cert.KernelIdeal.main_arg1)) : IVec Cert.Pre_finite_inputs.S2x320000 32) i).toInt < 10000)
    ∧ (∀ i, 0 ≤ (((m ((c.tc : Thread Cert.KernelIdeal.nD Cert.KernelIdeal.τ).loc Cert.KernelIdeal.main_arg3)) : IVec Cert.Pre_finite_inputs.S2x320000 32) i).toInt ∧ (((m ((c.tc : Thread Cert.KernelIdeal.nD Cert.KernelIdeal.τ).loc Cert.KernelIdeal.main_arg3)) : IVec Cert.Pre_finite_inputs.S2x320000 32) i).toInt < 10000) :=
  Cert.PreFacts.of_fn _ _ _ _ _ _ _ _ _ _ _ _ _ _ _ _ (h c)

/-- The reference runs, each result ends at the stack of convolutions of its stream's arguments, and the arguments end
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v142) = Cert.RefSpec.stack (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_v285) = Cert.RefSpec.stack (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run Cert.ReferenceIdeal.defs _ _).mono
    (fun _ h c => ⟨(h c).1.trans (Cert.RefSpec.res_x m' c), (h c).2.1.trans (Cert.RefSpec.res_y m' c), (h c).2.2⟩)
    (Cert.ReferenceIdeal.ValueP.run (F := Ideal) m' ρ')

end Cert.RefSide

end
-- ==== Proof.LibEdgeSum.lean ====
/-
  Sums over the edges of a graph, over the extended reals.

  A graph on a finite vertex set N has a finite set E of edges; the edge e goes from its source s e to its destination
  d e and carries a weight ν e. The dense adjacency matrix has the entry A[i,n] = 0 + ∑ { ν e : d e = i, s e = n }: the
  weights of the edges from n to i added onto a zero. Applying it to a column h gives, at the vertex i, the sum over
  all vertices n of A[i,n] · h n. The sparse form of the same product runs over the edges into i only: it is
  0 + ∑ { h (s e) · ν e : d e = i }.

  The two agree when every weight and every entry of the column is a real number. The product distributes over the inner
  sum, (∑ ν e) · h n = ∑ ν e · h n, which on the extended reals is sound only away from the infinities (a sum of
  infinities of both signs is not distributed over); for real numbers both sides are the inclusions of real sums and the
  identity is the one over the reals. There the edges into i are partitioned by their source: summing over the sources n
  and, inside, over the edges into i that come from n counts every edge into i exactly once, at n = s e, where h n is
  h (s e).

  Two re-indexings accompany it. The index pairs (e, c) of an E × H array whose row e satisfies a condition P and whose
  column c is a fixed f correspond one to one to the rows e satisfying P, by (e, c) ↦ e with inverse e ↦ (e, f); and the
  indices of a one-axis array of extent E satisfying a condition on their coordinate correspond to the numbers below E
  satisfying it. A sum over the former is the sum over the latter.
-/
import proofs.«100568_j75265006895440_2_alg».proof.Proof.LibRealEntries
import Idealize.ShloMosaic.Lib.ValueIdx

noncomputable section

namespace Cert.LibEdgeSum

open Cert.LibRealEntries Idealize.ShloMosaic Idealize.ShloMosaic.ValueIdx
open scoped BigOperators

/-- Over the reals: the edges into `i` are partitioned by their source. -/
theorem real_dense_eq_sparse {E N : Type} [Fintype E] [Fintype N] [DecidableEq N]
    (s d : E → N) (r : E → ℝ) (t : N → ℝ) (i : N) :
    ∑ n, (∑ e ∈ Finset.univ.filter (fun e => d e = i ∧ s e = n), r e) * t n
      = ∑ e ∈ Finset.univ.filter (fun e => d e = i), t (s e) * r e := by
  rw [← Finset.sum_fiberwise (Finset.univ.filter (fun e => d e = i)) s (fun e => t (s e) * r e)]
  refine Finset.sum_congr rfl fun n _ => ?_
  rw [Finset.sum_mul, Finset.filter_filter]
  refine Finset.sum_congr rfl fun e he => ?_
  rw [(Finset.mem_filter.mp he).2.2, mul_comm]

/-- Dense adjacency against per-edge accumulation. -/
theorem dense_eq_sparse {E N : Type} [Fintype E] [Fintype N] [DecidableEq N]
    (s d : E → N) (ν : E → EReal) (h : N → EReal) (i : N)
    (hν : ∀ e, IsReal (ν e)) (hh : ∀ n, IsReal (h n)) :
    ∑ n, (0 + ∑ e ∈ Finset.univ.filter (fun e => d e = i ∧ s e = n), ν e) * h n
      = 0 + ∑ e ∈ Finset.univ.filter (fun e => d e = i), h (s e) * ν e := by
  choose r hr using hν
  choose t ht using hh
  obtain rfl : ν = fun e => (r e : EReal) := funext hr
  obtain rfl : h = fun n => (t n : EReal) := funext ht
  simp only [zero_add, ← coe_sum, ← EReal.coe_mul]
  exact congrArg _ (real_dense_eq_sparse s d r t i)

/-- Index pairs with a row condition and a fixed column against rows, for any way of deciding the two conditions. -/
theorem sum_pairs_col_inst {E H : ℕ} (P : Fin E → Prop) (f : Fin H) (g : (⟨2, ![E, H]⟩ : Shape).Idx → EReal)
    [DecidablePred P] [DecidablePred (fun j : (⟨2, ![E, H]⟩ : Shape).Idx => P (j 0) ∧ j 1 = f)] :
    ∑ j ∈ Finset.univ.filter (fun j : (⟨2, ![E, H]⟩ : Shape).Idx => P (j 0) ∧ j 1 = f), g j
      = ∑ e ∈ Finset.univ.filter (fun e : Fin E => P e), g (ix2 e f) := by
  have key : ∀ j : (⟨2, ![E, H]⟩ : Shape).Idx, j 1 = f → j = ix2 (j 0) f := fun j h1 =>
    (eq_ix2 j).trans (congrArg (fun b : Fin H => ix2 (n0 := E) (j 0) b) h1)
  refine Finset.sum_bij' (fun j _ => (j 0 : Fin E)) (fun e _ => ix2 e f) ?_ ?_ ?_ ?_ ?_
  · intro j hj
    exact Finset.mem_filter.mpr ⟨Finset.mem_univ _, (Finset.mem_filter.mp hj).2.1⟩
  · intro e he
    exact Finset.mem_filter.mpr ⟨Finset.mem_univ _, (Finset.mem_filter.mp he).2, rfl⟩
  · intro j hj
    exact (key j (Finset.mem_filter.mp hj).2.2).symm
  · intro e _
    rfl
  · intro j hj
    exact congrArg g (key j (Finset.mem_filter.mp hj).2.2)

open Classical in
/-- A sum over the [E,H] index pairs whose row satisfies P and whose column is f, as a sum over rows. -/
theorem sum_pairs_col {E H : ℕ} (P : Fin E → Prop) (f : Fin H)
    (g : (⟨2, ![E, H]⟩ : Shape).Idx → EReal) :
    ∑ j ∈ Finset.univ.filter (fun j : (⟨2, ![E, H]⟩ : Shape).Idx => P (j 0) ∧ j 1 = f), g j
      = ∑ e ∈ Finset.univ.filter (fun e : Fin E => P e), g (ix2 e f) :=
  sum_pairs_col_inst P f g

/-- Rank-1 indices with a condition on the coordinate against the numbers below the extent, for any way of deciding
    the condition. -/
theorem sum_idx1_filter_inst {E : ℕ} (P : Fin E → Prop) (g : (⟨1, ![E]⟩ : Shape).Idx → EReal)
    [DecidablePred P] [DecidablePred (fun j : (⟨1, ![E]⟩ : Shape).Idx => P (j 0))] :
    ∑ j ∈ Finset.univ.filter (fun j : (⟨1, ![E]⟩ : Shape).Idx => P (j 0)), g j
      = ∑ e ∈ Finset.univ.filter (fun e : Fin E => P e), g (ix1 e) := by
  refine Finset.sum_bij' (fun j _ => (j 0 : Fin E)) (fun e _ => ix1 e) ?_ ?_ ?_ ?_ ?_
  · intro j hj
    exact Finset.mem_filter.mpr ⟨Finset.mem_univ _, (Finset.mem_filter.mp hj).2⟩
  · intro e he
    exact Finset.mem_filter.mpr ⟨Finset.mem_univ _, (Finset.mem_filter.mp he).2⟩
  · intro j _
    exact (eq_ix1 j).symm
  · intro e _
    rfl
  · intro j _
    exact congrArg g (eq_ix1 j)

open Classical in
/-- A sum over rank-1 indices as a sum over Fin E. -/
theorem sum_idx1_filter {E : ℕ} (P : Fin E → Prop) (g : (⟨1, ![E]⟩ : Shape).Idx → EReal) :
    ∑ j ∈ Finset.univ.filter (fun j : (⟨1, ![E]⟩ : Shape).Idx => P (j 0)), g j
      = ∑ e ∈ Finset.univ.filter (fun e : Fin E => P e), g (ix1 e) :=
  sum_idx1_filter_inst P g

end Cert.LibEdgeSum

end
-- ==== Proof.LibScatterGatherRead.lean ====
/-
  WHAT STABLEHLO'S GATHER AND SCATTER COMPUTE, READ AT ONE INDEX, for the dimension numbers that indexing an array by
  an integer array (`x[idx]`), a segment sum and an indexed accumulation (`.at[i, j].add`) lower to.

  GATHER. With the index vector on the last axis of a start-index array `[E, 1]`, the one operand axis 0 collapsed and
  mapped by the start index, result element `e` (or `(e, h)` when the operand `[N, H]` keeps its second axis as an
  offset axis of full slice size `H`) is the operand at row `clamp(idx[e, 0])`: the start index is read as a SIGNED
  integer and clamped into `[0, N − 1]` (`gath1_apply`, `gath2_apply`).

  SCATTER. The start index is read signed and is NOT clamped: update element `e` (or `(e, h)`) lands at operand index
  `i` exactly when, on every operand axis, the start plus the window coordinate equals `i`'s coordinate. An operand
  index is in range by type, so the equation alone decides it; no range hypothesis appears. One inserted axis and a
  one-component index: `i 0 = idx[e, 0]` (`scat1_iff`); the same with a window axis carried along: and `i 1 = h`
  (`scat2_iff`); two inserted axes and a two-component index: `i 0 = idx[e, 0]` and `i 1 = idx[e, 1]` (`scat3_iff`).

  The extents `E N H` are variables: nothing here is evaluated over them.
-/
import Idealize.ShloMosaic.PureOps.Ideal.Laws
import Idealize.ShloMosaic.Lib.ValueIdx

namespace Cert.LibScatterGatherRead

open Idealize.ShloMosaic Idealize.ShloMosaic.ValueIdx

variable {E N H w : ℕ}

/-- An axis is among a shape's kept axes exactly when it is not among the removed ones. -/
theorem mem_kept {s : Shape} (l : List (Fin s.rank)) (a : Fin s.rank) : a ∈ s.kept l ↔ a ∉ l := by
  simp [Shape.kept, List.mem_filter, List.mem_finRange]

/-! ## Scatter into a flat operand `[N]` at one-component indices `[E, 1]` (a segment sum's) -/

/-- The dimension numbers: no window axis, operand axis 0 inserted and named by the index's one component. -/
def scat1 (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The window starts at the index read signed. -/
theorem scat1_start (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (scat1 wf).start j idx 0 = (idx (ix2 (j 0) 0)).toInt := by
  unfold ScatterDims.start
  rw [dif_pos (show (0 : Fin 1) ∈ (scat1 wf).scatterDimsToOperandDims from List.mem_singleton.mpr rfl)]
  have hsi : (scat1 wf).siIdx j ⟨List.idxOf (0 : Fin 1) (scat1 wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- An inserted axis has window coordinate 0. -/
theorem scat1_window (wf : ScatterDims.WF ⟨1, ![N]⟩ ⟨2, ![E, 1]⟩ ⟨1, ![E]⟩ [] [0] [0] 1)
    (j : (⟨1, ![E]⟩ : Shape).Idx) : (scat1 wf).window j 0 = 0 := by
  unfold ScatterDims.window
  rw [dif_neg]
  simp [scat1, ScatterDims.sKept, Shape.kept]

/-- Update `e` lands at `i` exactly when `i`'s coordinate is the signed index `idx[e, 0]`. -/
theorem scat1_iff (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (scat1 wf).resultIdx? j idx = some i ↔ ((i 0).val : ℤ) = (idx (ix2 (j 0) 0)).toInt := by
  have hs := scat1_start wf idx j
  have hw := scat1_window (N := N) wf j
  have hi : (i 0).val < N := (i 0).isLt
  unfold ScatterDims.resultIdx?
  split
  · rename_i h
    rw [Option.some.injEq]
    have h0 := (h 0).1
    rw [hs, hw] at h0
    constructor
    · intro hh
      have := congrArg (fun f => ((f 0).val : ℤ)) hh
      simp only [hs, hw] at this
      omega
    · intro hh
      funext a
      obtain rfl : a = 0 := Subsingleton.elim _ _
      refine Fin.ext ?_
      show (((scat1 wf).start j idx 0 + ((scat1 wf).window j 0 : ℕ)).toNat) = (i 0).val
      rw [hs, hw]; omega
  · rename_i h
    constructor
    · intro hh; cases hh
    · intro hh
      exfalso; apply h
      intro a
      obtain rfl : a = 0 := Subsingleton.elim _ _
      rw [hs, hw]
      show _ ∧ _ < ((N : ℕ) : ℤ)
      omega

/-! ## Gather from a flat operand `[N]` and from the rows of `[N, H]` at one-component indices `[E, 1]` -/

/-- The dimension numbers of `x[idx]` for a flat `x`: operand axis 0 collapsed (slice size 1) and named by the
    index's one component; no offset axis. -/
def gath1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Result element `e` is the operand at `idx[e, 0]`, read signed and clamped into `[0, N − 1]`. -/
theorem gath1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (gath1 wf) x idx j = x (ix1 ⟨min (idx (ix2 (j 0) 0)).toInt.toNat (N - 1), by omega⟩) := by
  unfold Host.gather
  congr 1
  funext a
  obtain rfl : a = 0 := Subsingleton.elim _ _
  refine Fin.ext ?_
  show (gath1 wf).start j idx 0 + (gath1 wf).batchCoord j 0 + (gath1 wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 wf).startIndexMap from List.mem_singleton.mpr rfl)]
  have hsi : (gath1 wf).siIdx j ⟨List.idxOf (0 : Fin 1) (gath1 wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The dimension numbers of `x[idx]` for the rows of `x : [N, H]`: operand axis 0 collapsed and named by the index's
    one component; operand axis 1 kept whole (slice size `H`) as the result's offset axis 1. -/
def gath2 (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ :=
  { offsetDims := [1], collapsedSliceDims := [0], operandBatchingDims := [], startIndicesBatchingDims := [],
    startIndexMap := [0], indexVectorDim := 1, sliceSizes := ![1, H], wf := wf }

/-- On operand axis 0 the gather reads the clamped signed start index. -/
theorem gath2_coord0 (wf : GatherDims.WF ⟨2, ![N, H]⟩ ⟨2, ![E, 1]⟩ ⟨2, ![E, H]⟩ [1] [0] [] [0] [] 1 ![1, H])
    (idx : IVec ⟨2, ![E, 1]⟩ w) (j : (⟨2, ![E, H]⟩ : Shape).Idx) :
    (gath2 wf).start j idx 0 + (gath2 wf).batchCoord j 0 + (gath2 wf).offCoord j 0
      = min (idx (ix2 (j 0) 0)).toInt.toNat (N - 1) := by
  have h0 : (0 : Fin 2) ∈ (gath2 wf).startIndexMap := List.mem_singleton.mpr rfl
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos h0]
  have hsi : (gath2 wf).siIdx j ⟨List.idxOf (0 : Fin 2) (gath2 wf).startIndexMap,
      List.idxOf_lt_length_iff.2 h0⟩ = ix2 (j 0) 0 := by
    funext b; refine Fin.ext ?_
    match b with
    | ⟨0, _⟩ => rfl
    | ⟨1, _⟩ => rfl
  rw [hsi]
  rfl

/-- On operand axis 1 the gather reads the result's offset coordinate. -/
theorem gath2_coord1 (wf : GatherDims.WF ⟨2, ![N, H]⟩ ⟨2, ![E, 1]⟩ ⟨2, ![E, H]⟩ [1] [0] [] [0] [] 1 ![1, H])
    (idx : IVec ⟨2, ![E, 1]⟩ w) (j : (⟨2, ![E, H]⟩ : Shape).Idx) :
    (gath2 wf).start j idx 1 + (gath2 wf).batchCoord j 1 + (gath2 wf).offCoord j 1 = (j 1).val := by
  have h1 : (1 : Fin 2) ∉ (gath2 wf).startIndexMap := fun h =>
    Nat.one_ne_zero (congrArg Fin.val (List.mem_singleton.mp h))
  have hk : (1 : Fin 2) ∈ (gath2 wf).sKept :=
    (GatherDims.mem_sKept _ _).mpr ⟨fun h => Nat.one_ne_zero (congrArg Fin.val (List.mem_singleton.mp h)),
      List.not_mem_nil⟩
  have hst : (gath2 wf).start j idx 1 = 0 := by unfold GatherDims.start; rw [dif_neg h1]
  have hoff : (gath2 wf).offCoord j 1 = (j 1).val := by
    unfold GatherDims.offCoord; rw [dif_pos hk]; rfl
  rw [GatherDims.batchCoord_eq_zero _ _ _ List.not_mem_nil, hst, hoff]
  omega

/-- Result element `(e, h)` is the operand at row `idx[e, 0]` (read signed, clamped into `[0, N − 1]`), column `h`. -/
theorem gath2_apply {α : Type} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (j : (⟨2, ![E, H]⟩ : Shape).Idx) :
    Host.gather (gath2 wf) x idx j = x (ix2 ⟨min (idx (ix2 (j 0) 0)).toInt.toNat (N - 1), by omega⟩ (j 1)) := by
  unfold Host.gather
  congr 1
  funext a
  refine Fin.ext ?_
  match a with
  | ⟨0, _⟩ => exact gath2_coord0 wf idx j
  | ⟨1, _⟩ => exact gath2_coord1 wf idx j

/-! ## Scatter into the rows of `[N, H]` at one-component indices `[E, 1]` (a row-wise segment sum's) -/

/-- The dimension numbers: the updates' axis 1 is the window axis and goes to operand axis 1; operand axis 0 is
    inserted and named by the index's one component. -/
def scat2 (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ :=
  { updateWindowDims := [1], insertedWindowDims := [0], scatterDimsToOperandDims := [0], indexVectorDim := 1, wf := wf }

/-- On operand axis 0 the window starts at the index read signed. -/
theorem scat2_start0 (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) :
    (scat2 wf).start j idx 0 = (idx (ix2 (j 0) 0)).toInt := by
  have h0 : (0 : Fin 2) ∈ (scat2 wf).scatterDimsToOperandDims := List.mem_singleton.mpr rfl
  unfold ScatterDims.start
  rw [dif_pos h0]
  have hsi : (scat2 wf).siIdx j ⟨List.idxOf (0 : Fin 2) (scat2 wf).scatterDimsToOperandDims,
      List.idxOf_lt_length_iff.2 h0⟩ = ix2 (j 0) 0 := by
    funext b; refine Fin.ext ?_
    match b with
    | ⟨0, _⟩ => rfl
    | ⟨1, _⟩ => rfl
  rw [hsi]
  rfl

/-- On operand axis 1, which the index does not name, the window starts at 0. -/
theorem scat2_start1 (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) :
    (scat2 wf).start j idx 1 = 0 := by
  have h1 : (1 : Fin 2) ∉ (scat2 wf).scatterDimsToOperandDims := fun h =>
    Nat.one_ne_zero (congrArg Fin.val (List.mem_singleton.mp h))
  unfold ScatterDims.start
  rw [dif_neg h1]

/-- The inserted axis 0 has window coordinate 0. -/
theorem scat2_window0 (wf : ScatterDims.WF ⟨2, ![N, H]⟩ ⟨2, ![E, 1]⟩ ⟨2, ![E, H]⟩ [1] [0] [0] 1)
    (j : (⟨2, ![E, H]⟩ : Shape).Idx) : (scat2 wf).window j 0 = 0 := by
  have h0 : (0 : Fin 2) ∉ (scat2 wf).sKept := fun h => (mem_kept _ _).mp h (List.mem_singleton.mpr rfl)
  unfold ScatterDims.window
  rw [dif_neg h0]

/-- Operand axis 1 has the update's window coordinate. -/
theorem scat2_window1 (wf : ScatterDims.WF ⟨2, ![N, H]⟩ ⟨2, ![E, 1]⟩ ⟨2, ![E, H]⟩ [1] [0] [0] 1)
    (j : (⟨2, ![E, H]⟩ : Shape).Idx) : (scat2 wf).window j 1 = (j 1).val := by
  have h1 : (1 : Fin 2) ∈ (scat2 wf).sKept := (mem_kept _ _).mpr fun h =>
    Nat.one_ne_zero (congrArg Fin.val (List.mem_singleton.mp h))
  unfold ScatterDims.window
  rw [dif_pos h1]
  rfl

/-- Update `(e, h)` lands at `i` exactly when `i`'s row is the signed index `idx[e, 0]` and its column is `h`. -/
theorem scat2_iff (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) (i : (⟨2, ![N, H]⟩ : Shape).Idx) :
    (scat2 wf).resultIdx? j idx = some i ↔ ((i 0).val : ℤ) = (idx (ix2 (j 0) 0)).toInt ∧ i 1 = j 1 := by
  have hs0 := scat2_start0 wf idx j
  have hs1 := scat2_start1 wf idx j
  have hw0 := scat2_window0 (N := N) wf j
  have hw1 := scat2_window1 (N := N) wf j
  have hi0 : (i 0).val < N := (i 0).isLt
  have hi1 : (i 1).val < H := (i 1).isLt
  have hj1 : (j 1).val < H := (j 1).isLt
  unfold ScatterDims.resultIdx?
  split
  · rename_i h
    rw [Option.some.injEq]
    have h0 := (h 0).1
    rw [hs0, hw0] at h0
    constructor
    · intro hh
      have e0 := congrArg (fun f => ((f 0).val : ℤ)) hh
      have e1 := congrArg (fun f => ((f 1).val : ℤ)) hh
      simp only [hs0, hw0, hs1, hw1] at e0 e1
      exact ⟨by omega, Fin.ext (by omega)⟩
    · rintro ⟨hh0, hh1⟩
      have hh1' : (i 1).val = (j 1).val := congrArg Fin.val hh1
      funext a
      refine Fin.ext ?_
      match a with
      | ⟨0, _⟩ =>
        show ((scat2 wf).start j idx 0 + ((scat2 wf).window j 0 : ℕ)).toNat = (i 0).val
        rw [hs0, hw0]; omega
      | ⟨1, _⟩ =>
        show ((scat2 wf).start j idx 1 + ((scat2 wf).window j 1 : ℕ)).toNat = (i 1).val
        rw [hs1, hw1]; omega
  · rename_i h
    constructor
    · intro hh; cases hh
    · rintro ⟨hh0, hh1⟩
      have hh1' : (i 1).val = (j 1).val := congrArg Fin.val hh1
      exfalso; apply h
      intro a
      match a with
      | ⟨0, _⟩ =>
        show 0 ≤ (scat2 wf).start j idx 0 + ((scat2 wf).window j 0 : ℕ) ∧
          (scat2 wf).start j idx 0 + ((scat2 wf).window j 0 : ℕ) < ((N : ℕ) : ℤ)
        rw [hs0, hw0]; omega
      | ⟨1, _⟩ =>
        show 0 ≤ (scat2 wf).start j idx 1 + ((scat2 wf).window j 1 : ℕ) ∧
          (scat2 wf).start j idx 1 + ((scat2 wf).window j 1 : ℕ) < ((H : ℕ) : ℤ)
        rw [hs1, hw1]; omega

/-! ## Scatter into a square operand `[N, N]` at two-component indices `[E, 2]` (an indexed accumulation's) -/

/-- The dimension numbers: no window axis; both operand axes inserted, axis `c` named by the index's component `c`. -/
def scat3 (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ :=
  { updateWindowDims := [], insertedWindowDims := [0, 1], scatterDimsToOperandDims := [0, 1], indexVectorDim := 1,
    wf := wf }

/-- On operand axis 0 the window starts at the index's component 0 read signed. -/
theorem scat3_start0 (wf : ScatterDims.WF ⟨2, ![N, N]⟩ ⟨2, ![E, 2]⟩ ⟨1, ![E]⟩ [] [0, 1] [0, 1] 1)
    (idx : IVec ⟨2, ![E, 2]⟩ w) (j : (⟨1, ![E]⟩ : Shape).Idx) :
    (scat3 wf).start j idx 0 = (idx (ix2 (j 0) 0)).toInt := by
  have h0 : (0 : Fin 2) ∈ (scat3 wf).scatterDimsToOperandDims := List.mem_cons_self
  unfold ScatterDims.start
  rw [dif_pos h0]
  have hsi : (scat3 wf).siIdx j ⟨List.idxOf (0 : Fin 2) (scat3 wf).scatterDimsToOperandDims,
      List.idxOf_lt_length_iff.2 h0⟩ = ix2 (j 0) 0 := by
    funext b; refine Fin.ext ?_
    match b with
    | ⟨0, _⟩ => rfl
    | ⟨1, _⟩ => rfl
  rw [hsi]
  rfl

/-- On operand axis 1 the window starts at the index's component 1 read signed. -/
theorem scat3_start1 (wf : ScatterDims.WF ⟨2, ![N, N]⟩ ⟨2, ![E, 2]⟩ ⟨1, ![E]⟩ [] [0, 1] [0, 1] 1)
    (idx : IVec ⟨2, ![E, 2]⟩ w) (j : (⟨1, ![E]⟩ : Shape).Idx) :
    (scat3 wf).start j idx 1 = (idx (ix2 (j 0) 1)).toInt := by
  have h1 : (1 : Fin 2) ∈ (scat3 wf).scatterDimsToOperandDims :=
    List.mem_cons_of_mem _ (List.mem_singleton.mpr rfl)
  unfold ScatterDims.start
  rw [dif_pos h1]
  have hsi : (scat3 wf).siIdx j ⟨List.idxOf (1 : Fin 2) (scat3 wf).scatterDimsToOperandDims,
      List.idxOf_lt_length_iff.2 h1⟩ = ix2 (j 0) 1 := by
    funext b; refine Fin.ext ?_
    match b with
    | ⟨0, _⟩ => rfl
    | ⟨1, _⟩ => rfl
  rw [hsi]
  rfl

/-- Both operand axes are inserted: the window coordinate is 0 on each. -/
theorem scat3_window (wf : ScatterDims.WF ⟨2, ![N, N]⟩ ⟨2, ![E, 2]⟩ ⟨1, ![E]⟩ [] [0, 1] [0, 1] 1)
    (j : (⟨1, ![E]⟩ : Shape).Idx) (a : Fin 2) : (scat3 wf).window j a = 0 := by
  have ha : a ∉ (scat3 wf).sKept := fun h => (mem_kept _ _).mp h (by
    match a with
    | ⟨0, _⟩ => exact List.mem_cons_self
    | ⟨1, _⟩ => exact List.mem_cons_of_mem _ (List.mem_singleton.mpr rfl))
  unfold ScatterDims.window
  rw [dif_neg ha]

/-- Update `e` lands at `i` exactly when `i`'s two coordinates are the signed index components `idx[e, 0]` and
    `idx[e, 1]`. -/
theorem scat3_iff (wf : ScatterDims.WF ⟨2, ![N, N]⟩ ⟨2, ![E, 2]⟩ ⟨1, ![E]⟩ [] [0, 1] [0, 1] 1)
    (idx : IVec ⟨2, ![E, 2]⟩ w) (j : (⟨1, ![E]⟩ : Shape).Idx) (i : (⟨2, ![N, N]⟩ : Shape).Idx) :
    (scat3 wf).resultIdx? j idx = some i ↔
      ((i 0).val : ℤ) = (idx (ix2 (j 0) 0)).toInt ∧ ((i 1).val : ℤ) = (idx (ix2 (j 0) 1)).toInt := by
  have hs0 := scat3_start0 wf idx j
  have hs1 := scat3_start1 wf idx j
  have hw0 := scat3_window (N := N) wf j 0
  have hw1 := scat3_window (N := N) wf j 1
  have hi0 : (i 0).val < N := (i 0).isLt
  have hi1 : (i 1).val < N := (i 1).isLt
  unfold ScatterDims.resultIdx?
  split
  · rename_i h
    rw [Option.some.injEq]
    have h0 := (h 0).1
    have h1 := (h 1).1
    rw [hs0, hw0] at h0
    rw [hs1, hw1] at h1
    constructor
    · intro hh
      have e0 := congrArg (fun f => ((f 0).val : ℤ)) hh
      have e1 := congrArg (fun f => ((f 1).val : ℤ)) hh
      simp only [hs0, hw0, hs1, hw1] at e0 e1
      exact ⟨by omega, by omega⟩
    · rintro ⟨hh0, hh1⟩
      funext a
      refine Fin.ext ?_
      match a with
      | ⟨0, _⟩ =>
        show ((scat3 wf).start j idx 0 + ((scat3 wf).window j 0 : ℕ)).toNat = (i 0).val
        rw [hs0, hw0]; omega
      | ⟨1, _⟩ =>
        show ((scat3 wf).start j idx 1 + ((scat3 wf).window j 1 : ℕ)).toNat = (i 1).val
        rw [hs1, hw1]; omega
  · rename_i h
    constructor
    · intro hh; cases hh
    · rintro ⟨hh0, hh1⟩
      exfalso; apply h
      intro a
      match a with
      | ⟨0, _⟩ =>
        show 0 ≤ (scat3 wf).start j idx 0 + ((scat3 wf).window j 0 : ℕ) ∧
          (scat3 wf).start j idx 0 + ((scat3 wf).window j 0 : ℕ) < ((N : ℕ) : ℤ)
        rw [hs0, hw0]; omega
      | ⟨1, _⟩ =>
        show 0 ≤ (scat3 wf).start j idx 1 + ((scat3 wf).window j 1 : ℕ) ∧
          (scat3 wf).start j idx 1 + ((scat3 wf).window j 1 : ℕ) < ((N : ℕ) : ℤ)
        rw [hs1, hw1]; omega

end Cert.LibScatterGatherRead
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«100568_j75265006895440_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibGcnLayer.lean ====
/-
  One layer of a graph convolution, computed two ways: edge by edge, and as a dense matrix product.

  A graph has N nodes and E edges; edge e goes from the node src e to the node dst e and carries a real weight ν e. The
  nodes carry a feature matrix Hm with N rows and H columns, all entries real numbers.

  EDGE BY EDGE. For every edge e read the row Hm[src e, ·], scale it by ν e, and add the result into row dst e of an N×H
  array of zeros. Entry (d, f) of the outcome is 0 + ∑ { Hm[src e, f] · ν e : dst e = d }.

  DENSE. First add every weight ν e into entry (dst e, src e) of an N×N array of zeros: the adjacency matrix A, whose
  entry (d, s) is 0 + ∑ { ν e : dst e = d, src e = s }. Then multiply: entry (d, f) of A·Hm is ∑_s A[d, s] · Hm[s, f].

  The two agree. Reading a row through an array of edge indices takes, at the pair (e, f), the entry Hm[node e, f] where
  node e is the index word of e read as a signed integer and clamped into [0, N − 1]. Adding into an array through an
  array of edge indices sends the update at (e, f) to the entry (i, f) whose row number i equals the signed index word of
  e, with no clamping; for an index word that lies in [0, N) both readings name the same node, and this is assumed of
  the destination words (and, for the adjacency, of the source words too; for the edge-by-edge form the source words are
  only read through the clamping gather, as the nodes they are clamped to). So the updates landing on (d, f) are the
  pairs (e, f) with node(dst) e = d, one for each such edge e; and the updates landing on entry (d, s) of the adjacency
  are the edges e with node(dst) e = d and node(src) e = s. The equality of the two outcomes is then the algebraic
  identity for sums over the edges of a graph: because all the numbers are real, the product distributes over the inner
  sum and the edges into d are counted once each, grouped by their source.
-/
import proofs.«100568_j75265006895440_2_alg».proof.Proof.LibEdgeSum
import proofs.«100568_j75265006895440_2_alg».proof.Proof.LibScatterGatherRead
import proofs.«100568_j75265006895440_2_alg».proof.Proof.LibDotGeneralPlain
import Idealize.ShloMosaic.PureOps.Ideal.Laws

noncomputable section

namespace Cert.LibGcnLayer

open Cert.LibRealEntries Cert.LibEdgeSum Cert.LibScatterGatherRead Cert.LibDotGeneralPlain
open Idealize.ShloMosaic Idealize.ShloMosaic.ValueIdx
open scoped BigOperators

variable {E N H : ℕ}

/-- The node an index word names: read signed and clamped into [0, N-1]. -/
def node (hN : 0 < N) (idx : IVec ⟨2, ![E, 1]⟩ 32) (e : Fin E) : Fin N :=
  ⟨min (idx (ix2 e 0)).toInt.toNat (N - 1), by omega⟩

/-- An index word that is in range names the node whose number it is. -/
theorem node_eq_iff (hN : 0 < N) (idx : IVec ⟨2, ![E, 1]⟩ 32) (e : Fin E)
    (h : 0 ≤ (idx (ix2 e 0)).toInt ∧ (idx (ix2 e 0)).toInt < N) (n : Fin N) :
    node hN idx e = n ↔ (n.val : ℤ) = (idx (ix2 e 0)).toInt := by
  constructor
  · intro hh
    have h1 := congrArg Fin.val hh
    simp only [node] at h1
    omega
  · intro hh
    refine Fin.ext ?_
    simp only [node]
    omega

open Classical in
/-- (1) per-edge accumulation = dense adjacency times features -/
theorem sparse_eq_dense (hN : 0 < N)
    (wfS : ScatterDims.WF ⟨2, ![N, H]⟩ ⟨2, ![E, 1]⟩ ⟨2, ![E, H]⟩ [1] [0] [0] 1)
    (wfG : GatherDims.WF ⟨2, ![N, H]⟩ ⟨2, ![E, 1]⟩ ⟨2, ![E, H]⟩ [1] [0] [] [0] [] 1 ![1, H])
    (zeros : FVec Ideal ⟨2, ![N, H]⟩ .f32) (hz : ∀ i, zeros i = 0) (dstI srcI : IVec ⟨2, ![E, 1]⟩ 32)
    (hdst : ∀ e : Fin E, 0 ≤ (dstI (ix2 e 0)).toInt ∧ (dstI (ix2 e 0)).toInt < N)
    (Hm : FVec Ideal ⟨2, ![N, H]⟩ .f32) (hH : AllReal Hm)
    (normB : FVec Ideal ⟨2, ![E, H]⟩ .f32) (ν : Fin E → EReal) (hν : ∀ e, IsReal (ν e))
    (hnormB : ∀ j, normB j = ν (j 0))
    (A : (⟨2, ![N, N]⟩ : Shape).Idx → EReal)
    (hA : ∀ d s : Fin N, A (ix2 d s)
      = 0 + ∑ e ∈ Finset.univ.filter (fun e : Fin E => node hN dstI e = d ∧ node hN srcI e = s), ν e)
    (d : Fin N) (f : Fin H) :
    Host.scatterAdd (F := Ideal) (scat2 wfS) zeros dstI (mulf (Host.gather (gath2 wfG) Hm srcI) normB) (ix2 d f)
      = matProd A Hm (ix2 d f) := by
  have hL : Host.scatterAdd (F := Ideal) (scat2 wfS) zeros dstI (mulf (Host.gather (gath2 wfG) Hm srcI) normB) (ix2 d f)
      = 0 + ∑ j ∈ Finset.univ.filter (fun j : (⟨2, ![E, H]⟩ : Shape).Idx => node hN dstI (j 0) = d ∧ j 1 = f),
          Hm (ix2 (node hN srcI (j 0)) (j 1)) * ν (j 0) := by
    simp only [Host.scatterAdd, Ideal.hostScatterAdd_def, Ideal.hostScatterAdd]
    rw [hz]
    refine congrArg (fun t => (0 : EReal) + t) ?_
    refine Finset.sum_congr ?_ ?_
    · ext j
      simp only [Finset.mem_filter, Finset.mem_univ, true_and]
      rw [scat2_iff, node_eq_iff hN dstI (j 0) (hdst _) d]
      exact ⟨fun h => ⟨h.1, h.2.symm⟩, fun h => ⟨h.1, h.2.symm⟩⟩
    · intro j _
      show Host.gather (gath2 wfG) Hm srcI j * normB j = _
      rw [gath2_apply hN, hnormB]
      rfl
  rw [hL, matProd_apply]
  simp only [hA]
  rw [dense_eq_sparse (node hN srcI) (node hN dstI) ν (fun n => Hm (ix2 n f)) d hν (fun n => hH _)]
  exact congrArg (fun t => (0 : EReal) + t)
    (@sum_pairs_col_inst E H (fun e => node hN dstI e = d) f
      (fun j => Hm (ix2 (node hN srcI (j 0)) (j 1)) * ν (j 0)) _ _)

open Classical in
/-- (2) the dense adjacency a 2-D scatter-add builds -/
theorem adjacency_apply (hN : 0 < N)
    (wf3 : ScatterDims.WF ⟨2, ![N, N]⟩ ⟨2, ![E, 2]⟩ ⟨1, ![E]⟩ [] [0, 1] [0, 1] 1)
    (zeros : FVec Ideal ⟨2, ![N, N]⟩ .f32) (hz : ∀ i, zeros i = 0)
    (idx2 : IVec ⟨2, ![E, 2]⟩ 32) (dstI srcI : IVec ⟨2, ![E, 1]⟩ 32)
    (h0 : ∀ e : Fin E, idx2 (ix2 e 0) = dstI (ix2 e 0)) (h1 : ∀ e : Fin E, idx2 (ix2 e 1) = srcI (ix2 e 0))
    (hdst : ∀ e : Fin E, 0 ≤ (dstI (ix2 e 0)).toInt ∧ (dstI (ix2 e 0)).toInt < N)
    (hsrc : ∀ e : Fin E, 0 ≤ (srcI (ix2 e 0)).toInt ∧ (srcI (ix2 e 0)).toInt < N)
    (norm : FVec Ideal ⟨1, ![E]⟩ .f32) (d s : Fin N) :
    Host.scatterAdd (F := Ideal) (scat3 wf3) zeros idx2 norm (ix2 d s)
      = 0 + ∑ e ∈ Finset.univ.filter (fun e : Fin E => node hN dstI e = d ∧ node hN srcI e = s), norm (ix1 e) := by
  simp only [Host.scatterAdd, Ideal.hostScatterAdd_def, Ideal.hostScatterAdd]
  rw [hz]
  refine congrArg (fun t => (0 : EReal) + t) ?_
  refine Eq.trans (Finset.sum_congr ?_ (fun _ _ => rfl))
    (@sum_idx1_filter_inst E (fun e => node hN dstI e = d ∧ node hN srcI e = s) norm _ (Classical.decPred _))
  ext j
  simp only [Finset.mem_filter, Finset.mem_univ, true_and]
  rw [scat3_iff, node_eq_iff hN dstI (j 0) (hdst _) d, node_eq_iff hN srcI (j 0) (hsrc _) s, h0 (j 0), h1 (j 0)]
  exact Iff.rfl

end Cert.LibGcnLayer

end
-- ==== Proof.LibEdgeIndex.lean ====
/-
  THE EDGE-INDEX COLUMNS OF A GRAPH PROGRAM, read at an index.

  An edge array `[2, M]` of 32-bit node numbers (row 0 the sources, row 1 the targets) is extended by the self-loops:
  one of its rows, flattened, is followed by `0, 1, …, K − 1` (an iota). If every entry of the array is a node number
  in `[0, K)`, so is every entry of the extended list (`ext_range`): an entry below `M` is an entry of the array, an
  entry at `M + k` is the word of `k < K`, whose signed value is `k`.

  The index wrap of negative positions, `select (v < 0) (v + K) v`, is the identity on such a list, the comparison
  being signed and never true (`wrap_eq`); the broadcast constants it compares with and adds are `0` and `K`
  everywhere (`const_apply`, `const0`, `const10000`).

  Layout: a list placed as a column `[E, 1]` reads its entry `e` at `(e, 0)` (`col_apply`); spread further over `H`
  columns it reads entry `e` at `(e, h)` (`col_spread_apply`); two columns joined side by side into `[E, 2]` read the
  first at `(e, 0)` and the second at `(e, 1)` (`concat2_apply0`, `concat2_apply1`).

  Here `M = 320000`, `K = 10000`, `E = M + K = 330000`, written as literals; nothing is evaluated over them.
-/
import Idealize.ShloMosaic.PureOps.Ideal.Laws
import Idealize.ShloMosaic.Lib.ValueIdx
import Idealize.ShloMosaic.Lib.Pipeline.Value
import Idealize.ShloMosaic.Lib.ValueLayout

namespace Cert.LibEdgeIndex

open Idealize.ShloMosaic Idealize.ShloMosaic.ValueIdx

/-! ## Words -/

/-- The 32-bit word of a small natural number has that number as its signed value. -/
theorem toInt_ofNat_small (k : ℕ) (hk : k < 10000) : (BitVec.ofNat 32 k).toInt = (k : ℤ) := by
  rw [BitVec.toInt_eq_toNat_cond, BitVec.toNat_ofNat]
  split <;> omega

/-! ## The constants of the wrap -/

/-- A scalar integer constant broadcast to a list is that constant at every position. -/
theorem const_apply (c : BitVec 32)
    (hb : (⟨0, ![]⟩ : Shape).BroadcastsInDim ⟨1, ![330000]⟩ (![] : Fin 0 → Fin (⟨1, ![330000]⟩ : Shape).rank))
    (e : (⟨1, ![330000]⟩ : Shape).Idx) :
    broadcastInDim ⟨1, ![330000]⟩ ![] hb (constantI ⟨0, ![]⟩ 32 c) e = c := rfl

/-- The broadcast constant `0` is `0` at every position. -/
theorem const0
    (hb : (⟨0, ![]⟩ : Shape).BroadcastsInDim ⟨1, ![330000]⟩ (![] : Fin 0 → Fin (⟨1, ![330000]⟩ : Shape).rank))
    (e : (⟨1, ![330000]⟩ : Shape).Idx) :
    broadcastInDim ⟨1, ![330000]⟩ ![] hb (constantI ⟨0, ![]⟩ 32 0#32) e = 0#32 := rfl

/-- The broadcast constant `10000` is `10000` at every position. -/
theorem const10000
    (hb : (⟨0, ![]⟩ : Shape).BroadcastsInDim ⟨1, ![330000]⟩ (![] : Fin 0 → Fin (⟨1, ![330000]⟩ : Shape).rank))
    (e : (⟨1, ![330000]⟩ : Shape).Idx) :
    broadcastInDim ⟨1, ![330000]⟩ ![] hb (constantI ⟨0, ![]⟩ 32 10000#32) e = 10000#32 := rfl

/-! ## The wrap of negative positions is the identity on node numbers -/

/-- On a list of non-negative words the signed comparison with `0` is never true, so the select keeps the list. -/
theorem wrap_eq (v zero ten : IVec ⟨1, ![330000]⟩ 32) (hz : ∀ e, zero e = 0#32) (ht : ∀ e, ten e = 10000#32)
    (hv : ∀ e, 0 ≤ (v e).toInt ∧ (v e).toInt < 10000) :
    select (cmpi .slt v zero) (addi v ten) v = v := by
  funext e
  show Scalar.select (IntOp.cmpi .slt (v e) (zero e)) (IntOp.addi (v e) (ten e)) (v e) = v e
  have h0 : (0#32 : BitVec 32).toInt = 0 := by decide
  have hlt : (v e).slt 0#32 = false := by
    unfold BitVec.slt
    rw [h0]
    exact decide_eq_false (by have := (hv e).1; omega)
  have hc : IntOp.cmpi .slt (v e) (zero e) = 0#1 := by
    rw [hz e]
    show BitVec.ofBool ((v e).slt 0#32) = 0#1
    rw [hlt]
    rfl
  rw [hc, select_zero]

/-! ## The extended edge list stays in range -/

/-- One row of the edge array (the slice of `[2, M]` at the offsets `off`, flattened to `[M]`) followed by the
    self-loops `0, …, K − 1`. -/
abbrev ext (off : Fin (⟨2, ![2, 320000]⟩ : Shape).rank → ℕ) (x1 : IVec ⟨2, ![2, 320000]⟩ 32)
    (hs : (⟨2, ![2, 320000]⟩ : Shape).Slices off ⟨2, ![1, 320000]⟩)
    (hc : (⟨2, ![1, 320000]⟩ : Shape).ShapeCasts ⟨1, ![320000]⟩)
    (hcat : Shape.Concatenates [(⟨1, ![320000]⟩ : Shape), ⟨1, ![10000]⟩] ⟨1, ![330000]⟩ 0) :
    IVec ⟨1, ![330000]⟩ 32 :=
  concatenate ⟨1, ![330000]⟩ 0
    [⟨⟨1, ![320000]⟩, shapeCast ⟨1, ![320000]⟩ (extractStridedSlice ⟨2, ![1, 320000]⟩ off x1 hs) hc⟩,
     ⟨⟨1, ![10000]⟩, iotaInDim ⟨1, ![10000]⟩ 32 0⟩] hcat

/-- If every entry of the edge array is a node number in `[0, K)`, so is every entry of the extended list: an entry
    below `M` is an entry of the array, the entry at `M + k` is the word of `k < K`. -/
theorem ext_range (off : Fin (⟨2, ![2, 320000]⟩ : Shape).rank → ℕ) (x1 : IVec ⟨2, ![2, 320000]⟩ 32)
    (hs : (⟨2, ![2, 320000]⟩ : Shape).Slices off ⟨2, ![1, 320000]⟩)
    (hc : (⟨2, ![1, 320000]⟩ : Shape).ShapeCasts ⟨1, ![320000]⟩)
    (hcat : Shape.Concatenates [(⟨1, ![320000]⟩ : Shape), ⟨1, ![10000]⟩] ⟨1, ![330000]⟩ 0)
    (hx : ∀ i, 0 ≤ (x1 i).toInt ∧ (x1 i).toInt < 10000) (e : (⟨1, ![330000]⟩ : Shape).Idx) :
    0 ≤ (ext off x1 hs hc hcat e).toInt ∧ (ext off x1 hs hc hcat e).toInt < 10000 := by
  have he : (e 0).val < 330000 := (e 0).isLt
  by_cases hlt : (e 0).val < 320000
  · have key : ext off x1 hs hc hcat e
        = shapeCast ⟨1, ![320000]⟩ (extractStridedSlice ⟨2, ![1, 320000]⟩ off x1 hs) hc (ix1 (n := 320000) ⟨(e 0).val, hlt⟩) :=
      concatenate_pair_apply_left (t := ⟨1, ![330000]⟩) (s₁ := ⟨1, ![320000]⟩) (s₂ := ⟨1, ![10000]⟩) 0 _ _ hcat e rfl
        (ix1 (n := 320000) ⟨(e 0).val, hlt⟩)
        (fun ax => match ax with | ⟨0, _⟩ => rfl)
    rw [key]
    exact hx _
  · obtain ⟨k, hk⟩ : ∃ k : Fin 10000, k.val + 320000 = (e 0).val :=
      ⟨⟨(e 0).val - 320000, by omega⟩, Nat.sub_add_cancel (by omega)⟩
    have hk' : k.val < 10000 := k.isLt
    have key : ext off x1 hs hc hcat e = iotaInDim ⟨1, ![10000]⟩ 32 0 (ix1 k) :=
      concatenate_pair_apply_right (t := ⟨1, ![330000]⟩) (s₁ := ⟨1, ![320000]⟩) (s₂ := ⟨1, ![10000]⟩) 0 _ _ hcat e rfl rfl
        (ix1 k)
        (fun ax hax => absurd (Fin.ext (by have h1 : ax.val < 1 := ax.isLt; show ax.val = 0; omega)) hax)
        hk
    rw [key]
    show 0 ≤ (BitVec.ofNat 32 k.val).toInt ∧ (BitVec.ofNat 32 k.val).toInt < 10000
    rw [toInt_ofNat_small _ hk']
    omega

/-- `ext_range` for row 0 (the sources). -/
theorem ext_range0 (x1 : IVec ⟨2, ![2, 320000]⟩ 32)
    (hs : (⟨2, ![2, 320000]⟩ : Shape).Slices ![0, 0] ⟨2, ![1, 320000]⟩)
    (hc : (⟨2, ![1, 320000]⟩ : Shape).ShapeCasts ⟨1, ![320000]⟩)
    (hcat : Shape.Concatenates [(⟨1, ![320000]⟩ : Shape), ⟨1, ![10000]⟩] ⟨1, ![330000]⟩ 0)
    (hx : ∀ i, 0 ≤ (x1 i).toInt ∧ (x1 i).toInt < 10000) (e : (⟨1, ![330000]⟩ : Shape).Idx) :
    0 ≤ (ext ![0, 0] x1 hs hc hcat e).toInt ∧ (ext ![0, 0] x1 hs hc hcat e).toInt < 10000 :=
  ext_range _ x1 hs hc hcat hx e

/-- `ext_range` for row 1 (the targets). -/
theorem ext_range1 (x1 : IVec ⟨2, ![2, 320000]⟩ 32)
    (hs : (⟨2, ![2, 320000]⟩ : Shape).Slices ![1, 0] ⟨2, ![1, 320000]⟩)
    (hc : (⟨2, ![1, 320000]⟩ : Shape).ShapeCasts ⟨1, ![320000]⟩)
    (hcat : Shape.Concatenates [(⟨1, ![320000]⟩ : Shape), ⟨1, ![10000]⟩] ⟨1, ![330000]⟩ 0)
    (hx : ∀ i, 0 ≤ (x1 i).toInt ∧ (x1 i).toInt < 10000) (e : (⟨1, ![330000]⟩ : Shape).Idx) :
    0 ≤ (ext ![1, 0] x1 hs hc hcat e).toInt ∧ (ext ![1, 0] x1 hs hc hcat e).toInt < 10000 :=
  ext_range _ x1 hs hc hcat hx e

/-! ## A list as a column, a column spread over columns -/

section Layout
variable {α : Type}

/-- A list placed along axis 0 of an `[E, 1]` column reads, at `(e, 0)`, the list at `e`. -/
theorem col_apply (v : (⟨1, ![330000]⟩ : Shape).Idx → α)
    (hb : (⟨1, ![330000]⟩ : Shape).BroadcastsInDim ⟨2, ![330000, 1]⟩
      (![0] : Fin 1 → Fin (⟨2, ![330000, 1]⟩ : Shape).rank))
    (e : Fin 330000) :
    broadcastInDim ⟨2, ![330000, 1]⟩ ![0] hb v (ix2 e 0) = v (ix1 e) := by
  refine broadcastInDim_apply _ hb v (ix2 e 0) (ix1 e) fun ax => ?_
  match ax with
  | ⟨0, _⟩ =>
    show e.val = if (330000 : ℕ) = 1 then 0 else e.val
    rw [if_neg (by omega)]

/-- The same at any index `j` of the column: the list at `j`'s row. -/
theorem col_apply' (v : (⟨1, ![330000]⟩ : Shape).Idx → α)
    (hb : (⟨1, ![330000]⟩ : Shape).BroadcastsInDim ⟨2, ![330000, 1]⟩
      (![0] : Fin 1 → Fin (⟨2, ![330000, 1]⟩ : Shape).rank))
    (j : (⟨2, ![330000, 1]⟩ : Shape).Idx) :
    broadcastInDim ⟨2, ![330000, 1]⟩ ![0] hb v j = v (ix1 (j 0)) := by
  refine broadcastInDim_apply _ hb v j (ix1 (j 0)) fun ax => ?_
  match ax with
  | ⟨0, _⟩ =>
    show (j 0).val = if (330000 : ℕ) = 1 then 0 else (j 0).val
    rw [if_neg (by omega)]

/-- A list placed as a column and then spread over `H` columns reads, at `(e, h)`, the list at `e`. -/
theorem col_spread_apply {H : ℕ} (nu : (⟨1, ![330000]⟩ : Shape).Idx → α)
    (hb1 : (⟨1, ![330000]⟩ : Shape).BroadcastsInDim ⟨2, ![330000, 1]⟩
      (![0] : Fin 1 → Fin (⟨2, ![330000, 1]⟩ : Shape).rank))
    (hb2 : (⟨2, ![330000, 1]⟩ : Shape).BroadcastsInDim ⟨2, ![330000, H]⟩
      (![0, 1] : Fin 2 → Fin (⟨2, ![330000, H]⟩ : Shape).rank))
    (j : (⟨2, ![330000, H]⟩ : Shape).Idx) :
    broadcastInDim ⟨2, ![330000, H]⟩ ![0, 1] hb2 (broadcastInDim ⟨2, ![330000, 1]⟩ ![0] hb1 nu) j
      = nu (ix1 (j 0)) := by
  have h1 : broadcastInDim ⟨2, ![330000, H]⟩ ![0, 1] hb2 (broadcastInDim ⟨2, ![330000, 1]⟩ ![0] hb1 nu) j
      = broadcastInDim ⟨2, ![330000, 1]⟩ ![0] hb1 nu (ix2 (j 0) 0) := by
    refine broadcastInDim_apply _ hb2 _ j (ix2 (j 0) 0) fun ax => ?_
    match ax with
    | ⟨0, _⟩ =>
      show (j 0).val = if (330000 : ℕ) = 1 then 0 else (j 0).val
      rw [if_neg (by omega)]
    | ⟨1, _⟩ => rfl
  rw [h1]
  exact col_apply nu hb1 (j 0)

/-! ## Two columns joined side by side -/

/-- The join of two `[E, 1]` columns along axis 1 reads, at `(e, 0)`, the first column at `(e, 0)`. -/
theorem concat2_apply0 (a b : (⟨2, ![330000, 1]⟩ : Shape).Idx → α)
    (h : Shape.Concatenates [(⟨2, ![330000, 1]⟩ : Shape), ⟨2, ![330000, 1]⟩] ⟨2, ![330000, 2]⟩ 1)
    (e : Fin 330000) :
    concatenate ⟨2, ![330000, 2]⟩ 1 [⟨⟨2, ![330000, 1]⟩, a⟩, ⟨⟨2, ![330000, 1]⟩, b⟩] h (ix2 e 0) = a (ix2 e 0) := by
  refine concatenate_pair_apply_left (t := ⟨2, ![330000, 2]⟩) (s₁ := ⟨2, ![330000, 1]⟩) (s₂ := ⟨2, ![330000, 1]⟩) 1 a b h
    (ix2 e 0) rfl (ix2 e 0) fun ax => ?_
  match ax with
  | ⟨0, _⟩ => rfl
  | ⟨1, _⟩ => rfl

/-- The join of two `[E, 1]` columns along axis 1 reads, at `(e, 1)`, the second column at `(e, 0)`. -/
theorem concat2_apply1 (a b : (⟨2, ![330000, 1]⟩ : Shape).Idx → α)
    (h : Shape.Concatenates [(⟨2, ![330000, 1]⟩ : Shape), ⟨2, ![330000, 1]⟩] ⟨2, ![330000, 2]⟩ 1)
    (e : Fin 330000) :
    concatenate ⟨2, ![330000, 2]⟩ 1 [⟨⟨2, ![330000, 1]⟩, a⟩, ⟨⟨2, ![330000, 1]⟩, b⟩] h (ix2 e 1) = b (ix2 e 0) := by
  refine concatenate_pair_apply_right (t := ⟨2, ![330000, 2]⟩) (s₁ := ⟨2, ![330000, 1]⟩) (s₂ := ⟨2, ![330000, 1]⟩) 1 a b h
    (ix2 e 1) rfl rfl (ix2 e 0) (fun ax hax => ?_) (by show (0 : ℕ) + 1 = 1; rfl)
  match ax with
  | ⟨0, _⟩ => rfl
  | ⟨1, _⟩ => exact absurd rfl hax

end Layout

end Cert.LibEdgeIndex
-- ==== Proof.LibDegreeNorm.lean ====
/-
  The degree normalisation of a graph convolution has real entries.

  The in-degree of a node is a scatter-add of ones onto zeros: at every node a finite sum of ones, a nonnegative real.
  Where the degree is positive its reciprocal square root is a real number; where it is not, the program selects 0. So
  dinv = where(deg > 0, 1/√deg, 0) has real entries, and so has the edge weight norm = dinv[src] · dinv[dst]: a read
  through an index map keeps entries real, and a product of reals is real. The extents E (edges) and N (nodes) are
  variables: nothing here is evaluated over them.
-/
import proofs.«100568_j75265006895440_2_alg».proof.Proof.LibRealEntries
import proofs.«100568_j75265006895440_2_alg».proof.Proof.LibScatterGatherRead
import Idealize.ShloMosaic.PureOps.Ideal.Laws

noncomputable section

namespace Cert.LibDegreeNorm

open Cert.LibRealEntries Cert.LibScatterGatherRead Idealize.ShloMosaic Idealize.ShloMosaic.ValueIdx

variable {E N : ℕ}

/-- The constant 0.0 copied to every entry of an array is 0 at every entry. -/
theorem const_zero {s : Shape} (h : (⟨0, ![]⟩ : Shape).BroadcastsInDim s ![]) (i : s.Idx) :
    (broadcastInDim s ![] h (constant (F := Ideal) ⟨0, ![]⟩ .f32 0x00000000#32)) i = 0 := by
  show Ideal.ofBits .f32 0x00000000#32 = 0
  exact Ideal.ofBits_zero_f32

/-- The pattern 0x3F800000 is the number 1: sign +, exponent field 127 (the bias), fraction 0. -/
theorem ofBits_one_f32 : Ideal.ofBits .f32 0x3F800000#32 = 1 := by
  simp [Ideal.ofBits, Ideal.ieee, -EReal.coe_mul]; norm_num

/-- The constant 1.0 copied to every entry of an array is 1 at every entry. -/
theorem const_one {s : Shape} (h : (⟨0, ![]⟩ : Shape).BroadcastsInDim s ![]) (i : s.Idx) :
    (broadcastInDim s ![] h (constant (F := Ideal) ⟨0, ![]⟩ .f32 0x3F800000#32)) i = 1 := by
  show Ideal.ofBits .f32 0x3F800000#32 = 1
  exact ofBits_one_f32

/-- where(deg > 0, 1/√deg, 0) of nonnegative reals has real entries: at a positive entry the reciprocal square root of a
    positive real is real; elsewhere the entry is 0. -/
theorem dinv_allReal (deg zero zero' : FVec Ideal ⟨1, ![N]⟩ .f32) (hdeg : ∀ i, IsNonneg (deg i)) (hz : ∀ i, zero i = 0)
    (hz' : ∀ i, zero' i = 0) : AllReal (select (cmpf .ogt deg zero) (Host.rsqrt deg) zero') := fun i => by
  show IsReal (Scalar.select (Ideal.cmp .ogt (deg i) (zero i)) (Ideal.rsqrt (deg i)) (zero' i))
  obtain ⟨r, hr0, hr⟩ := hdeg i
  rw [hr, hz i, hz' i]
  by_cases hpos : 0 < r
  · have hc : Ideal.cmp .ogt ((r : ℝ) : EReal) 0 = 1#1 := by simp [Ideal.cmp, hpos]
    rw [hc, select_one]
    exact IsReal.rsqrt_pos hpos
  · have hc : Ideal.cmp .ogt ((r : ℝ) : EReal) 0 = 0#1 := by simp [Ideal.cmp, hpos]
    rw [hc, select_zero]
    exact IsReal.zero

/-- The in-degree, a scatter-add of ones from zero, is at every node a finite sum of ones: a nonnegative real. -/
theorem deg_isNonneg (wfS : ScatterDims.WF ⟨1, ![N]⟩ ⟨2, ![E, 1]⟩ ⟨1, ![E]⟩ [] [0] [0] 1)
    (zeros : FVec Ideal ⟨1, ![N]⟩ .f32) (ones : FVec Ideal ⟨1, ![E]⟩ .f32) (hzs : ∀ i, zeros i = 0) (h1 : ∀ e, ones e = 1)
    (dstCol : IVec ⟨2, ![E, 1]⟩ 32) (i : (⟨1, ![N]⟩ : Shape).Idx) :
    IsNonneg (Host.scatterAdd (scat1 wfS) zeros dstCol ones i) :=
  IsNonneg.scatterAdd (scat1 wfS) .single dstCol (fun i => ⟨0, le_refl _, (hzs i).trans EReal.coe_zero.symm⟩)
    (fun j => ⟨1, zero_le_one, (h1 j).trans EReal.coe_one.symm⟩) i

/-- The edge weights dinv[src] * dinv[dst], with dinv = where(deg > 0, 1/√deg, 0) and deg the in-degree, are real:
    reads of a real array through index maps, multiplied entry by entry. -/
theorem norm_allReal (wfS : ScatterDims.WF ⟨1, ![N]⟩ ⟨2, ![E, 1]⟩ ⟨1, ![E]⟩ [] [0] [0] 1)
    (wfG : GatherDims.WF ⟨1, ![N]⟩ ⟨2, ![E, 1]⟩ ⟨1, ![E]⟩ [] [0] [] [0] [] 1 ![1])
    (zeros zero zero' : FVec Ideal ⟨1, ![N]⟩ .f32) (ones : FVec Ideal ⟨1, ![E]⟩ .f32)
    (hzs : ∀ i, zeros i = 0) (hz : ∀ i, zero i = 0) (hz' : ∀ i, zero' i = 0) (h1 : ∀ e, ones e = 1)
    (dstCol i1 i2 : IVec ⟨2, ![E, 1]⟩ 32) :
    AllReal (mulf
      (Host.gather (gath1 wfG) (select (cmpf .ogt (Host.scatterAdd (scat1 wfS) zeros dstCol ones) zero)
        (Host.rsqrt (Host.scatterAdd (scat1 wfS) zeros dstCol ones)) zero') i1)
      (Host.gather (gath1 wfG) (select (cmpf .ogt (Host.scatterAdd (scat1 wfS) zeros dstCol ones) zero)
        (Host.rsqrt (Host.scatterAdd (scat1 wfS) zeros dstCol ones)) zero') i2)) := by
  have hd := dinv_allReal (Host.scatterAdd (scat1 wfS) zeros dstCol ones) zero zero'
    (deg_isNonneg wfS zeros ones hzs h1 dstCol) hz hz'
  exact AllReal.vmulf (AllReal.gather (gath1 wfG) i1 hd) (AllReal.gather (gath1 wfG) i2 hd)

end Cert.LibDegreeNorm

end
-- ==== Proof.KAdj.lean ====
/-
  THE KERNEL'S DENSE ADJACENCY.

  Before its first matrix product the kernel turns the edge list into a dense N×N matrix: it extends the sources and
  the destinations by one self-loop per node, counts the in-degree of every node, takes dinv = 1/sqrt(deg) where the
  degree is positive and 0 elsewhere, gives edge e the weight norm e = dinv(src e) · dinv(dst e), and adds norm e into
  entry (dst e, src e) of an N×N array of zeros (a scatter-add at the two-component indices (dst e, src e)); the sum is
  then rounded to a narrower format, which over the extended reals is the identity. So entry (d, s) of the matrix is
  0 + ∑ { norm e : dst e = d, src e = s }, the weights being the reference's own (the same composition of the same
  operations on the same edge array), provided every entry of the edge array is a node number in [0, N).
-/
import proofs.«100568_j75265006895440_2_alg».proof.Proof.Gen.KernelIdeal.Frame
import proofs.«100568_j75265006895440_2_alg».proof.Proof.RefSpec
import proofs.«100568_j75265006895440_2_alg».proof.Proof.LibGcnLayer
import proofs.«100568_j75265006895440_2_alg».proof.Proof.LibEdgeIndex
import proofs.«100568_j75265006895440_2_alg».proof.Proof.LibScatterGatherRead
import proofs.«100568_j75265006895440_2_alg».proof.Proof.LibDegreeNorm
import proofs.«100568_j75265006895440_2_alg».proof.Proof.LibRealEntries
import Idealize.ShloMosaic.Lib.StableHlo.Run
import Idealize.ShloMosaic.Lib.ValueIdx

set_option maxRecDepth 16384

noncomputable section

namespace Cert.KAdj

open Cert.KernelIdeal Cert.KernelIdeal.Gen
open Idealize.ShloMosaic Idealize.ShloMosaic.TcCoe Idealize.ShloMosaic.Tactic Idealize.ShloMosaic.StableHlo Idealize.ShloMosaic.ValueIdx
open Idealize.SL Idealize.SL.Sem

/-- What a buffer holds after a straight line of operations: at its result buffer an operation's own result, at every
    other buffer the earlier contents; applied until no operation is left, also inside the pieces of a concatenation. -/
macro "results_rw" : tactic =>
  `(tactic| repeat (first
       | rw [nullary_result] | rw [unary_result] | rw [binary_result] | rw [ternary_result] | rw [quaternary_result]
       | rw [reshape_result]
       | (rw [nullary_result_ne]; rotate_left; decide)
       | (rw [unary_result_ne]; rotate_left; decide)
       | (rw [binary_result_ne]; rotate_left; decide)
       | (rw [ternary_result_ne]; rotate_left; decide)
       | (rw [quaternary_result_ne]; rotate_left; decide)
       | (rw [reshape_result_ne]; rotate_left; decide)))

section Stages
variable {F : FTy → Type} [FloatOps F]

/-- The sources of the edges, then one self-loop per node. -/
def srcExt (x1 : IVec S2x320000 32) : IVec S330000 32 :=
  concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0
/-- The destinations of the edges, then one self-loop per node. -/
def dstExt (x1 : IVec S2x320000 32) : IVec S330000 32 :=
  concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0
/-- A negative index counts from the end: v + N where v < 0, v elsewhere. -/
def wrapI (v : IVec S330000 32) : IVec S330000 32 :=
  select (cmpi .slt v (broadcastInDim S330000 ![] bcast_S_S330000 (constantI S_ 32 0#32))) (addi v (broadcastInDim S330000 ![] bcast_S_S330000 (constantI S_ 32 10000#32))) v
/-- A list of indices as a column of one-component index vectors. -/
def col (v : IVec S330000 32) : IVec S330000x1 32 := broadcastInDim S330000x1 ![0] bcast_S330000_S330000x1_0 v
/-- The zero vector over the nodes. -/
def zerosN : FVec F S10000 .f32 := broadcastInDim S10000 ![] bcast_S_S10000 (constant (F := F) S_ .f32 0x00000000#32)
/-- One per edge. -/
def onesE : FVec F S330000 .f32 := broadcastInDim S330000 ![] bcast_S_S330000 (constant (F := F) S_ .f32 0x3F800000#32)
/-- The in-degree of every node, self-loop included. -/
def deg (x1 : IVec S2x320000 32) : FVec F S10000 .f32 :=
  Host.scatterAdd scatter_S10000_S330000x1_S330000_n_0_0_1 (zerosN (F := F)) (col (dstExt x1)) (onesE (F := F))
/-- 1/sqrt(deg) where the degree is positive, 0 elsewhere. -/
def dinv (x1 : IVec S2x320000 32) : FVec F S10000 .f32 :=
  select (cmpf .ogt (deg (F := F) x1) (zerosN (F := F))) (Host.rsqrt (deg (F := F) x1)) (broadcastInDim S10000 ![] bcast_S_S10000 (id (constant (F := F) S_ .f32 0x00000000#32)))
/-- The weight of every edge: dinv at its source times dinv at its destination. -/
def norm (x1 : IVec S2x320000 32) : FVec F S330000 .f32 :=
  mulf (Host.gather gather_S10000_S330000x1_S330000_n_0_n_n_0_1_1 (dinv (F := F) x1) (col (wrapI (srcExt x1))))
    (Host.gather gather_S10000_S330000x1_S330000_n_0_n_n_0_1_1 (dinv (F := F) x1) (col (wrapI (dstExt x1))))
/-- The two-component indices (dst e, src e). -/
def idx2 (x1 : IVec S2x320000 32) : IVec S330000x2 32 :=
  concatenate S330000x2 1 [⟨S330000x1, col (wrapI (dstExt x1))⟩, ⟨S330000x1, col (wrapI (srcExt x1))⟩] concatenates_S330000x1_S330000x1_S330000x2_d1
/-- The N×N array of zeros. -/
def zerosNN : FVec F S10000x10000 .f32 := broadcastInDim S10000x10000 ![] bcast_S_S10000x10000 (constant (F := F) S_ .f32 0x00000000#32)
/-- The weights added into the entries (dst e, src e), before the rounding. -/
def adj32 (x1 : IVec S2x320000 32) : FVec F S10000x10000 .f32 :=
  Host.scatterAdd scatter_S10000x10000_S330000x2_S330000_n_01_01_1 (zerosNN (F := F)) (idx2 x1) (norm (F := F) x1)

/-- The same rounded to the narrower format. -/
def adj16 (x1 : IVec S2x320000 32) : FVec F S10000x10000 .bf16 :=
  truncf .bf16 (adj32 (F := F) x1) bitsLt_bf16_f32

end Stages

/-- The dense adjacency the kernel multiplies by: the weights added into the entries (dst e, src e), rounded (over the
    extended reals the rounding is the identity). -/
def Ahat (x1 : IVec S2x320000 32) : (⟨2, ![10000, 10000]⟩ : Shape).Idx → EReal :=
  adj16 (F := Ideal) x1

section Run
variable {F : FTy → Type} [FloatOps F]
variable (m : (ℓ : Loc nD τ sig) → Buf (Elt F) ℓ) (ρ : Dev nD → PrngReg)

/-! ### After the first stretch: the extended edge lists and the degrees -/

theorem W1_v5 (c : Dev nD) :
    W1 m ρ c (Proc.devRef .tc main_v5) = srcExt (m ((c : Thread nD τ).loc main_arg1)) := by
  show StableHlo.after hostOps0 (W0 m ρ c) (Proc.devRef .tc main_v5) = _
  after_results_simp
  results_rw
  rfl

theorem W1_v6 (c : Dev nD) :
    W1 m ρ c (Proc.devRef .tc main_v6) = dstExt (m ((c : Thread nD τ).loc main_arg1)) := by
  show StableHlo.after hostOps0 (W0 m ρ c) (Proc.devRef .tc main_v6) = _
  after_results_simp
  results_rw
  rfl

theorem W1_v12 (c : Dev nD) :
    W1 m ρ c (Proc.devRef .tc main_v12)
      = cmpf .ogt (deg (F := F) (m ((c : Thread nD τ).loc main_arg1))) (zerosN (F := F)) := by
  show StableHlo.after hostOps0 (W0 m ρ c) (Proc.devRef .tc main_v12) = _
  after_results_simp
  results_rw
  rfl

theorem W1_v13 (c : Dev nD) :
    W1 m ρ c (Proc.devRef .tc main_v13) = Host.rsqrt (deg (F := F) (m ((c : Thread nD τ).loc main_arg1))) := by
  show StableHlo.after hostOps0 (W0 m ρ c) (Proc.devRef .tc main_v13) = _
  after_results_simp
  results_rw
  rfl

theorem W1_cst2 (c : Dev nD) :
    W1 m ρ c (Proc.devRef .tc main_cst_2) = constant (F := F) S_ .f32 0x00000000#32 := by
  show StableHlo.after hostOps0 (W0 m ρ c) (Proc.devRef .tc main_cst_2) = _
  after_results_simp

/-! ### After the second stretch: dinv -/

theorem W2_v14 (c : Dev nD) :
    W2 m ρ c (Proc.devRef .tc main_v14) = dinv (F := F) (m ((c : Thread nD τ).loc main_arg1)) := by
  have h12 := W1_v12 m ρ c
  have h13 := W1_v13 m ρ c
  have hc2 := W1_cst2 m ρ c
  show StableHlo.after hostOps0_1 (W1 m ρ c) (Proc.devRef .tc main_v14) = _
  generalize W1 m ρ c = V at h12 h13 hc2 ⊢
  after_results_simp
  results_rw
  rw [h12, h13, hc2]
  rfl

theorem W2_v5 (c : Dev nD) :
    W2 m ρ c (Proc.devRef .tc main_v5) = srcExt (m ((c : Thread nD τ).loc main_arg1)) := by
  have h5 := W1_v5 m ρ c
  show StableHlo.after hostOps0_1 (W1 m ρ c) (Proc.devRef .tc main_v5) = _
  generalize W1 m ρ c = V at h5 ⊢
  after_results_simp
  exact h5

theorem W2_v6 (c : Dev nD) :
    W2 m ρ c (Proc.devRef .tc main_v6) = dstExt (m ((c : Thread nD τ).loc main_arg1)) := by
  have h6 := W1_v6 m ρ c
  show StableHlo.after hostOps0_1 (W1 m ρ c) (Proc.devRef .tc main_v6) = _
  generalize W1 m ρ c = V at h6 ⊢
  after_results_simp
  exact h6

end Run

section Run3
variable {F : FTy → Type} [FloatOps F]
variable (m : (ℓ : Loc nD τ sig) → Buf (Elt F) ℓ) (ρ : Dev nD → PrngReg)

/-! ### After the third stretch: the adjacency -/

set_option maxHeartbeats 4000000 in
theorem W3_v45 (c : Dev nD) :
    W3 m ρ c (Proc.devRef .tc main_v45) = adj16 (F := F) (m ((c : Thread nD τ).loc main_arg1)) := by
  have h5 := W2_v5 m ρ c
  have h6 := W2_v6 m ρ c
  have h14 := W2_v14 m ρ c
  show StableHlo.after hostOps0_2 (W2 m ρ c) (Proc.devRef .tc main_v45) = _
  generalize W2 m ρ c = V at h5 h6 h14 ⊢
  after_results_simp
  results_rw
  rw [h5, h6, h14]
  rfl

end Run3

/-- At the first region's entry the adjacency buffer holds the adjacency of the first stream's edge array. -/
theorem W3_adj (m : (ℓ : Loc nD τ sig) → Buf (Elt Ideal) ℓ) (ρ : Dev nD → PrngReg) (c : Dev nD) :
    W3 m ρ c (Proc.devRef .tc main_v45) = Ahat (m ((c : Thread nD τ).loc main_arg1)) :=
  W3_v45 m ρ c

section RunY
variable {F : FTy → Type} [FloatOps F]
variable (m : (ℓ : Loc nD τ sig) → Buf (Elt F) ℓ) (ρ : Dev nD → PrngReg)

/-! ### The second stream: the same three stretches, from the contents `x3` of its edge array at their start -/

theorem W13_v60 (c : Dev nD) (x3 : IVec S2x320000 32) (h3 : W12 m ρ c (Proc.devRef .tc main_arg3) = x3) :
    W13 m ρ c (Proc.devRef .tc main_v60) = srcExt x3 := by
  show StableHlo.after hostOps6 (W12 m ρ c) (Proc.devRef .tc main_v60) = _
  generalize W12 m ρ c = V at h3 ⊢
  subst h3
  after_results_simp
  results_rw
  rfl

theorem W13_v61 (c : Dev nD) (x3 : IVec S2x320000 32) (h3 : W12 m ρ c (Proc.devRef .tc main_arg3) = x3) :
    W13 m ρ c (Proc.devRef .tc main_v61) = dstExt x3 := by
  show StableHlo.after hostOps6 (W12 m ρ c) (Proc.devRef .tc main_v61) = _
  generalize W12 m ρ c = V at h3 ⊢
  subst h3
  after_results_simp
  results_rw
  rfl

theorem W13_v67 (c : Dev nD) (x3 : IVec S2x320000 32) (h3 : W12 m ρ c (Proc.devRef .tc main_arg3) = x3) :
    W13 m ρ c (Proc.devRef .tc main_v67) = cmpf .ogt (deg (F := F) x3) (zerosN (F := F)) := by
  show StableHlo.after hostOps6 (W12 m ρ c) (Proc.devRef .tc main_v67) = _
  generalize W12 m ρ c = V at h3 ⊢
  subst h3
  after_results_simp
  results_rw
  rfl

theorem W13_v68 (c : Dev nD) (x3 : IVec S2x320000 32) (h3 : W12 m ρ c (Proc.devRef .tc main_arg3) = x3) :
    W13 m ρ c (Proc.devRef .tc main_v68) = Host.rsqrt (deg (F := F) x3) := by
  show StableHlo.after hostOps6 (W12 m ρ c) (Proc.devRef .tc main_v68) = _
  generalize W12 m ρ c = V at h3 ⊢
  subst h3
  after_results_simp
  results_rw
  rfl

theorem W13_cst14 (c : Dev nD) :
    W13 m ρ c (Proc.devRef .tc main_cst_14) = constant (F := F) S_ .f32 0x00000000#32 := by
  show StableHlo.after hostOps6 (W12 m ρ c) (Proc.devRef .tc main_cst_14) = _
  generalize W12 m ρ c = V
  after_results_simp

theorem W14_v69 (c : Dev nD) (x3 : IVec S2x320000 32) (h3 : W12 m ρ c (Proc.devRef .tc main_arg3) = x3) :
    W14 m ρ c (Proc.devRef .tc main_v69) = dinv (F := F) x3 := by
  have h12 := W13_v67 m ρ c x3 h3
  have h13 := W13_v68 m ρ c x3 h3
  have hc2 := W13_cst14 m ρ c
  show StableHlo.after hostOps6_1 (W13 m ρ c) (Proc.devRef .tc main_v69) = _
  generalize W13 m ρ c = V at h12 h13 hc2 ⊢
  after_results_simp
  results_rw
  rw [h12, h13, hc2]
  rfl

theorem W14_v60 (c : Dev nD) (x3 : IVec S2x320000 32) (h3 : W12 m ρ c (Proc.devRef .tc main_arg3) = x3) :
    W14 m ρ c (Proc.devRef .tc main_v60) = srcExt x3 := by
  have h5 := W13_v60 m ρ c x3 h3
  show StableHlo.after hostOps6_1 (W13 m ρ c) (Proc.devRef .tc main_v60) = _
  generalize W13 m ρ c = V at h5 ⊢
  after_results_simp
  exact h5

theorem W14_v61 (c : Dev nD) (x3 : IVec S2x320000 32) (h3 : W12 m ρ c (Proc.devRef .tc main_arg3) = x3) :
    W14 m ρ c (Proc.devRef .tc main_v61) = dstExt x3 := by
  have h6 := W13_v61 m ρ c x3 h3
  show StableHlo.after hostOps6_1 (W13 m ρ c) (Proc.devRef .tc main_v61) = _
  generalize W13 m ρ c = V at h6 ⊢
  after_results_simp
  exact h6

set_option maxHeartbeats 4000000 in
theorem W15_v100 (c : Dev nD) (x3 : IVec S2x320000 32) (h3 : W12 m ρ c (Proc.devRef .tc main_arg3) = x3) :
    W15 m ρ c (Proc.devRef .tc main_v100) = adj16 (F := F) x3 := by
  have h5 := W14_v60 m ρ c x3 h3
  have h6 := W14_v61 m ρ c x3 h3
  have h14 := W14_v69 m ρ c x3 h3
  show StableHlo.after hostOps6_2 (W14 m ρ c) (Proc.devRef .tc main_v100) = _
  generalize W14 m ρ c = V at h5 h6 h14 ⊢
  after_results_simp
  results_rw
  rw [h5, h6, h14]
  rfl

end RunY

/-- At the seventh region's entry the second adjacency buffer holds the adjacency of the second stream's edge array,
    given that the edge array still holds its launch contents when the stretches before that region start. -/
theorem W15_adj (m : (ℓ : Loc nD τ sig) → Buf (Elt Ideal) ℓ) (ρ : Dev nD → PrngReg) (c : Dev nD)
    (h3 : W12 m ρ c (Proc.devRef .tc main_arg3) = m ((c : Thread nD τ).loc main_arg3)) :
    W15 m ρ c (Proc.devRef .tc main_v100) = Ahat (m ((c : Thread nD τ).loc main_arg3)) :=
  W15_v100 m ρ c _ h3

/-! ## The adjacency read at an entry -/

section Apply
open Cert.LibRealEntries Cert.LibEdgeIndex Cert.LibScatterGatherRead

/-- On an edge array of node numbers the wrap of negative positions keeps the extended destinations. -/
theorem wrapI_dstExt (x1 : IVec S2x320000 32) (hx1 : ∀ i, 0 ≤ (x1 i).toInt ∧ (x1 i).toInt < 10000) :
    wrapI (dstExt x1) = dstExt x1 :=
  wrap_eq (dstExt x1) _ _ (fun e => const0 bcast_S_S330000 e) (fun e => const10000 bcast_S_S330000 e)
    (fun e => ext_range1 x1 slices_S2x320000_S1x320000_1_0 shapeCasts_S1x320000_S320000
      concatenates_S320000_S10000_S330000_d0 hx1 e)

/-- On an edge array of node numbers the wrap of negative positions keeps the extended sources. -/
theorem wrapI_srcExt (x1 : IVec S2x320000 32) (hx1 : ∀ i, 0 ≤ (x1 i).toInt ∧ (x1 i).toInt < 10000) :
    wrapI (srcExt x1) = srcExt x1 :=
  wrap_eq (srcExt x1) _ _ (fun e => const0 bcast_S_S330000 e) (fun e => const10000 bcast_S_S330000 e)
    (fun e => ext_range0 x1 slices_S2x320000_S1x320000_0_0 shapeCasts_S1x320000_S320000
      concatenates_S320000_S10000_S330000_d0 hx1 e)

/-- The destination column holds node numbers. -/
theorem col_dst_range (x1 : IVec S2x320000 32) (hx1 : ∀ i, 0 ≤ (x1 i).toInt ∧ (x1 i).toInt < 10000) (e : Fin 330000) :
    0 ≤ (col (dstExt x1) (ix2 e 0)).toInt ∧ (col (dstExt x1) (ix2 e 0)).toInt < (10000 : ℕ) := by
  have h : col (dstExt x1) (ix2 e 0) = dstExt x1 (ix1 e) := col_apply (dstExt x1) bcast_S330000_S330000x1_0 e
  rw [h]
  have hr : 0 ≤ (dstExt x1 (ix1 e)).toInt ∧ (dstExt x1 (ix1 e)).toInt < 10000 :=
    ext_range1 x1 slices_S2x320000_S1x320000_1_0 shapeCasts_S1x320000_S320000
      concatenates_S320000_S10000_S330000_d0 hx1 (ix1 e)
  exact ⟨hr.1, by have := hr.2; omega⟩

/-- The source column holds node numbers. -/
theorem col_src_range (x1 : IVec S2x320000 32) (hx1 : ∀ i, 0 ≤ (x1 i).toInt ∧ (x1 i).toInt < 10000) (e : Fin 330000) :
    0 ≤ (col (srcExt x1) (ix2 e 0)).toInt ∧ (col (srcExt x1) (ix2 e 0)).toInt < (10000 : ℕ) := by
  have h : col (srcExt x1) (ix2 e 0) = srcExt x1 (ix1 e) := col_apply (srcExt x1) bcast_S330000_S330000x1_0 e
  rw [h]
  have hr : 0 ≤ (srcExt x1 (ix1 e)).toInt ∧ (srcExt x1 (ix1 e)).toInt < 10000 :=
    ext_range0 x1 slices_S2x320000_S1x320000_0_0 shapeCasts_S1x320000_S320000
      concatenates_S320000_S10000_S330000_d0 hx1 (ix1 e)
  exact ⟨hr.1, by have := hr.2; omega⟩

open Classical in
/-- Entry (d, s) of the adjacency is 0 plus the weights of the edges from s to d, over this file's own stages. -/
theorem Ahat_apply_K (x1 : IVec S2x320000 32) (hx1 : ∀ i, 0 ≤ (x1 i).toInt ∧ (x1 i).toInt < 10000) (d s : Fin 10000) :
    Ahat x1 (ix2 d s) = 0 + ∑ e ∈ Finset.univ.filter (fun e : Fin 330000 =>
        Cert.LibGcnLayer.node (by decide : 0 < 10000) (col (dstExt x1)) e = d
          ∧ Cert.LibGcnLayer.node (by decide : 0 < 10000) (col (srcExt x1)) e = s),
      norm (F := Ideal) x1 (ix1 e) := by
  have h : Ahat x1 (ix2 d s) = adj32 (F := Ideal) x1 (ix2 d s) := rfl
  rw [h]
  unfold adj32 idx2
  rw [wrapI_dstExt x1 hx1, wrapI_srcExt x1 hx1]
  exact Cert.LibGcnLayer.adjacency_apply (by decide) scatter_S10000x10000_S330000x2_S330000_n_01_01_1_wf
    (zerosNN (F := Ideal)) (fun i => Cert.LibDegreeNorm.const_zero bcast_S_S10000x10000 i) _
    (col (dstExt x1)) (col (srcExt x1))
    (fun e => concat2_apply0 _ _ concatenates_S330000x1_S330000x1_S330000x2_d1 e)
    (fun e => concat2_apply1 _ _ concatenates_S330000x1_S330000x1_S330000x2_d1 e)
    (col_dst_range x1 hx1) (col_src_range x1 hx1) (norm (F := Ideal) x1) d s

/-- Every entry of the adjacency is a real number: a finite sum of products of real numbers. -/
theorem Ahat_allReal (x1 : IVec S2x320000 32) : AllReal (Ahat x1) := by
  have hn : AllReal (norm (F := Ideal) x1) :=
    Cert.LibDegreeNorm.norm_allReal scatter_S10000_S330000x1_S330000_n_0_0_1_wf
      gather_S10000_S330000x1_S330000_n_0_n_n_0_1_1_wf (zerosN (F := Ideal)) (zerosN (F := Ideal))
      (broadcastInDim S10000 ![] bcast_S_S10000 (id (constant (F := Ideal) S_ .f32 0x00000000#32)))
      (onesE (F := Ideal)) (fun i => Cert.LibDegreeNorm.const_zero bcast_S_S10000 i)
      (fun i => Cert.LibDegreeNorm.const_zero bcast_S_S10000 i) (fun i => Cert.LibDegreeNorm.const_zero bcast_S_S10000 i)
      (fun e => Cert.LibDegreeNorm.const_one bcast_S_S330000 e)
      (col (dstExt x1)) (col (wrapI (srcExt x1))) (col (wrapI (dstExt x1)))
  have hz : AllReal (zerosNN (F := Ideal)) := fun i => by
    rw [show zerosNN (F := Ideal) i = 0 from Cert.LibDegreeNorm.const_zero bcast_S_S10000x10000 i]
    exact IsReal.zero
  exact AllReal.scatterAdd scatter_S10000x10000_S330000x2_S330000_n_01_01_1 .single (idx2 x1) hz hn

end Apply

/-! ## The same over the reference's stages -/

section Ref
variable {F : FTy → Type} [FloatOps F]

/-- The destination column is the reference's: the same operations on the same array. -/
theorem col_dstExt_eq_ref (x1 : IVec S2x320000 32) :
    col (dstExt x1) = Cert.RefSpec.col (Cert.RefSpec.dstExt x1) := rfl
/-- The source column is the reference's. -/
theorem col_srcExt_eq_ref (x1 : IVec S2x320000 32) :
    col (srcExt x1) = Cert.RefSpec.col (Cert.RefSpec.srcExt x1) := rfl
/-- The edge weights are the reference's. -/
theorem norm_eq_ref (x1 : IVec S2x320000 32) : norm (F := F) x1 = Cert.RefSpec.norm (F := F) x1 := rfl

end Ref

open Classical in
/-- Entry (d, s) of the adjacency is 0 plus the reference's weights of the edges from s to d. -/
theorem Ahat_apply (x1 : IVec S2x320000 32) (hx1 : ∀ i, 0 ≤ (x1 i).toInt ∧ (x1 i).toInt < 10000) (d s : Fin 10000) :
    Ahat x1 (ix2 d s) = 0 + ∑ e ∈ Finset.univ.filter (fun e : Fin 330000 =>
        Cert.LibGcnLayer.node (by decide : 0 < 10000) (Cert.RefSpec.col (Cert.RefSpec.dstExt x1)) e = d
          ∧ Cert.LibGcnLayer.node (by decide : 0 < 10000) (Cert.RefSpec.col (Cert.RefSpec.srcExt x1)) e = s),
      Cert.RefSpec.norm (F := Ideal) x1 (ix1 e) := by
  rw [← col_dstExt_eq_ref, ← col_srcExt_eq_ref, ← norm_eq_ref]
  exact Ahat_apply_K x1 hx1 d s

end Cert.KAdj

end
-- ==== Proof.KernelRun.lean ====
/-
  The idealized kernel's run with its two results named.

  The program is twelve kernel launches among stretches of host operations. Its run is the library's theorem for a
  list of segments (Lib/Pipeline/Regions.lean) applied to the program's own segments; at the end every unscoped
  buffer of a core holds what the fold of the segments over the launch memory gives it. Read at the sixteen argument
  buffers that fold is the launch contents; read at the two result buffers it is the last aggregation launch's output
  array of each stream, which the other modules evaluate.
-/
import proofs.«100568_j75265006895440_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with each stream's result buffer at the last
    boundary's contents and every argument buffer as launched. -/
theorem results : θ_run defs (onTc (τ := τ) (main (F := F))) ⟨m, fun _ => 0, ρ⟩ (fun r => ∀ c : Dev nD,
      r.2.mem ((c.tc : Thread nD τ).loc main_v54) = W24 m ρ c (Proc.devRef .tc main_v54)
      ∧ r.2.mem ((c.tc : Thread nD τ).loc main_v109) = W24 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v54 (by decide)),
       h c _ (mem_uc main_v109 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c)⟩)

end Cert.KernelIdeal.Run

end
-- ==== Proof.KCarry.lean ====
/-
  WHICH BUFFER HOLDS WHAT WHEN EACH KERNEL IS LAUNCHED.

  The program is a line of host operations and twelve kernel launches, run in order; between consecutive pieces lies a
  boundary, and boundary J has a contents for every buffer (W0 is the launch memory, W24 the memory at the return). A host
  operation rewrites its one result buffer and leaves every other buffer as it was; a kernel launch rewrites its one
  output array and leaves every other buffer, its own input arrays included, as it was. So the contents of a buffer at a
  boundary is the contents at any earlier boundary, provided no piece between the two has that buffer as its result.

  The pieces, in order: three stretches of host operations (they build the normalised adjacency matrix %45 of the first
  graph from its edge list), launch 0, a reshape, launches 1 and 2, a reshape, launches 3 and 4, a reshape, launch 5;
  then the same for the second graph: three stretches of host operations (its adjacency matrix %100), launch 6, a
  reshape, launches 7 and 8, a reshape, launches 9 and 10, a reshape, launch 11.

  Three kinds of fact follow.
  * An ARGUMENT of the program is never a result, so at the boundary where it is first read it still holds what the
    launch memory holds.
  * A value that is read again later — an adjacency matrix, read by three launches; the output of one launch, read by
    the next across a reshape of some other value; the first graph's final output, which must survive the whole second
    half — is carried unchanged from the boundary where it was made to the boundary where it is read.
  * Each of the six single reshapes writes one value: the bias vector of extent n read as a 1×n matrix, the elements in
    the same (row-major) order.
-/
import proofs.«100568_j75265006895440_2_alg».proof.Proof.Gen.KernelIdeal.Frame

set_option maxRecDepth 16384

noncomputable section

namespace Cert.KCarry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The arguments, where they are first read -/

/-- Boundary 3 still holds argument 0 as launched: nothing before it writes that buffer. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Boundary 3 still holds argument 4 as launched: nothing before it writes that buffer. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Boundary 4 still holds argument 5 as launched: nothing before it writes that buffer. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Boundary 6 still holds argument 6 as launched: nothing before it writes that buffer. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Boundary 7 still holds argument 7 as launched: nothing before it writes that buffer. -/
theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Boundary 9 still holds argument 8 as launched: nothing before it writes that buffer. -/
theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Boundary 10 still holds argument 9 as launched: nothing before it writes that buffer. -/
theorem W10_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Boundary 12 still holds argument 3 as launched: nothing before it writes that buffer. -/
theorem W12_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Boundary 15 still holds argument 2 as launched: nothing before it writes that buffer. -/
theorem W15_arg2 (c : Dev nD) : W15 m ρ c (Proc.devRef .tc main_arg2) = m ((c : Thread nD τ).loc main_arg2) :=
  calc W15 m ρ c (Proc.devRef .tc main_arg2)
    _ = W14 m ρ c (Proc.devRef .tc main_arg2) := StableHlo.after_of_forall_not_mem (b := Proc.devRef .tc main_arg2) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := StableHlo.after_of_forall_not_mem (b := Proc.devRef .tc main_arg2) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Boundary 15 still holds argument 10 as launched: nothing before it writes that buffer. -/
theorem W15_arg10 (c : Dev nD) : W15 m ρ c (Proc.devRef .tc main_arg10) = m ((c : Thread nD τ).loc main_arg10) :=
  calc W15 m ρ c (Proc.devRef .tc main_arg10)
    _ = W14 m ρ c (Proc.devRef .tc main_arg10) := StableHlo.after_of_forall_not_mem (b := Proc.devRef .tc main_arg10) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg10) := StableHlo.after_of_forall_not_mem (b := Proc.devRef .tc main_arg10) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Boundary 16 still holds argument 11 as launched: nothing before it writes that buffer. -/
theorem W16_arg11 (c : Dev nD) : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_forall_not_mem (b := Proc.devRef .tc main_arg11) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg11) := StableHlo.after_of_forall_not_mem (b := Proc.devRef .tc main_arg11) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Boundary 18 still holds argument 12 as launched: nothing before it writes that buffer. -/
theorem W18_arg12 (c : Dev nD) : W18 m ρ c (Proc.devRef .tc main_arg12) = m ((c : Thread nD τ).loc main_arg12) :=
  calc W18 m ρ c (Proc.devRef .tc main_arg12)
    _ = W17 m ρ c (Proc.devRef .tc main_arg12) := W18_of_ne m ρ c main_arg12 (by decide)
    _ = W16 m ρ c (Proc.devRef .tc main_arg12) := StableHlo.after_of_forall_not_mem (b := Proc.devRef .tc main_arg12) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg12) := W16_of_ne m ρ c main_arg12 (by decide)
    _ = W14 m ρ c (Proc.devRef .tc main_arg12) := StableHlo.after_of_forall_not_mem (b := Proc.devRef .tc main_arg12) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := StableHlo.after_of_forall_not_mem (b := Proc.devRef .tc main_arg12) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- Boundary 19 still holds argument 13 as launched: nothing before it writes that buffer. -/
theorem W19_arg13 (c : Dev nD) : W19 m ρ c (Proc.devRef .tc main_arg13) = m ((c : Thread nD τ).loc main_arg13) :=
  calc W19 m ρ c (Proc.devRef .tc main_arg13)
    _ = W18 m ρ c (Proc.devRef .tc main_arg13) := W19_of_ne m ρ c main_arg13 (by decide)
    _ = W17 m ρ c (Proc.devRef .tc main_arg13) := W18_of_ne m ρ c main_arg13 (by decide)
    _ = W16 m ρ c (Proc.devRef .tc main_arg13) := StableHlo.after_of_forall_not_mem (b := Proc.devRef .tc main_arg13) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg13) := W16_of_ne m ρ c main_arg13 (by decide)
    _ = W14 m ρ c (Proc.devRef .tc main_arg13) := StableHlo.after_of_forall_not_mem (b := Proc.devRef .tc main_arg13) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg13) := StableHlo.after_of_forall_not_mem (b := Proc.devRef .tc main_arg13) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- Boundary 21 still holds argument 14 as launched: nothing before it writes that buffer. -/
theorem W21_arg14 (c : Dev nD) : W21 m ρ c (Proc.devRef .tc main_arg14) = m ((c : Thread nD τ).loc main_arg14) :=
  calc W21 m ρ c (Proc.devRef .tc main_arg14)
    _ = W20 m ρ c (Proc.devRef .tc main_arg14) := W21_of_ne m ρ c main_arg14 (by decide)
    _ = W19 m ρ c (Proc.devRef .tc main_arg14) := StableHlo.after_of_forall_not_mem (b := Proc.devRef .tc main_arg14) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg14) := W19_of_ne m ρ c main_arg14 (by decide)
    _ = W17 m ρ c (Proc.devRef .tc main_arg14) := W18_of_ne m ρ c main_arg14 (by decide)
    _ = W16 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := StableHlo.after_of_forall_not_mem (b := Proc.devRef .tc main_arg14) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- Boundary 22 still holds argument 15 as launched: nothing before it writes that buffer. -/
theorem W22_arg15 (c : Dev nD) : W22 m ρ c (Proc.devRef .tc main_arg15) = m ((c : Thread nD τ).loc main_arg15) :=
  calc W22 m ρ c (Proc.devRef .tc main_arg15)
    _ = W21 m ρ c (Proc.devRef .tc main_arg15) := W22_of_ne m ρ c main_arg15 (by decide)
    _ = W20 m ρ c (Proc.devRef .tc main_arg15) := W21_of_ne m ρ c main_arg15 (by decide)
    _ = W19 m ρ c (Proc.devRef .tc main_arg15) := StableHlo.after_of_forall_not_mem (b := Proc.devRef .tc main_arg15) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_arg15) := W19_of_ne m ρ c main_arg15 (by decide)
    _ = W17 m ρ c (Proc.devRef .tc main_arg15) := W18_of_ne m ρ c main_arg15 (by decide)
    _ = W16 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := StableHlo.after_of_forall_not_mem (b := Proc.devRef .tc main_arg15) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-! ## Values carried unchanged to where they are read -/

/-- Value %45 is the same at boundary 5 as at boundary 3: between them it is only read. -/
theorem W5_v45 (c : Dev nD) : W5 m ρ c (Proc.devRef .tc main_v45) = W3 m ρ c (Proc.devRef .tc main_v45) :=
  calc W5 m ρ c (Proc.devRef .tc main_v45)
    _ = W4 m ρ c (Proc.devRef .tc main_v45) := StableHlo.after_of_forall_not_mem (b := Proc.devRef .tc main_v45) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v45) := W4_of_ne m ρ c main_v45 (by decide)

/-- Value %45 is the same at boundary 8 as at boundary 3: between them it is only read. -/
theorem W8_v45 (c : Dev nD) : W8 m ρ c (Proc.devRef .tc main_v45) = W3 m ρ c (Proc.devRef .tc main_v45) :=
  calc W8 m ρ c (Proc.devRef .tc main_v45)
    _ = W7 m ρ c (Proc.devRef .tc main_v45) := StableHlo.after_of_forall_not_mem (b := Proc.devRef .tc main_v45) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v45) := W7_of_ne m ρ c main_v45 (by decide)
    _ = W5 m ρ c (Proc.devRef .tc main_v45) := (W6_arr m ρ c 0).trans (((dat1 (V5 m ρ) c).arrAt_in 0 rfl _).trans (A_eq1 (V5 m ρ) c 0))
    _ = W4 m ρ c (Proc.devRef .tc main_v45) := StableHlo.after_of_forall_not_mem (b := Proc.devRef .tc main_v45) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v45) := W4_of_ne m ρ c main_v45 (by decide)

/-- Value %45 is the same at boundary 11 as at boundary 3: between them it is only read. -/
theorem W11_v45 (c : Dev nD) : W11 m ρ c (Proc.devRef .tc main_v45) = W3 m ρ c (Proc.devRef .tc main_v45) :=
  calc W11 m ρ c (Proc.devRef .tc main_v45)
    _ = W10 m ρ c (Proc.devRef .tc main_v45) := StableHlo.after_of_forall_not_mem (b := Proc.devRef .tc main_v45) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v45) := W10_of_ne m ρ c main_v45 (by decide)
    _ = W8 m ρ c (Proc.devRef .tc main_v45) := (W9_arr m ρ c 0).trans (((dat3 (V8 m ρ) c).arrAt_in 0 rfl _).trans (A_eq3 (V8 m ρ) c 0))
    _ = W7 m ρ c (Proc.devRef .tc main_v45) := StableHlo.after_of_forall_not_mem (b := Proc.devRef .tc main_v45) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v45) := W7_of_ne m ρ c main_v45 (by decide)
    _ = W5 m ρ c (Proc.devRef .tc main_v45) := (W6_arr m ρ c 0).trans (((dat1 (V5 m ρ) c).arrAt_in 0 rfl _).trans (A_eq1 (V5 m ρ) c 0))
    _ = W4 m ρ c (Proc.devRef .tc main_v45) := StableHlo.after_of_forall_not_mem (b := Proc.devRef .tc main_v45) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v45) := W4_of_ne m ρ c main_v45 (by decide)

/-- Value %46 is the same at boundary 5 as at boundary 4: between them it is only read. -/
theorem W5_v46 (c : Dev nD) : W5 m ρ c (Proc.devRef .tc main_v46) = W4 m ρ c (Proc.devRef .tc main_v46) :=
  calc W5 m ρ c (Proc.devRef .tc main_v46)
    _ = W4 m ρ c (Proc.devRef .tc main_v46) := StableHlo.after_of_forall_not_mem (b := Proc.devRef .tc main_v46) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Value %49 is the same at boundary 8 as at boundary 7: between them it is only read. -/
theorem W8_v49 (c : Dev nD) : W8 m ρ c (Proc.devRef .tc main_v49) = W7 m ρ c (Proc.devRef .tc main_v49) :=
  calc W8 m ρ c (Proc.devRef .tc main_v49)
    _ = W7 m ρ c (Proc.devRef .tc main_v49) := StableHlo.after_of_forall_not_mem (b := Proc.devRef .tc main_v49) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Value %52 is the same at boundary 11 as at boundary 10: between them it is only read. -/
theorem W11_v52 (c : Dev nD) : W11 m ρ c (Proc.devRef .tc main_v52) = W10 m ρ c (Proc.devRef .tc main_v52) :=
  calc W11 m ρ c (Proc.devRef .tc main_v52)
    _ = W10 m ρ c (Proc.devRef .tc main_v52) := StableHlo.after_of_forall_not_mem (b := Proc.devRef .tc main_v52) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Value %54 is the same at boundary 24 as at boundary 12: between them it is only read. -/
theorem W24_v54 (c : Dev nD) : W24 m ρ c (Proc.devRef .tc main_v54) = W12 m ρ c (Proc.devRef .tc main_v54) :=
  calc W24 m ρ c (Proc.devRef .tc main_v54)
    _ = W23 m ρ c (Proc.devRef .tc main_v54) := W24_of_ne m ρ c main_v54 (by decide)
    _ = W22 m ρ c (Proc.devRef .tc main_v54) := StableHlo.after_of_forall_not_mem (b := Proc.devRef .tc main_v54) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v54) := W22_of_ne m ρ c main_v54 (by decide)
    _ = W20 m ρ c (Proc.devRef .tc main_v54) := W21_of_ne m ρ c main_v54 (by decide)
    _ = W19 m ρ c (Proc.devRef .tc main_v54) := StableHlo.after_of_forall_not_mem (b := Proc.devRef .tc main_v54) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v54) := W19_of_ne m ρ c main_v54 (by decide)
    _ = W17 m ρ c (Proc.devRef .tc main_v54) := W18_of_ne m ρ c main_v54 (by decide)
    _ = W16 m ρ c (Proc.devRef .tc main_v54) := StableHlo.after_of_forall_not_mem (b := Proc.devRef .tc main_v54) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v54) := W16_of_ne m ρ c main_v54 (by decide)
    _ = W14 m ρ c (Proc.devRef .tc main_v54) := StableHlo.after_of_forall_not_mem (b := Proc.devRef .tc main_v54) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v54) := StableHlo.after_of_forall_not_mem (b := Proc.devRef .tc main_v54) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v54) := StableHlo.after_of_forall_not_mem (b := Proc.devRef .tc main_v54) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Value %100 is the same at boundary 17 as at boundary 15: between them it is only read. -/
theorem W17_v100 (c : Dev nD) : W17 m ρ c (Proc.devRef .tc main_v100) = W15 m ρ c (Proc.devRef .tc main_v100) :=
  calc W17 m ρ c (Proc.devRef .tc main_v100)
    _ = W16 m ρ c (Proc.devRef .tc main_v100) := StableHlo.after_of_forall_not_mem (b := Proc.devRef .tc main_v100) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v100) := W16_of_ne m ρ c main_v100 (by decide)

/-- Value %100 is the same at boundary 20 as at boundary 15: between them it is only read. -/
theorem W20_v100 (c : Dev nD) : W20 m ρ c (Proc.devRef .tc main_v100) = W15 m ρ c (Proc.devRef .tc main_v100) :=
  calc W20 m ρ c (Proc.devRef .tc main_v100)
    _ = W19 m ρ c (Proc.devRef .tc main_v100) := StableHlo.after_of_forall_not_mem (b := Proc.devRef .tc main_v100) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v100) := W19_of_ne m ρ c main_v100 (by decide)
    _ = W17 m ρ c (Proc.devRef .tc main_v100) := (W18_arr m ρ c 0).trans (((dat7 (V17 m ρ) c).arrAt_in 0 rfl _).trans (A_eq7 (V17 m ρ) c 0))
    _ = W16 m ρ c (Proc.devRef .tc main_v100) := StableHlo.after_of_forall_not_mem (b := Proc.devRef .tc main_v100) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v100) := W16_of_ne m ρ c main_v100 (by decide)

/-- Value %100 is the same at boundary 23 as at boundary 15: between them it is only read. -/
theorem W23_v100 (c : Dev nD) : W23 m ρ c (Proc.devRef .tc main_v100) = W15 m ρ c (Proc.devRef .tc main_v100) :=
  calc W23 m ρ c (Proc.devRef .tc main_v100)
    _ = W22 m ρ c (Proc.devRef .tc main_v100) := StableHlo.after_of_forall_not_mem (b := Proc.devRef .tc main_v100) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v100) := W22_of_ne m ρ c main_v100 (by decide)
    _ = W20 m ρ c (Proc.devRef .tc main_v100) := (W21_arr m ρ c 0).trans (((dat9 (V20 m ρ) c).arrAt_in 0 rfl _).trans (A_eq9 (V20 m ρ) c 0))
    _ = W19 m ρ c (Proc.devRef .tc main_v100) := StableHlo.after_of_forall_not_mem (b := Proc.devRef .tc main_v100) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v100) := W19_of_ne m ρ c main_v100 (by decide)
    _ = W17 m ρ c (Proc.devRef .tc main_v100) := (W18_arr m ρ c 0).trans (((dat7 (V17 m ρ) c).arrAt_in 0 rfl _).trans (A_eq7 (V17 m ρ) c 0))
    _ = W16 m ρ c (Proc.devRef .tc main_v100) := StableHlo.after_of_forall_not_mem (b := Proc.devRef .tc main_v100) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v100) := W16_of_ne m ρ c main_v100 (by decide)

/-- Value %101 is the same at boundary 17 as at boundary 16: between them it is only read. -/
theorem W17_v101 (c : Dev nD) : W17 m ρ c (Proc.devRef .tc main_v101) = W16 m ρ c (Proc.devRef .tc main_v101) :=
  calc W17 m ρ c (Proc.devRef .tc main_v101)
    _ = W16 m ρ c (Proc.devRef .tc main_v101) := StableHlo.after_of_forall_not_mem (b := Proc.devRef .tc main_v101) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Value %104 is the same at boundary 20 as at boundary 19: between them it is only read. -/
theorem W20_v104 (c : Dev nD) : W20 m ρ c (Proc.devRef .tc main_v104) = W19 m ρ c (Proc.devRef .tc main_v104) :=
  calc W20 m ρ c (Proc.devRef .tc main_v104)
    _ = W19 m ρ c (Proc.devRef .tc main_v104) := StableHlo.after_of_forall_not_mem (b := Proc.devRef .tc main_v104) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Value %107 is the same at boundary 23 as at boundary 22: between them it is only read. -/
theorem W23_v107 (c : Dev nD) : W23 m ρ c (Proc.devRef .tc main_v107) = W22 m ρ c (Proc.devRef .tc main_v107) :=
  calc W23 m ρ c (Proc.devRef .tc main_v107)
    _ = W22 m ρ c (Proc.devRef .tc main_v107) := StableHlo.after_of_forall_not_mem (b := Proc.devRef .tc main_v107) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The six single reshapes -/

/-- The reshape before boundary 5 writes %47: argument 5's elements, as boundary 4 holds them, read as a one-row matrix. -/
theorem W5_v47 (c : Dev nD) : W5 m ρ c (Proc.devRef .tc main_v47)
    = shapeCast S1x256 (W4 m ρ c (Proc.devRef .tc main_arg5)) shapeCasts_S256_S1x256 := by
  show StableHlo.after hostOps1 (W4 m ρ c) (Proc.devRef .tc main_v47) = _
  after_results
  rfl

/-- The reshape before boundary 8 writes %50: argument 7's elements, as boundary 7 holds them, read as a one-row matrix. -/
theorem W8_v50 (c : Dev nD) : W8 m ρ c (Proc.devRef .tc main_v50)
    = shapeCast S1x256 (W7 m ρ c (Proc.devRef .tc main_arg7)) shapeCasts_S256_S1x256 := by
  show StableHlo.after hostOps3 (W7 m ρ c) (Proc.devRef .tc main_v50) = _
  after_results
  rfl

/-- The reshape before boundary 11 writes %53: argument 9's elements, as boundary 10 holds them, read as a one-row matrix. -/
theorem W11_v53 (c : Dev nD) : W11 m ρ c (Proc.devRef .tc main_v53)
    = shapeCast S1x128 (W10 m ρ c (Proc.devRef .tc main_arg9)) shapeCasts_S128_S1x128 := by
  show StableHlo.after hostOps5 (W10 m ρ c) (Proc.devRef .tc main_v53) = _
  after_results
  rfl

/-- The reshape before boundary 17 writes %102: argument 11's elements, as boundary 16 holds them, read as a one-row matrix. -/
theorem W17_v102 (c : Dev nD) : W17 m ρ c (Proc.devRef .tc main_v102)
    = shapeCast S1x256 (W16 m ρ c (Proc.devRef .tc main_arg11)) shapeCasts_S256_S1x256 := by
  show StableHlo.after hostOps7 (W16 m ρ c) (Proc.devRef .tc main_v102) = _
  after_results
  rfl

/-- The reshape before boundary 20 writes %105: argument 13's elements, as boundary 19 holds them, read as a one-row matrix. -/
theorem W20_v105 (c : Dev nD) : W20 m ρ c (Proc.devRef .tc main_v105)
    = shapeCast S1x256 (W19 m ρ c (Proc.devRef .tc main_arg13)) shapeCasts_S256_S1x256 := by
  show StableHlo.after hostOps9 (W19 m ρ c) (Proc.devRef .tc main_v105) = _
  after_results
  rfl

/-- The reshape before boundary 23 writes %108: argument 15's elements, as boundary 22 holds them, read as a one-row matrix. -/
theorem W23_v108 (c : Dev nD) : W23 m ρ c (Proc.devRef .tc main_v108)
    = shapeCast S1x128 (W22 m ρ c (Proc.devRef .tc main_arg15)) shapeCasts_S128_S1x128 := by
  show StableHlo.after hostOps11 (W22 m ρ c) (Proc.devRef .tc main_v108) = _
  after_results
  rfl

end Cert.KCarry

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«100568_j75265006895440_2_alg».proof.Proof.LibMatmulPlain
import proofs.«100568_j75265006895440_2_alg».proof.Proof.LibDotGeneralPlain
import proofs.«100568_j75265006895440_2_alg».proof.Proof.LibHostBroadcast
import proofs.«100568_j75265006895440_2_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.KSpec.lean ====
/-
  The dense form of a stack of graph convolutions.

  With the normalised adjacency as one N×N matrix A, a convolution is A · (X · W) plus the bias row on every row
  (`aggLin`), followed or not by max(·, 0) (`aggRelu`); a stream is three of them. All sums are finite sums of
  extended reals; where the entries are real numbers so are the results.
-/
import proofs.«100568_j75265006895440_2_alg».proof.Proof.LibDotGeneralPlain
import proofs.«100568_j75265006895440_2_alg».proof.Proof.LibRealEntries

noncomputable section

open scoped BigOperators

namespace Cert.KSpec

open Idealize.ShloMosaic Idealize.ShloMosaic.ValueIdx Cert.LibDotGeneralPlain Cert.LibRealEntries

variable {N H K : ℕ}

/-- A · Hm plus the bias row b on every row. -/
def aggLin (A : (⟨2, ![N, N]⟩ : Shape).Idx → EReal) (Hm : (⟨2, ![N, H]⟩ : Shape).Idx → EReal)
    (b : (⟨2, ![1, H]⟩ : Shape).Idx → EReal) : (⟨2, ![N, H]⟩ : Shape).Idx → EReal :=
  fun i => matProd A Hm i + b (ix2 0 (i 1))

/-- max(A · Hm + b, 0). -/
def aggRelu (A : (⟨2, ![N, N]⟩ : Shape).Idx → EReal) (Hm : (⟨2, ![N, H]⟩ : Shape).Idx → EReal)
    (b : (⟨2, ![1, H]⟩ : Shape).Idx → EReal) : (⟨2, ![N, H]⟩ : Shape).Idx → EReal :=
  fun i => max (aggLin A Hm b i) 0

/-- Three convolutions, the first two followed by max(·, 0). -/
def stack {F1 F2 F3 : ℕ} (A : (⟨2, ![N, N]⟩ : Shape).Idx → EReal) (X : (⟨2, ![N, K]⟩ : Shape).Idx → EReal)
    (W1 : (⟨2, ![K, F1]⟩ : Shape).Idx → EReal) (b1 : (⟨2, ![1, F1]⟩ : Shape).Idx → EReal)
    (W2 : (⟨2, ![F1, F2]⟩ : Shape).Idx → EReal) (b2 : (⟨2, ![1, F2]⟩ : Shape).Idx → EReal)
    (W3 : (⟨2, ![F2, F3]⟩ : Shape).Idx → EReal) (b3 : (⟨2, ![1, F3]⟩ : Shape).Idx → EReal) :
    (⟨2, ![N, F3]⟩ : Shape).Idx → EReal :=
  aggLin A (matProd (aggRelu A (matProd (aggRelu A (matProd X W1) b1) W2) b2) W3) b3

/-- A product of matrices with real entries has real entries. -/
theorem matProd_allReal {M : ℕ} {x : (⟨2, ![M, K]⟩ : Shape).Idx → EReal} {w : (⟨2, ![K, H]⟩ : Shape).Idx → EReal}
    (hx : AllReal x) (hw : AllReal w) : AllReal (matProd x w) := fun i => by
  obtain ⟨p, q, rfl⟩ : ∃ (p : Fin M) (q : Fin H), i = ix2 p q := ⟨i 0, i 1, eq_ix2 i⟩
  rw [matProd_apply]
  exact IsReal.sum _ _ fun k _ => (hx _).mul (hw _)

theorem aggLin_allReal {A : (⟨2, ![N, N]⟩ : Shape).Idx → EReal} {Hm : (⟨2, ![N, H]⟩ : Shape).Idx → EReal}
    {b : (⟨2, ![1, H]⟩ : Shape).Idx → EReal} (hA : AllReal A) (hH : AllReal Hm) (hb : AllReal b) :
    AllReal (aggLin A Hm b) := fun i => (matProd_allReal hA hH i).add (hb _)

theorem aggRelu_allReal {A : (⟨2, ![N, N]⟩ : Shape).Idx → EReal} {Hm : (⟨2, ![N, H]⟩ : Shape).Idx → EReal}
    {b : (⟨2, ![1, H]⟩ : Shape).Idx → EReal} (hA : AllReal A) (hH : AllReal Hm) (hb : AllReal b) :
    AllReal (aggRelu A Hm b) := fun i => (aggLin_allReal hA hH hb i).max IsReal.zero

end Cert.KSpec

end
-- ==== Proof.KRegion0.lean ====
/-
  Launch 0 of the kernel program: a dense transform. Its grid has ten points; point t takes rows 1000·t … 1000·t + 999
  of the features and the whole weight matrix, multiplies them from a zero accumulator and writes the product back as
  the same rows of the output. Every output row is written by exactly one point, so after the launch the output array
  is the product of the whole feature matrix with the weights: entry (r, q) is the sum over k of X(r, k) · W(k, q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region0
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's two input arrays as it finds them. -/
abbrev Xin (c : Dev nD) : S10000x256.Idx → EReal := V c (Pipeline.arrRef spec0 0)
abbrev Win (c : Dev nD) : S256x256.Idx → EReal := V c (Pipeline.arrRef spec0 1)

/-- The printed index maps over the grid: the feature and output windows move down one block per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed (c : Dev nD) (t : Fin cfg0.N) :
    (dat0 V c).flushed 2 t = ((cfg0.win 2).blk t).view.read (Elt Ideal)
      (matProd (M := 10000) (K := 256) (N := 256) (Xin V c) (Win V c)) := by
  show (cfg0.win 2).cut (grid0.coords t) ((dat0 V c).after 2 t) = _
  rw [after0_2]
  unfold out0_2
  rw [View.canon_unit_zero hz]
  simp only [View.ld_unit_zero (S := S1000x256) hz, View.ld_unit_zero (S := S256x256) hz]
  have hN : grid0.N = 10 := N_0
  have ht : t.val < 10 := lt_of_lt_of_eq t.isLt hN
  obtain ⟨e0, e1, e2, e3, e4, e5⟩ := idx_facts t
  funext j
  obtain ⟨p, q, rfl⟩ : ∃ (p : Fin 1000) (q : Fin 256), j = ix2 p q := ⟨j 0, j 1, eq_ix2 j⟩
  have hp : p.val < 1000 := p.isLt
  have hi : ((cfg0.win 2).blk t).view.emb (ix2 p q)
      = (ix2 (⟨t.val * 1000 + p.val, by omega⟩ : Fin 10000) q : S10000x256.Idx) := by
    funext a; apply Fin.ext
    match a with
    | ⟨0, _⟩ => show win0_2.index t (0 : Fin 2) * 1000 + 1 * p.val = t.val * 1000 + p.val; omega
    | ⟨1, _⟩ => show win0_2.index t (1 : Fin 2) * 256 + 1 * q.val = q.val; omega
  show k0_pay1 (iblk0 V c 0 t) (iblk0 V c 1 t) (ix2 p q)
    = matProd (M := 10000) (K := 256) (N := 256) (Xin V c) (Win V c) (((cfg0.win 2).blk t).view.emb (ix2 p q))
  rw [hi, matProd_apply]
  show FloatOps.matmul (φ₁ := .bf16) (φ₂ := .bf16) dot_S1000x256_S256x256_S1000x256_1_0_0_1_n_n none (iblk0 V c 0 t) (iblk0 V c 1 t) (constant (F := Ideal) S1000x256 .f32 0x00000000#32) (ix2 p q) = _
  refine (Cert.LibMatmulPlain.matmul_plain_zero_apply (M := 1000) (K := 256) (N := 256) (φ₁ := .bf16) (φ₂ := .bf16)
    dot_S1000x256_S256x256_S1000x256_1_0_0_1_n_n rfl none _ _ p q).trans ?_
  refine Finset.sum_congr rfl fun k _ => ?_
  have hk : k.val < 256 := k.isLt
  have h0 : iblk0 V c 0 t (ix2 p k) = Xin V c (ix2 (⟨t.val * 1000 + p.val, by omega⟩ : Fin 10000) k : S10000x256.Idx) := by
      show Xin V c (((cfg0.win 0).blk t).view.emb (ix2 p k)) = _
      congr 1
      funext a; apply Fin.ext
      match a with
      | ⟨0, _⟩ => show win0_0.index t (0 : Fin 2) * 1000 + 1 * p.val = t.val * 1000 + p.val; omega
      | ⟨1, _⟩ => show win0_0.index t (1 : Fin 2) * 256 + 1 * k.val = k.val; omega
  have h1 : iblk0 V c 1 t (ix2 k q) = Win V c (ix2 k q : S256x256.Idx) := by
      show Win V c (((cfg0.win 1).blk t).view.emb (ix2 k q)) = _
      congr 1
      funext a; apply Fin.ext
      match a with
      | ⟨0, _⟩ => show win0_1.index t (0 : Fin 2) * 256 + 1 * k.val = k.val; omega
      | ⟨1, _⟩ => show win0_1.index t (1 : Fin 2) * 256 + 1 * q.val = q.val; omega
  rw [h0, h1]

/-- An index of the output array lies in point t's block iff each coordinate lies in the block's range. -/
theorem mem_blk (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v46).slice (win0_2.rect t)).set ↔ _
  rw [View.set_slice_whole, Rect.mem_set_unit]
  exact Iff.rfl

/-- Row r of the output is written by point r / 1000. -/
theorem cover (i : S10000x256.Idx) : ∃ t : Fin cfg0.N, (cfg0.win 2).flush t = true ∧ i ∈ ((cfg0.win 2).blk t).view.set := by
  have hN : grid0.N = 10 := N_0
  have hi0 : (i 0).val < 10000 := (i 0).isLt
  have hi1 : (i 1).val < 256 := (i 1).isLt
  have hlt : (i 0).val / 1000 < cfg0.N := by show _ < grid0.N; omega
  obtain ⟨e0, e1, e2, e3, e4, e5⟩ := idx_facts ⟨(i 0).val / 1000, hlt⟩
  have e4' : win0_2.index ⟨(i 0).val / 1000, hlt⟩ (0 : Fin 2) = (i 0).val / 1000 := e4
  refine ⟨⟨(i 0).val / 1000, hlt⟩, flush0_2 _, ?_⟩
  rw [mem_blk]
  intro a
  match a with
  | ⟨0, _⟩ => show win0_2.index ⟨(i 0).val / 1000, hlt⟩ (0 : Fin 2) * 1000 ≤ (i 0).val ∧ (i 0).val < win0_2.index ⟨(i 0).val / 1000, hlt⟩ (0 : Fin 2) * 1000 + 1000; omega
  | ⟨1, _⟩ => show win0_2.index ⟨(i 0).val / 1000, hlt⟩ (1 : Fin 2) * 256 ≤ (i 1).val ∧ (i 1).val < win0_2.index ⟨(i 0).val / 1000, hlt⟩ (1 : Fin 2) * 256 + 256; omega

/-- The output array after the launch is the whole product. -/
theorem arr (c : Dev nD) : (dat0 V c).arrAt 2 cfg0.N = matProd (M := 10000) (K := 256) (N := 256) (Xin V c) (Win V c) :=
  (dat0 V c).arrAt_eq_of_cover 2 _ (fun t _ => flushed V c t) cover

end Cert.KernelIdeal.Region0
end
-- ==== Proof.KRegion1.lean ====
/-
  Launch 1 of the kernel program: a dense aggregation. Its grid has fifty points; point t takes rows 200·t … 200·t + 199
  of the adjacency matrix, the whole feature matrix and the bias row, multiplies from a zero accumulator, adds the bias
  to every row, takes max(·, 0) and writes the block back as the same rows of the output. Every output row is written
  by exactly one point, so after the launch entry (r, q) of the output is max(Σ_k A(r, k) · H(k, q) + b(q), 0).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region1
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's three input arrays as it finds them. -/
abbrev Ain (c : Dev nD) : S10000x10000.Idx → EReal := V c (Pipeline.arrRef spec1 0)
abbrev Hin (c : Dev nD) : S10000x256.Idx → EReal := V c (Pipeline.arrRef spec1 1)
abbrev Bin (c : Dev nD) : S1x256.Idx → EReal := V c (Pipeline.arrRef spec1 2)

/-- The printed index maps over the grid: the adjacency and output windows move down one block per point, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the aggregation. -/
theorem flushed (c : Dev nD) (t : Fin cfg1.N) :
    (dat1 V c).flushed 3 t = ((cfg1.win 3).blk t).view.read (Elt Ideal)
      (Cert.KSpec.aggRelu (N := 10000) (H := 256) (Ain V c) (Hin V c) (Bin V c)) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x256) hz, View.ld_unit_zero (S := S1x256) hz]
  have hN : grid1.N = 50 := N_1
  have ht : t.val < 50 := lt_of_lt_of_eq t.isLt hN
  obtain ⟨e0, e1, e2, e3, e4, e5, e6, e7⟩ := idx_facts t
  funext j
  obtain ⟨p, q, rfl⟩ : ∃ (p : Fin 200) (q : Fin 256), j = ix2 p q := ⟨j 0, j 1, eq_ix2 j⟩
  have hp : p.val < 200 := p.isLt
  have hi : ((cfg1.win 3).blk t).view.emb (ix2 p q)
      = (ix2 (⟨t.val * 200 + p.val, by omega⟩ : Fin 10000) q : S10000x256.Idx) := by
    funext a; apply Fin.ext
    match a with
    | ⟨0, _⟩ => show win1_3.index t (0 : Fin 2) * 200 + 1 * p.val = t.val * 200 + p.val; omega
    | ⟨1, _⟩ => show win1_3.index t (1 : Fin 2) * 256 + 1 * q.val = q.val; omega
  show k1_pay1 (iblk1 V c 0 t) (iblk1 V c 1 t) (iblk1 V c 2 t) (ix2 p q)
    = Cert.KSpec.aggRelu (N := 10000) (H := 256) (Ain V c) (Hin V c) (Bin V c) (((cfg1.win 3).blk t).view.emb (ix2 p q))
  rw [hi]
  unfold Cert.KSpec.aggRelu Cert.KSpec.aggLin
  rw [matProd_apply]
  show max (FloatOps.matmul (φ₁ := .bf16) (φ₂ := .bf16) dot_S200x10000_S10000x256_S200x256_1_0_0_1_n_n none
        (shapeCast S200x10000 (iblk1 V c 0 t) shapeCasts_S200x10000_S200x10000) (shapeCast S10000x256 (iblk1 V c 1 t) shapeCasts_S10000x256_S10000x256)
        (constant (F := Ideal) S200x256 .f32 0x00000000#32) (ix2 p q)
      + broadcastTo S200x256 (shapeCast S1x256 (iblk1 V c 2 t) shapeCasts_S1x256_S1x256) broadcasts_S1x256_S200x256 (ix2 p q))
      (Ideal.ofBits .f32 0x00000000#32) = _
  have hmm : FloatOps.matmul (φ₁ := .bf16) (φ₂ := .bf16) dot_S200x10000_S10000x256_S200x256_1_0_0_1_n_n none
        (shapeCast S200x10000 (iblk1 V c 0 t) shapeCasts_S200x10000_S200x10000) (shapeCast S10000x256 (iblk1 V c 1 t) shapeCasts_S10000x256_S10000x256)
        (constant (F := Ideal) S200x256 .f32 0x00000000#32) (ix2 p q)
      = ∑ k : Fin 10000, Ain V c (ix2 (⟨t.val * 200 + p.val, by omega⟩ : Fin 10000) k : S10000x10000.Idx) * Hin V c (ix2 k q : S10000x256.Idx) := by
    refine (Cert.LibMatmulPlain.matmul_plain_zero_apply (M := 200) (K := 10000) (N := 256) (φ₁ := .bf16) (φ₂ := .bf16)
      dot_S200x10000_S10000x256_S200x256_1_0_0_1_n_n rfl none _ _ p q).trans ?_
    refine Finset.sum_congr rfl fun k _ => ?_
    have hk : k.val < 10000 := k.isLt
    have h0 : shapeCast S200x10000 (iblk1 V c 0 t) shapeCasts_S200x10000_S200x10000 (ix2 p k)
        = Ain V c (ix2 (⟨t.val * 200 + p.val, by omega⟩ : Fin 10000) k : S10000x10000.Idx) := by
      refine (congrFun (shapeCast_self _ _) _).trans ?_
      show Ain V c (((cfg1.win 0).blk t).view.emb (ix2 p k)) = _
      congr 1
      funext a; apply Fin.ext
      match a with
      | ⟨0, _⟩ => show win1_0.index t (0 : Fin 2) * 200 + 1 * p.val = t.val * 200 + p.val; omega
      | ⟨1, _⟩ => show win1_0.index t (1 : Fin 2) * 10000 + 1 * k.val = k.val; omega
    have h1 : shapeCast S10000x256 (iblk1 V c 1 t) shapeCasts_S10000x256_S10000x256 (ix2 k q)
        = Hin V c (ix2 k q : S10000x256.Idx) := by
      refine (congrFun (shapeCast_self _ _) _).trans ?_
      show Hin V c (((cfg1.win 1).blk t).view.emb (ix2 k q)) = _
      congr 1
      funext a; apply Fin.ext
      match a with
      | ⟨0, _⟩ => show win1_1.index t (0 : Fin 2) * 10000 + 1 * k.val = k.val; omega
      | ⟨1, _⟩ => show win1_1.index t (1 : Fin 2) * 256 + 1 * q.val = q.val; omega
    rw [h0, h1]
  have hb : broadcastTo S200x256 (shapeCast S1x256 (iblk1 V c 2 t) shapeCasts_S1x256_S1x256) broadcasts_S1x256_S200x256 (ix2 p q)
      = Bin V c (ix2 (0 : Fin 1) q : S1x256.Idx) := by
    refine (broadcastTo_1b_ab_apply _ _ p q).trans ?_
    refine (congrFun (shapeCast_self _ _) _).trans ?_
    show Bin V c (((cfg1.win 2).blk t).view.emb (ix2 (0 : Fin 1) q)) = _
    congr 1
    funext a; apply Fin.ext
    match a with
    | ⟨0, _⟩ => show win1_2.index t (0 : Fin 2) * 1 + 1 * 0 = 0; omega
    | ⟨1, _⟩ => show win1_2.index t (1 : Fin 2) * 256 + 1 * q.val = q.val; omega
  rw [hmm, hb, Ideal.ofBits_zero_f32]

/-- An index of the output array lies in point t's block iff each coordinate lies in the block's range. -/
theorem mem_blk (t : Fin cfg1.N) (i : S10000x256.Idx) :
    i ∈ ((cfg1.win 3).blk t).view.set ↔ ∀ a : Fin 2, win1_3.index t a * S200x256.size a ≤ (i a).val ∧ (i a).val < win1_3.index t a * S200x256.size a + S200x256.size a := by
  show i ∈ ((View.whole main_v48).slice (win1_3.rect t)).set ↔ _
  rw [View.set_slice_whole, Rect.mem_set_unit]
  exact Iff.rfl

/-- Row r of the output is written by point r / 200. -/
theorem cover (i : S10000x256.Idx) : ∃ t : Fin cfg1.N, (cfg1.win 3).flush t = true ∧ i ∈ ((cfg1.win 3).blk t).view.set := by
  have hN : grid1.N = 50 := N_1
  have hi0 : (i 0).val < 10000 := (i 0).isLt
  have hi1 : (i 1).val < 256 := (i 1).isLt
  have hlt : (i 0).val / 200 < cfg1.N := by show _ < grid1.N; omega
  obtain ⟨e0, e1, e2, e3, e4, e5, e6, e7⟩ := idx_facts ⟨(i 0).val / 200, hlt⟩
  have e6' : win1_3.index ⟨(i 0).val / 200, hlt⟩ (0 : Fin 2) = (i 0).val / 200 := e6
  refine ⟨⟨(i 0).val / 200, hlt⟩, flush1_3 _, ?_⟩
  rw [mem_blk]
  intro a
  match a with
  | ⟨0, _⟩ => show win1_3.index ⟨(i 0).val / 200, hlt⟩ (0 : Fin 2) * 200 ≤ (i 0).val ∧ (i 0).val < win1_3.index ⟨(i 0).val / 200, hlt⟩ (0 : Fin 2) * 200 + 200; omega
  | ⟨1, _⟩ => show win1_3.index ⟨(i 0).val / 200, hlt⟩ (1 : Fin 2) * 256 ≤ (i 1).val ∧ (i 1).val < win1_3.index ⟨(i 0).val / 200, hlt⟩ (1 : Fin 2) * 256 + 256; omega

/-- The output array after the launch is the whole aggregation. -/
theorem arr (c : Dev nD) : (dat1 V c).arrAt 3 cfg1.N = Cert.KSpec.aggRelu (N := 10000) (H := 256) (Ain V c) (Hin V c) (Bin V c) :=
  (dat1 V c).arrAt_eq_of_cover 3 _ (fun t _ => flushed V c t) cover

end Cert.KernelIdeal.Region1
end
-- ==== Proof.KRegion2.lean ====
/-
  Launch 2 of the kernel program: a dense transform. Its grid has ten points; point t takes rows 1000·t … 1000·t + 999
  of the features and the whole weight matrix, multiplies them from a zero accumulator and writes the product back as
  the same rows of the output. Every output row is written by exactly one point, so after the launch the output array
  is the product of the whole feature matrix with the weights: entry (r, q) is the sum over k of X(r, k) · W(k, q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region2
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's two input arrays as it finds them. -/
abbrev Xin (c : Dev nD) : S10000x256.Idx → EReal := V c (Pipeline.arrRef spec2 0)
abbrev Win (c : Dev nD) : S256x256.Idx → EReal := V c (Pipeline.arrRef spec2 1)

/-- The printed index maps over the grid: the feature and output windows move down one block per point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product. -/
theorem flushed (c : Dev nD) (t : Fin cfg2.N) :
    (dat2 V c).flushed 2 t = ((cfg2.win 2).blk t).view.read (Elt Ideal)
      (matProd (M := 10000) (K := 256) (N := 256) (Xin V c) (Win V c)) := by
  show (cfg2.win 2).cut (grid2.coords t) ((dat2 V c).after 2 t) = _
  rw [after2_2]
  unfold out2_2
  rw [View.canon_unit_zero hz]
  simp only [View.ld_unit_zero (S := S1000x256) hz, View.ld_unit_zero (S := S256x256) hz]
  have hN : grid2.N = 10 := N_2
  have ht : t.val < 10 := lt_of_lt_of_eq t.isLt hN
  obtain ⟨e0, e1, e2, e3, e4, e5⟩ := idx_facts t
  funext j
  obtain ⟨p, q, rfl⟩ : ∃ (p : Fin 1000) (q : Fin 256), j = ix2 p q := ⟨j 0, j 1, eq_ix2 j⟩
  have hp : p.val < 1000 := p.isLt
  have hi : ((cfg2.win 2).blk t).view.emb (ix2 p q)
      = (ix2 (⟨t.val * 1000 + p.val, by omega⟩ : Fin 10000) q : S10000x256.Idx) := by
    funext a; apply Fin.ext
    match a with
    | ⟨0, _⟩ => show win2_2.index t (0 : Fin 2) * 1000 + 1 * p.val = t.val * 1000 + p.val; omega
    | ⟨1, _⟩ => show win2_2.index t (1 : Fin 2) * 256 + 1 * q.val = q.val; omega
  show k2_pay1 (iblk2 V c 0 t) (iblk2 V c 1 t) (ix2 p q)
    = matProd (M := 10000) (K := 256) (N := 256) (Xin V c) (Win V c) (((cfg2.win 2).blk t).view.emb (ix2 p q))
  rw [hi, matProd_apply]
  show FloatOps.matmul (φ₁ := .bf16) (φ₂ := .bf16) dot_S1000x256_S256x256_S1000x256_1_0_0_1_n_n none (shapeCast S1000x256 (iblk2 V c 0 t) shapeCasts_S1000x256_S1000x256) (iblk2 V c 1 t) (constant (F := Ideal) S1000x256 .f32 0x00000000#32) (ix2 p q) = _
  refine (Cert.LibMatmulPlain.matmul_plain_zero_apply (M := 1000) (K := 256) (N := 256) (φ₁ := .bf16) (φ₂ := .bf16)
    dot_S1000x256_S256x256_S1000x256_1_0_0_1_n_n rfl none _ _ p q).trans ?_
  refine Finset.sum_congr rfl fun k _ => ?_
  have hk : k.val < 256 := k.isLt
  have h0 : shapeCast S1000x256 (iblk2 V c 0 t) shapeCasts_S1000x256_S1000x256 (ix2 p k) = Xin V c (ix2 (⟨t.val * 1000 + p.val, by omega⟩ : Fin 10000) k : S10000x256.Idx) := by
      refine (congrFun (shapeCast_self _ _) _).trans ?_
      show Xin V c (((cfg2.win 0).blk t).view.emb (ix2 p k)) = _
      congr 1
      funext a; apply Fin.ext
      match a with
      | ⟨0, _⟩ => show win2_0.index t (0 : Fin 2) * 1000 + 1 * p.val = t.val * 1000 + p.val; omega
      | ⟨1, _⟩ => show win2_0.index t (1 : Fin 2) * 256 + 1 * k.val = k.val; omega
  have h1 : iblk2 V c 1 t (ix2 k q) = Win V c (ix2 k q : S256x256.Idx) := by
      show Win V c (((cfg2.win 1).blk t).view.emb (ix2 k q)) = _
      congr 1
      funext a; apply Fin.ext
      match a with
      | ⟨0, _⟩ => show win2_1.index t (0 : Fin 2) * 256 + 1 * k.val = k.val; omega
      | ⟨1, _⟩ => show win2_1.index t (1 : Fin 2) * 256 + 1 * q.val = q.val; omega
  rw [h0, h1]

/-- An index of the output array lies in point t's block iff each coordinate lies in the block's range. -/
theorem mem_blk (t : Fin cfg2.N) (i : S10000x256.Idx) :
    i ∈ ((cfg2.win 2).blk t).view.set ↔ ∀ a : Fin 2, win2_2.index t a * S1000x256.size a ≤ (i a).val ∧ (i a).val < win2_2.index t a * S1000x256.size a + S1000x256.size a := by
  show i ∈ ((View.whole main_v49).slice (win2_2.rect t)).set ↔ _
  rw [View.set_slice_whole, Rect.mem_set_unit]
  exact Iff.rfl

/-- Row r of the output is written by point r / 1000. -/
theorem cover (i : S10000x256.Idx) : ∃ t : Fin cfg2.N, (cfg2.win 2).flush t = true ∧ i ∈ ((cfg2.win 2).blk t).view.set := by
  have hN : grid2.N = 10 := N_2
  have hi0 : (i 0).val < 10000 := (i 0).isLt
  have hi1 : (i 1).val < 256 := (i 1).isLt
  have hlt : (i 0).val / 1000 < cfg2.N := by show _ < grid2.N; omega
  obtain ⟨e0, e1, e2, e3, e4, e5⟩ := idx_facts ⟨(i 0).val / 1000, hlt⟩
  have e4' : win2_2.index ⟨(i 0).val / 1000, hlt⟩ (0 : Fin 2) = (i 0).val / 1000 := e4
  refine ⟨⟨(i 0).val / 1000, hlt⟩, flush2_2 _, ?_⟩
  rw [mem_blk]
  intro a
  match a with
  | ⟨0, _⟩ => show win2_2.index ⟨(i 0).val / 1000, hlt⟩ (0 : Fin 2) * 1000 ≤ (i 0).val ∧ (i 0).val < win2_2.index ⟨(i 0).val / 1000, hlt⟩ (0 : Fin 2) * 1000 + 1000; omega
  | ⟨1, _⟩ => show win2_2.index ⟨(i 0).val / 1000, hlt⟩ (1 : Fin 2) * 256 ≤ (i 1).val ∧ (i 1).val < win2_2.index ⟨(i 0).val / 1000, hlt⟩ (1 : Fin 2) * 256 + 256; omega

/-- The output array after the launch is the whole product. -/
theorem arr (c : Dev nD) : (dat2 V c).arrAt 2 cfg2.N = matProd (M := 10000) (K := 256) (N := 256) (Xin V c) (Win V c) :=
  (dat2 V c).arrAt_eq_of_cover 2 _ (fun t _ => flushed V c t) cover

end Cert.KernelIdeal.Region2
end
-- ==== Proof.KRegion3.lean ====
/-
  Launch 3 of the kernel program: a dense aggregation. Its grid has fifty points; point t takes rows 200·t … 200·t + 199
  of the adjacency matrix, the whole feature matrix and the bias row, multiplies from a zero accumulator, adds the bias
  to every row, takes max(·, 0) and writes the block back as the same rows of the output. Every output row is written
  by exactly one point, so after the launch entry (r, q) of the output is max(Σ_k A(r, k) · H(k, q) + b(q), 0).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region3
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's three input arrays as it finds them. -/
abbrev Ain (c : Dev nD) : S10000x10000.Idx → EReal := V c (Pipeline.arrRef spec3 0)
abbrev Hin (c : Dev nD) : S10000x256.Idx → EReal := V c (Pipeline.arrRef spec3 1)
abbrev Bin (c : Dev nD) : S1x256.Idx → EReal := V c (Pipeline.arrRef spec3 2)

/-- The printed index maps over the grid: the adjacency and output windows move down one block per point, the others stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the aggregation. -/
theorem flushed (c : Dev nD) (t : Fin cfg3.N) :
    (dat3 V c).flushed 3 t = ((cfg3.win 3).blk t).view.read (Elt Ideal)
      (Cert.KSpec.aggRelu (N := 10000) (H := 256) (Ain V c) (Hin V c) (Bin V c)) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x256) hz, View.ld_unit_zero (S := S1x256) hz]
  have hN : grid3.N = 50 := N_3
  have ht : t.val < 50 := lt_of_lt_of_eq t.isLt hN
  obtain ⟨e0, e1, e2, e3, e4, e5, e6, e7⟩ := idx_facts t
  funext j
  obtain ⟨p, q, rfl⟩ : ∃ (p : Fin 200) (q : Fin 256), j = ix2 p q := ⟨j 0, j 1, eq_ix2 j⟩
  have hp : p.val < 200 := p.isLt
  have hi : ((cfg3.win 3).blk t).view.emb (ix2 p q)
      = (ix2 (⟨t.val * 200 + p.val, by omega⟩ : Fin 10000) q : S10000x256.Idx) := by
    funext a; apply Fin.ext
    match a with
    | ⟨0, _⟩ => show win3_3.index t (0 : Fin 2) * 200 + 1 * p.val = t.val * 200 + p.val; omega
    | ⟨1, _⟩ => show win3_3.index t (1 : Fin 2) * 256 + 1 * q.val = q.val; omega
  show k3_pay1 (iblk3 V c 0 t) (iblk3 V c 1 t) (iblk3 V c 2 t) (ix2 p q)
    = Cert.KSpec.aggRelu (N := 10000) (H := 256) (Ain V c) (Hin V c) (Bin V c) (((cfg3.win 3).blk t).view.emb (ix2 p q))
  rw [hi]
  unfold Cert.KSpec.aggRelu Cert.KSpec.aggLin
  rw [matProd_apply]
  show max (FloatOps.matmul (φ₁ := .bf16) (φ₂ := .bf16) dot_S200x10000_S10000x256_S200x256_1_0_0_1_n_n none
        (shapeCast S200x10000 (iblk3 V c 0 t) shapeCasts_S200x10000_S200x10000) (shapeCast S10000x256 (iblk3 V c 1 t) shapeCasts_S10000x256_S10000x256)
        (constant (F := Ideal) S200x256 .f32 0x00000000#32) (ix2 p q)
      + broadcastTo S200x256 (shapeCast S1x256 (iblk3 V c 2 t) shapeCasts_S1x256_S1x256) broadcasts_S1x256_S200x256 (ix2 p q))
      (Ideal.ofBits .f32 0x00000000#32) = _
  have hmm : FloatOps.matmul (φ₁ := .bf16) (φ₂ := .bf16) dot_S200x10000_S10000x256_S200x256_1_0_0_1_n_n none
        (shapeCast S200x10000 (iblk3 V c 0 t) shapeCasts_S200x10000_S200x10000) (shapeCast S10000x256 (iblk3 V c 1 t) shapeCasts_S10000x256_S10000x256)
        (constant (F := Ideal) S200x256 .f32 0x00000000#32) (ix2 p q)
      = ∑ k : Fin 10000, Ain V c (ix2 (⟨t.val * 200 + p.val, by omega⟩ : Fin 10000) k : S10000x10000.Idx) * Hin V c (ix2 k q : S10000x256.Idx) := by
    refine (Cert.LibMatmulPlain.matmul_plain_zero_apply (M := 200) (K := 10000) (N := 256) (φ₁ := .bf16) (φ₂ := .bf16)
      dot_S200x10000_S10000x256_S200x256_1_0_0_1_n_n rfl none _ _ p q).trans ?_
    refine Finset.sum_congr rfl fun k _ => ?_
    have hk : k.val < 10000 := k.isLt
    have h0 : shapeCast S200x10000 (iblk3 V c 0 t) shapeCasts_S200x10000_S200x10000 (ix2 p k)
        = Ain V c (ix2 (⟨t.val * 200 + p.val, by omega⟩ : Fin 10000) k : S10000x10000.Idx) := by
      refine (congrFun (shapeCast_self _ _) _).trans ?_
      show Ain V c (((cfg3.win 0).blk t).view.emb (ix2 p k)) = _
      congr 1
      funext a; apply Fin.ext
      match a with
      | ⟨0, _⟩ => show win3_0.index t (0 : Fin 2) * 200 + 1 * p.val = t.val * 200 + p.val; omega
      | ⟨1, _⟩ => show win3_0.index t (1 : Fin 2) * 10000 + 1 * k.val = k.val; omega
    have h1 : shapeCast S10000x256 (iblk3 V c 1 t) shapeCasts_S10000x256_S10000x256 (ix2 k q)
        = Hin V c (ix2 k q : S10000x256.Idx) := by
      refine (congrFun (shapeCast_self _ _) _).trans ?_
      show Hin V c (((cfg3.win 1).blk t).view.emb (ix2 k q)) = _
      congr 1
      funext a; apply Fin.ext
      match a with
      | ⟨0, _⟩ => show win3_1.index t (0 : Fin 2) * 10000 + 1 * k.val = k.val; omega
      | ⟨1, _⟩ => show win3_1.index t (1 : Fin 2) * 256 + 1 * q.val = q.val; omega
    rw [h0, h1]
  have hb : broadcastTo S200x256 (shapeCast S1x256 (iblk3 V c 2 t) shapeCasts_S1x256_S1x256) broadcasts_S1x256_S200x256 (ix2 p q)
      = Bin V c (ix2 (0 : Fin 1) q : S1x256.Idx) := by
    refine (broadcastTo_1b_ab_apply _ _ p q).trans ?_
    refine (congrFun (shapeCast_self _ _) _).trans ?_
    show Bin V c (((cfg3.win 2).blk t).view.emb (ix2 (0 : Fin 1) q)) = _
    congr 1
    funext a; apply Fin.ext
    match a with
    | ⟨0, _⟩ => show win3_2.index t (0 : Fin 2) * 1 + 1 * 0 = 0; omega
    | ⟨1, _⟩ => show win3_2.index t (1 : Fin 2) * 256 + 1 * q.val = q.val; omega
  rw [hmm, hb, Ideal.ofBits_zero_f32]

/-- An index of the output array lies in point t's block iff each coordinate lies in the block's range. -/
theorem mem_blk (t : Fin cfg3.N) (i : S10000x256.Idx) :
    i ∈ ((cfg3.win 3).blk t).view.set ↔ ∀ a : Fin 2, win3_3.index t a * S200x256.size a ≤ (i a).val ∧ (i a).val < win3_3.index t a * S200x256.size a + S200x256.size a := by
  show i ∈ ((View.whole main_v51).slice (win3_3.rect t)).set ↔ _
  rw [View.set_slice_whole, Rect.mem_set_unit]
  exact Iff.rfl

/-- Row r of the output is written by point r / 200. -/
theorem cover (i : S10000x256.Idx) : ∃ t : Fin cfg3.N, (cfg3.win 3).flush t = true ∧ i ∈ ((cfg3.win 3).blk t).view.set := by
  have hN : grid3.N = 50 := N_3
  have hi0 : (i 0).val < 10000 := (i 0).isLt
  have hi1 : (i 1).val < 256 := (i 1).isLt
  have hlt : (i 0).val / 200 < cfg3.N := by show _ < grid3.N; omega
  obtain ⟨e0, e1, e2, e3, e4, e5, e6, e7⟩ := idx_facts ⟨(i 0).val / 200, hlt⟩
  have e6' : win3_3.index ⟨(i 0).val / 200, hlt⟩ (0 : Fin 2) = (i 0).val / 200 := e6
  refine ⟨⟨(i 0).val / 200, hlt⟩, flush3_3 _, ?_⟩
  rw [mem_blk]
  intro a
  match a with
  | ⟨0, _⟩ => show win3_3.index ⟨(i 0).val / 200, hlt⟩ (0 : Fin 2) * 200 ≤ (i 0).val ∧ (i 0).val < win3_3.index ⟨(i 0).val / 200, hlt⟩ (0 : Fin 2) * 200 + 200; omega
  | ⟨1, _⟩ => show win3_3.index ⟨(i 0).val / 200, hlt⟩ (1 : Fin 2) * 256 ≤ (i 1).val ∧ (i 1).val < win3_3.index ⟨(i 0).val / 200, hlt⟩ (1 : Fin 2) * 256 + 256; omega

/-- The output array after the launch is the whole aggregation. -/
theorem arr (c : Dev nD) : (dat3 V c).arrAt 3 cfg3.N = Cert.KSpec.aggRelu (N := 10000) (H := 256) (Ain V c) (Hin V c) (Bin V c) :=
  (dat3 V c).arrAt_eq_of_cover 3 _ (fun t _ => flushed V c t) cover

end Cert.KernelIdeal.Region3
end
-- ==== Proof.KRegion4.lean ====
/-
  Launch 4 of the kernel program: a dense transform. Its grid has ten points; point t takes rows 1000·t … 1000·t + 999
  of the features and the whole weight matrix, multiplies them from a zero accumulator and writes the product back as
  the same rows of the output. Every output row is written by exactly one point, so after the launch the output array
  is the product of the whole feature matrix with the weights: entry (r, q) is the sum over k of X(r, k) · W(k, q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region4
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's two input arrays as it finds them. -/
abbrev Xin (c : Dev nD) : S10000x256.Idx → EReal := V c (Pipeline.arrRef spec4 0)
abbrev Win (c : Dev nD) : S256x128.Idx → EReal := V c (Pipeline.arrRef spec4 1)

/-- The printed index maps over the grid: the feature and output windows move down one block per point, the weights stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product. -/
theorem flushed (c : Dev nD) (t : Fin cfg4.N) :
    (dat4 V c).flushed 2 t = ((cfg4.win 2).blk t).view.read (Elt Ideal)
      (matProd (M := 10000) (K := 256) (N := 128) (Xin V c) (Win V c)) := by
  show (cfg4.win 2).cut (grid4.coords t) ((dat4 V c).after 2 t) = _
  rw [after4_2]
  unfold out4_2
  rw [View.canon_unit_zero hz]
  simp only [View.ld_unit_zero (S := S1000x256) hz, View.ld_unit_zero (S := S256x128) hz]
  have hN : grid4.N = 10 := N_4
  have ht : t.val < 10 := lt_of_lt_of_eq t.isLt hN
  obtain ⟨e0, e1, e2, e3, e4, e5⟩ := idx_facts t
  funext j
  obtain ⟨p, q, rfl⟩ : ∃ (p : Fin 1000) (q : Fin 128), j = ix2 p q := ⟨j 0, j 1, eq_ix2 j⟩
  have hp : p.val < 1000 := p.isLt
  have hi : ((cfg4.win 2).blk t).view.emb (ix2 p q)
      = (ix2 (⟨t.val * 1000 + p.val, by omega⟩ : Fin 10000) q : S10000x128.Idx) := by
    funext a; apply Fin.ext
    match a with
    | ⟨0, _⟩ => show win4_2.index t (0 : Fin 2) * 1000 + 1 * p.val = t.val * 1000 + p.val; omega
    | ⟨1, _⟩ => show win4_2.index t (1 : Fin 2) * 128 + 1 * q.val = q.val; omega
  show k4_pay1 (iblk4 V c 0 t) (iblk4 V c 1 t) (ix2 p q)
    = matProd (M := 10000) (K := 256) (N := 128) (Xin V c) (Win V c) (((cfg4.win 2).blk t).view.emb (ix2 p q))
  rw [hi, matProd_apply]
  show FloatOps.matmul (φ₁ := .bf16) (φ₂ := .bf16) dot_S1000x256_S256x128_S1000x128_1_0_0_1_n_n none (shapeCast S1000x256 (iblk4 V c 0 t) shapeCasts_S1000x256_S1000x256) (iblk4 V c 1 t) (constant (F := Ideal) S1000x128 .f32 0x00000000#32) (ix2 p q) = _
  refine (Cert.LibMatmulPlain.matmul_plain_zero_apply (M := 1000) (K := 256) (N := 128) (φ₁ := .bf16) (φ₂ := .bf16)
    dot_S1000x256_S256x128_S1000x128_1_0_0_1_n_n rfl none _ _ p q).trans ?_
  refine Finset.sum_congr rfl fun k _ => ?_
  have hk : k.val < 256 := k.isLt
  have h0 : shapeCast S1000x256 (iblk4 V c 0 t) shapeCasts_S1000x256_S1000x256 (ix2 p k) = Xin V c (ix2 (⟨t.val * 1000 + p.val, by omega⟩ : Fin 10000) k : S10000x256.Idx) := by
      refine (congrFun (shapeCast_self _ _) _).trans ?_
      show Xin V c (((cfg4.win 0).blk t).view.emb (ix2 p k)) = _
      congr 1
      funext a; apply Fin.ext
      match a with
      | ⟨0, _⟩ => show win4_0.index t (0 : Fin 2) * 1000 + 1 * p.val = t.val * 1000 + p.val; omega
      | ⟨1, _⟩ => show win4_0.index t (1 : Fin 2) * 256 + 1 * k.val = k.val; omega
  have h1 : iblk4 V c 1 t (ix2 k q) = Win V c (ix2 k q : S256x128.Idx) := by
      show Win V c (((cfg4.win 1).blk t).view.emb (ix2 k q)) = _
      congr 1
      funext a; apply Fin.ext
      match a with
      | ⟨0, _⟩ => show win4_1.index t (0 : Fin 2) * 256 + 1 * k.val = k.val; omega
      | ⟨1, _⟩ => show win4_1.index t (1 : Fin 2) * 128 + 1 * q.val = q.val; omega
  rw [h0, h1]

/-- An index of the output array lies in point t's block iff each coordinate lies in the block's range. -/
theorem mem_blk (t : Fin cfg4.N) (i : S10000x128.Idx) :
    i ∈ ((cfg4.win 2).blk t).view.set ↔ ∀ a : Fin 2, win4_2.index t a * S1000x128.size a ≤ (i a).val ∧ (i a).val < win4_2.index t a * S1000x128.size a + S1000x128.size a := by
  show i ∈ ((View.whole main_v52).slice (win4_2.rect t)).set ↔ _
  rw [View.set_slice_whole, Rect.mem_set_unit]
  exact Iff.rfl

/-- Row r of the output is written by point r / 1000. -/
theorem cover (i : S10000x128.Idx) : ∃ t : Fin cfg4.N, (cfg4.win 2).flush t = true ∧ i ∈ ((cfg4.win 2).blk t).view.set := by
  have hN : grid4.N = 10 := N_4
  have hi0 : (i 0).val < 10000 := (i 0).isLt
  have hi1 : (i 1).val < 128 := (i 1).isLt
  have hlt : (i 0).val / 1000 < cfg4.N := by show _ < grid4.N; omega
  obtain ⟨e0, e1, e2, e3, e4, e5⟩ := idx_facts ⟨(i 0).val / 1000, hlt⟩
  have e4' : win4_2.index ⟨(i 0).val / 1000, hlt⟩ (0 : Fin 2) = (i 0).val / 1000 := e4
  refine ⟨⟨(i 0).val / 1000, hlt⟩, flush4_2 _, ?_⟩
  rw [mem_blk]
  intro a
  match a with
  | ⟨0, _⟩ => show win4_2.index ⟨(i 0).val / 1000, hlt⟩ (0 : Fin 2) * 1000 ≤ (i 0).val ∧ (i 0).val < win4_2.index ⟨(i 0).val / 1000, hlt⟩ (0 : Fin 2) * 1000 + 1000; omega
  | ⟨1, _⟩ => show win4_2.index ⟨(i 0).val / 1000, hlt⟩ (1 : Fin 2) * 128 ≤ (i 1).val ∧ (i 1).val < win4_2.index ⟨(i 0).val / 1000, hlt⟩ (1 : Fin 2) * 128 + 128; omega

/-- The output array after the launch is the whole product. -/
theorem arr (c : Dev nD) : (dat4 V c).arrAt 2 cfg4.N = matProd (M := 10000) (K := 256) (N := 128) (Xin V c) (Win V c) :=
  (dat4 V c).arrAt_eq_of_cover 2 _ (fun t _ => flushed V c t) cover

end Cert.KernelIdeal.Region4
end
-- ==== Proof.KRegion5.lean ====
/-
  Launch 5 of the kernel program: a dense aggregation. Its grid has fifty points; point t takes rows 200·t … 200·t + 199
  of the adjacency matrix, the whole feature matrix and the bias row, multiplies from a zero accumulator, adds the bias
  to every row and writes the block back as the same rows of the output. Every output row is written
  by exactly one point, so after the launch entry (r, q) of the output is Σ_k A(r, k) · H(k, q) + b(q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region5
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's three input arrays as it finds them. -/
abbrev Ain (c : Dev nD) : S10000x10000.Idx → EReal := V c (Pipeline.arrRef spec5 0)
abbrev Hin (c : Dev nD) : S10000x128.Idx → EReal := V c (Pipeline.arrRef spec5 1)
abbrev Bin (c : Dev nD) : S1x128.Idx → EReal := V c (Pipeline.arrRef spec5 2)

/-- The printed index maps over the grid: the adjacency and output windows move down one block per point, the others stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the aggregation. -/
theorem flushed (c : Dev nD) (t : Fin cfg5.N) :
    (dat5 V c).flushed 3 t = ((cfg5.win 3).blk t).view.read (Elt Ideal)
      (Cert.KSpec.aggLin (N := 10000) (H := 128) (Ain V c) (Hin V c) (Bin V c)) := by
  show (cfg5.win 3).cut (grid5.coords t) ((dat5 V c).after 3 t) = _
  rw [after5_3]
  unfold out5_3
  rw [View.canon_unit_zero hz]
  simp only [View.ld_unit_zero (S := S200x10000) hz, View.ld_unit_zero (S := S10000x128) hz, View.ld_unit_zero (S := S1x128) hz]
  have hN : grid5.N = 50 := N_5
  have ht : t.val < 50 := lt_of_lt_of_eq t.isLt hN
  obtain ⟨e0, e1, e2, e3, e4, e5, e6, e7⟩ := idx_facts t
  funext j
  obtain ⟨p, q, rfl⟩ : ∃ (p : Fin 200) (q : Fin 128), j = ix2 p q := ⟨j 0, j 1, eq_ix2 j⟩
  have hp : p.val < 200 := p.isLt
  have hi : ((cfg5.win 3).blk t).view.emb (ix2 p q)
      = (ix2 (⟨t.val * 200 + p.val, by omega⟩ : Fin 10000) q : S10000x128.Idx) := by
    funext a; apply Fin.ext
    match a with
    | ⟨0, _⟩ => show win5_3.index t (0 : Fin 2) * 200 + 1 * p.val = t.val * 200 + p.val; omega
    | ⟨1, _⟩ => show win5_3.index t (1 : Fin 2) * 128 + 1 * q.val = q.val; omega
  show k5_pay1 (iblk5 V c 0 t) (iblk5 V c 1 t) (iblk5 V c 2 t) (ix2 p q)
    = Cert.KSpec.aggLin (N := 10000) (H := 128) (Ain V c) (Hin V c) (Bin V c) (((cfg5.win 3).blk t).view.emb (ix2 p q))
  rw [hi]
  unfold Cert.KSpec.aggLin
  rw [matProd_apply]
  show FloatOps.matmul (φ₁ := .bf16) (φ₂ := .bf16) dot_S200x10000_S10000x128_S200x128_1_0_0_1_n_n none
        (shapeCast S200x10000 (iblk5 V c 0 t) shapeCasts_S200x10000_S200x10000) (shapeCast S10000x128 (iblk5 V c 1 t) shapeCasts_S10000x128_S10000x128)
        (constant (F := Ideal) S200x128 .f32 0x00000000#32) (ix2 p q)
      + broadcastTo S200x128 (shapeCast S1x128 (iblk5 V c 2 t) shapeCasts_S1x128_S1x128) broadcasts_S1x128_S200x128 (ix2 p q) = _
  have hmm : FloatOps.matmul (φ₁ := .bf16) (φ₂ := .bf16) dot_S200x10000_S10000x128_S200x128_1_0_0_1_n_n none
        (shapeCast S200x10000 (iblk5 V c 0 t) shapeCasts_S200x10000_S200x10000) (shapeCast S10000x128 (iblk5 V c 1 t) shapeCasts_S10000x128_S10000x128)
        (constant (F := Ideal) S200x128 .f32 0x00000000#32) (ix2 p q)
      = ∑ k : Fin 10000, Ain V c (ix2 (⟨t.val * 200 + p.val, by omega⟩ : Fin 10000) k : S10000x10000.Idx) * Hin V c (ix2 k q : S10000x128.Idx) := by
    refine (Cert.LibMatmulPlain.matmul_plain_zero_apply (M := 200) (K := 10000) (N := 128) (φ₁ := .bf16) (φ₂ := .bf16)
      dot_S200x10000_S10000x128_S200x128_1_0_0_1_n_n rfl none _ _ p q).trans ?_
    refine Finset.sum_congr rfl fun k _ => ?_
    have hk : k.val < 10000 := k.isLt
    have h0 : shapeCast S200x10000 (iblk5 V c 0 t) shapeCasts_S200x10000_S200x10000 (ix2 p k)
        = Ain V c (ix2 (⟨t.val * 200 + p.val, by omega⟩ : Fin 10000) k : S10000x10000.Idx) := by
      refine (congrFun (shapeCast_self _ _) _).trans ?_
      show Ain V c (((cfg5.win 0).blk t).view.emb (ix2 p k)) = _
      congr 1
      funext a; apply Fin.ext
      match a with
      | ⟨0, _⟩ => show win5_0.index t (0 : Fin 2) * 200 + 1 * p.val = t.val * 200 + p.val; omega
      | ⟨1, _⟩ => show win5_0.index t (1 : Fin 2) * 10000 + 1 * k.val = k.val; omega
    have h1 : shapeCast S10000x128 (iblk5 V c 1 t) shapeCasts_S10000x128_S10000x128 (ix2 k q)
        = Hin V c (ix2 k q : S10000x128.Idx) := by
      refine (congrFun (shapeCast_self _ _) _).trans ?_
      show Hin V c (((cfg5.win 1).blk t).view.emb (ix2 k q)) = _
      congr 1
      funext a; apply Fin.ext
      match a with
      | ⟨0, _⟩ => show win5_1.index t (0 : Fin 2) * 10000 + 1 * k.val = k.val; omega
      | ⟨1, _⟩ => show win5_1.index t (1 : Fin 2) * 128 + 1 * q.val = q.val; omega
    rw [h0, h1]
  have hb : broadcastTo S200x128 (shapeCast S1x128 (iblk5 V c 2 t) shapeCasts_S1x128_S1x128) broadcasts_S1x128_S200x128 (ix2 p q)
      = Bin V c (ix2 (0 : Fin 1) q : S1x128.Idx) := by
    refine (broadcastTo_1b_ab_apply _ _ p q).trans ?_
    refine (congrFun (shapeCast_self _ _) _).trans ?_
    show Bin V c (((cfg5.win 2).blk t).view.emb (ix2 (0 : Fin 1) q)) = _
    congr 1
    funext a; apply Fin.ext
    match a with
    | ⟨0, _⟩ => show win5_2.index t (0 : Fin 2) * 1 + 1 * 0 = 0; omega
    | ⟨1, _⟩ => show win5_2.index t (1 : Fin 2) * 128 + 1 * q.val = q.val; omega
  rw [hmm, hb]

/-- An index of the output array lies in point t's block iff each coordinate lies in the block's range. -/
theorem mem_blk (t : Fin cfg5.N) (i : S10000x128.Idx) :
    i ∈ ((cfg5.win 3).blk t).view.set ↔ ∀ a : Fin 2, win5_3.index t a * S200x128.size a ≤ (i a).val ∧ (i a).val < win5_3.index t a * S200x128.size a + S200x128.size a := by
  show i ∈ ((View.whole main_v54).slice (win5_3.rect t)).set ↔ _
  rw [View.set_slice_whole, Rect.mem_set_unit]
  exact Iff.rfl

/-- Row r of the output is written by point r / 200. -/
theorem cover (i : S10000x128.Idx) : ∃ t : Fin cfg5.N, (cfg5.win 3).flush t = true ∧ i ∈ ((cfg5.win 3).blk t).view.set := by
  have hN : grid5.N = 50 := N_5
  have hi0 : (i 0).val < 10000 := (i 0).isLt
  have hi1 : (i 1).val < 128 := (i 1).isLt
  have hlt : (i 0).val / 200 < cfg5.N := by show _ < grid5.N; omega
  obtain ⟨e0, e1, e2, e3, e4, e5, e6, e7⟩ := idx_facts ⟨(i 0).val / 200, hlt⟩
  have e6' : win5_3.index ⟨(i 0).val / 200, hlt⟩ (0 : Fin 2) = (i 0).val / 200 := e6
  refine ⟨⟨(i 0).val / 200, hlt⟩, flush5_3 _, ?_⟩
  rw [mem_blk]
  intro a
  match a with
  | ⟨0, _⟩ => show win5_3.index ⟨(i 0).val / 200, hlt⟩ (0 : Fin 2) * 200 ≤ (i 0).val ∧ (i 0).val < win5_3.index ⟨(i 0).val / 200, hlt⟩ (0 : Fin 2) * 200 + 200; omega
  | ⟨1, _⟩ => show win5_3.index ⟨(i 0).val / 200, hlt⟩ (1 : Fin 2) * 128 ≤ (i 1).val ∧ (i 1).val < win5_3.index ⟨(i 0).val / 200, hlt⟩ (1 : Fin 2) * 128 + 128; omega

/-- The output array after the launch is the whole aggregation. -/
theorem arr (c : Dev nD) : (dat5 V c).arrAt 3 cfg5.N = Cert.KSpec.aggLin (N := 10000) (H := 128) (Ain V c) (Hin V c) (Bin V c) :=
  (dat5 V c).arrAt_eq_of_cover 3 _ (fun t _ => flushed V c t) cover

end Cert.KernelIdeal.Region5
end
-- ==== Proof.KRegion6.lean ====
/-
  Launch 6 of the kernel program: a dense transform. Its grid has ten points; point t takes rows 1000·t … 1000·t + 999
  of the features and the whole weight matrix, multiplies them from a zero accumulator and writes the product back as
  the same rows of the output. Every output row is written by exactly one point, so after the launch the output array
  is the product of the whole feature matrix with the weights: entry (r, q) is the sum over k of X(r, k) · W(k, q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region6
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's two input arrays as it finds them. -/
abbrev Xin (c : Dev nD) : S10000x256.Idx → EReal := V c (Pipeline.arrRef spec6 0)
abbrev Win (c : Dev nD) : S256x256.Idx → EReal := V c (Pipeline.arrRef spec6 1)

/-- The printed index maps over the grid: the feature and output windows move down one block per point, the weights stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product. -/
theorem flushed (c : Dev nD) (t : Fin cfg6.N) :
    (dat6 V c).flushed 2 t = ((cfg6.win 2).blk t).view.read (Elt Ideal)
      (matProd (M := 10000) (K := 256) (N := 256) (Xin V c) (Win V c)) := by
  show (cfg6.win 2).cut (grid6.coords t) ((dat6 V c).after 2 t) = _
  rw [after6_2]
  unfold out6_2
  rw [View.canon_unit_zero hz]
  simp only [View.ld_unit_zero (S := S1000x256) hz, View.ld_unit_zero (S := S256x256) hz]
  have hN : grid6.N = 10 := N_6
  have ht : t.val < 10 := lt_of_lt_of_eq t.isLt hN
  obtain ⟨e0, e1, e2, e3, e4, e5⟩ := idx_facts t
  funext j
  obtain ⟨p, q, rfl⟩ : ∃ (p : Fin 1000) (q : Fin 256), j = ix2 p q := ⟨j 0, j 1, eq_ix2 j⟩
  have hp : p.val < 1000 := p.isLt
  have hi : ((cfg6.win 2).blk t).view.emb (ix2 p q)
      = (ix2 (⟨t.val * 1000 + p.val, by omega⟩ : Fin 10000) q : S10000x256.Idx) := by
    funext a; apply Fin.ext
    match a with
    | ⟨0, _⟩ => show win6_2.index t (0 : Fin 2) * 1000 + 1 * p.val = t.val * 1000 + p.val; omega
    | ⟨1, _⟩ => show win6_2.index t (1 : Fin 2) * 256 + 1 * q.val = q.val; omega
  show k6_pay1 (iblk6 V c 0 t) (iblk6 V c 1 t) (ix2 p q)
    = matProd (M := 10000) (K := 256) (N := 256) (Xin V c) (Win V c) (((cfg6.win 2).blk t).view.emb (ix2 p q))
  rw [hi, matProd_apply]
  show FloatOps.matmul (φ₁ := .bf16) (φ₂ := .bf16) dot_S1000x256_S256x256_S1000x256_1_0_0_1_n_n none (iblk6 V c 0 t) (iblk6 V c 1 t) (constant (F := Ideal) S1000x256 .f32 0x00000000#32) (ix2 p q) = _
  refine (Cert.LibMatmulPlain.matmul_plain_zero_apply (M := 1000) (K := 256) (N := 256) (φ₁ := .bf16) (φ₂ := .bf16)
    dot_S1000x256_S256x256_S1000x256_1_0_0_1_n_n rfl none _ _ p q).trans ?_
  refine Finset.sum_congr rfl fun k _ => ?_
  have hk : k.val < 256 := k.isLt
  have h0 : iblk6 V c 0 t (ix2 p k) = Xin V c (ix2 (⟨t.val * 1000 + p.val, by omega⟩ : Fin 10000) k : S10000x256.Idx) := by
      show Xin V c (((cfg6.win 0).blk t).view.emb (ix2 p k)) = _
      congr 1
      funext a; apply Fin.ext
      match a with
      | ⟨0, _⟩ => show win6_0.index t (0 : Fin 2) * 1000 + 1 * p.val = t.val * 1000 + p.val; omega
      | ⟨1, _⟩ => show win6_0.index t (1 : Fin 2) * 256 + 1 * k.val = k.val; omega
  have h1 : iblk6 V c 1 t (ix2 k q) = Win V c (ix2 k q : S256x256.Idx) := by
      show Win V c (((cfg6.win 1).blk t).view.emb (ix2 k q)) = _
      congr 1
      funext a; apply Fin.ext
      match a with
      | ⟨0, _⟩ => show win6_1.index t (0 : Fin 2) * 256 + 1 * k.val = k.val; omega
      | ⟨1, _⟩ => show win6_1.index t (1 : Fin 2) * 256 + 1 * q.val = q.val; omega
  rw [h0, h1]

/-- An index of the output array lies in point t's block iff each coordinate lies in the block's range. -/
theorem mem_blk (t : Fin cfg6.N) (i : S10000x256.Idx) :
    i ∈ ((cfg6.win 2).blk t).view.set ↔ ∀ a : Fin 2, win6_2.index t a * S1000x256.size a ≤ (i a).val ∧ (i a).val < win6_2.index t a * S1000x256.size a + S1000x256.size a := by
  show i ∈ ((View.whole main_v101).slice (win6_2.rect t)).set ↔ _
  rw [View.set_slice_whole, Rect.mem_set_unit]
  exact Iff.rfl

/-- Row r of the output is written by point r / 1000. -/
theorem cover (i : S10000x256.Idx) : ∃ t : Fin cfg6.N, (cfg6.win 2).flush t = true ∧ i ∈ ((cfg6.win 2).blk t).view.set := by
  have hN : grid6.N = 10 := N_6
  have hi0 : (i 0).val < 10000 := (i 0).isLt
  have hi1 : (i 1).val < 256 := (i 1).isLt
  have hlt : (i 0).val / 1000 < cfg6.N := by show _ < grid6.N; omega
  obtain ⟨e0, e1, e2, e3, e4, e5⟩ := idx_facts ⟨(i 0).val / 1000, hlt⟩
  have e4' : win6_2.index ⟨(i 0).val / 1000, hlt⟩ (0 : Fin 2) = (i 0).val / 1000 := e4
  refine ⟨⟨(i 0).val / 1000, hlt⟩, flush6_2 _, ?_⟩
  rw [mem_blk]
  intro a
  match a with
  | ⟨0, _⟩ => show win6_2.index ⟨(i 0).val / 1000, hlt⟩ (0 : Fin 2) * 1000 ≤ (i 0).val ∧ (i 0).val < win6_2.index ⟨(i 0).val / 1000, hlt⟩ (0 : Fin 2) * 1000 + 1000; omega
  | ⟨1, _⟩ => show win6_2.index ⟨(i 0).val / 1000, hlt⟩ (1 : Fin 2) * 256 ≤ (i 1).val ∧ (i 1).val < win6_2.index ⟨(i 0).val / 1000, hlt⟩ (1 : Fin 2) * 256 + 256; omega

/-- The output array after the launch is the whole product. -/
theorem arr (c : Dev nD) : (dat6 V c).arrAt 2 cfg6.N = matProd (M := 10000) (K := 256) (N := 256) (Xin V c) (Win V c) :=
  (dat6 V c).arrAt_eq_of_cover 2 _ (fun t _ => flushed V c t) cover

end Cert.KernelIdeal.Region6
end
-- ==== Proof.KRegion7.lean ====
/-
  Launch 7 of the kernel program: a dense aggregation. Its grid has fifty points; point t takes rows 200·t … 200·t + 199
  of the adjacency matrix, the whole feature matrix and the bias row, multiplies from a zero accumulator, adds the bias
  to every row, takes max(·, 0) and writes the block back as the same rows of the output. Every output row is written
  by exactly one point, so after the launch entry (r, q) of the output is max(Σ_k A(r, k) · H(k, q) + b(q), 0).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region7
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's three input arrays as it finds them. -/
abbrev Ain (c : Dev nD) : S10000x10000.Idx → EReal := V c (Pipeline.arrRef spec7 0)
abbrev Hin (c : Dev nD) : S10000x256.Idx → EReal := V c (Pipeline.arrRef spec7 1)
abbrev Bin (c : Dev nD) : S1x256.Idx → EReal := V c (Pipeline.arrRef spec7 2)

/-- The printed index maps over the grid: the adjacency and output windows move down one block per point, the others stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the aggregation. -/
theorem flushed (c : Dev nD) (t : Fin cfg7.N) :
    (dat7 V c).flushed 3 t = ((cfg7.win 3).blk t).view.read (Elt Ideal)
      (Cert.KSpec.aggRelu (N := 10000) (H := 256) (Ain V c) (Hin V c) (Bin V c)) := by
  show (cfg7.win 3).cut (grid7.coords t) ((dat7 V c).after 3 t) = _
  rw [after7_3]
  unfold out7_3
  rw [View.canon_unit_zero hz]
  simp only [View.ld_unit_zero (S := S200x10000) hz, View.ld_unit_zero (S := S10000x256) hz, View.ld_unit_zero (S := S1x256) hz]
  have hN : grid7.N = 50 := N_7
  have ht : t.val < 50 := lt_of_lt_of_eq t.isLt hN
  obtain ⟨e0, e1, e2, e3, e4, e5, e6, e7⟩ := idx_facts t
  funext j
  obtain ⟨p, q, rfl⟩ : ∃ (p : Fin 200) (q : Fin 256), j = ix2 p q := ⟨j 0, j 1, eq_ix2 j⟩
  have hp : p.val < 200 := p.isLt
  have hi : ((cfg7.win 3).blk t).view.emb (ix2 p q)
      = (ix2 (⟨t.val * 200 + p.val, by omega⟩ : Fin 10000) q : S10000x256.Idx) := by
    funext a; apply Fin.ext
    match a with
    | ⟨0, _⟩ => show win7_3.index t (0 : Fin 2) * 200 + 1 * p.val = t.val * 200 + p.val; omega
    | ⟨1, _⟩ => show win7_3.index t (1 : Fin 2) * 256 + 1 * q.val = q.val; omega
  show k7_pay1 (iblk7 V c 0 t) (iblk7 V c 1 t) (iblk7 V c 2 t) (ix2 p q)
    = Cert.KSpec.aggRelu (N := 10000) (H := 256) (Ain V c) (Hin V c) (Bin V c) (((cfg7.win 3).blk t).view.emb (ix2 p q))
  rw [hi]
  unfold Cert.KSpec.aggRelu Cert.KSpec.aggLin
  rw [matProd_apply]
  show max (FloatOps.matmul (φ₁ := .bf16) (φ₂ := .bf16) dot_S200x10000_S10000x256_S200x256_1_0_0_1_n_n none
        (shapeCast S200x10000 (iblk7 V c 0 t) shapeCasts_S200x10000_S200x10000) (shapeCast S10000x256 (iblk7 V c 1 t) shapeCasts_S10000x256_S10000x256)
        (constant (F := Ideal) S200x256 .f32 0x00000000#32) (ix2 p q)
      + broadcastTo S200x256 (shapeCast S1x256 (iblk7 V c 2 t) shapeCasts_S1x256_S1x256) broadcasts_S1x256_S200x256 (ix2 p q))
      (Ideal.ofBits .f32 0x00000000#32) = _
  have hmm : FloatOps.matmul (φ₁ := .bf16) (φ₂ := .bf16) dot_S200x10000_S10000x256_S200x256_1_0_0_1_n_n none
        (shapeCast S200x10000 (iblk7 V c 0 t) shapeCasts_S200x10000_S200x10000) (shapeCast S10000x256 (iblk7 V c 1 t) shapeCasts_S10000x256_S10000x256)
        (constant (F := Ideal) S200x256 .f32 0x00000000#32) (ix2 p q)
      = ∑ k : Fin 10000, Ain V c (ix2 (⟨t.val * 200 + p.val, by omega⟩ : Fin 10000) k : S10000x10000.Idx) * Hin V c (ix2 k q : S10000x256.Idx) := by
    refine (Cert.LibMatmulPlain.matmul_plain_zero_apply (M := 200) (K := 10000) (N := 256) (φ₁ := .bf16) (φ₂ := .bf16)
      dot_S200x10000_S10000x256_S200x256_1_0_0_1_n_n rfl none _ _ p q).trans ?_
    refine Finset.sum_congr rfl fun k _ => ?_
    have hk : k.val < 10000 := k.isLt
    have h0 : shapeCast S200x10000 (iblk7 V c 0 t) shapeCasts_S200x10000_S200x10000 (ix2 p k)
        = Ain V c (ix2 (⟨t.val * 200 + p.val, by omega⟩ : Fin 10000) k : S10000x10000.Idx) := by
      refine (congrFun (shapeCast_self _ _) _).trans ?_
      show Ain V c (((cfg7.win 0).blk t).view.emb (ix2 p k)) = _
      congr 1
      funext a; apply Fin.ext
      match a with
      | ⟨0, _⟩ => show win7_0.index t (0 : Fin 2) * 200 + 1 * p.val = t.val * 200 + p.val; omega
      | ⟨1, _⟩ => show win7_0.index t (1 : Fin 2) * 10000 + 1 * k.val = k.val; omega
    have h1 : shapeCast S10000x256 (iblk7 V c 1 t) shapeCasts_S10000x256_S10000x256 (ix2 k q)
        = Hin V c (ix2 k q : S10000x256.Idx) := by
      refine (congrFun (shapeCast_self _ _) _).trans ?_
      show Hin V c (((cfg7.win 1).blk t).view.emb (ix2 k q)) = _
      congr 1
      funext a; apply Fin.ext
      match a with
      | ⟨0, _⟩ => show win7_1.index t (0 : Fin 2) * 10000 + 1 * k.val = k.val; omega
      | ⟨1, _⟩ => show win7_1.index t (1 : Fin 2) * 256 + 1 * q.val = q.val; omega
    rw [h0, h1]
  have hb : broadcastTo S200x256 (shapeCast S1x256 (iblk7 V c 2 t) shapeCasts_S1x256_S1x256) broadcasts_S1x256_S200x256 (ix2 p q)
      = Bin V c (ix2 (0 : Fin 1) q : S1x256.Idx) := by
    refine (broadcastTo_1b_ab_apply _ _ p q).trans ?_
    refine (congrFun (shapeCast_self _ _) _).trans ?_
    show Bin V c (((cfg7.win 2).blk t).view.emb (ix2 (0 : Fin 1) q)) = _
    congr 1
    funext a; apply Fin.ext
    match a with
    | ⟨0, _⟩ => show win7_2.index t (0 : Fin 2) * 1 + 1 * 0 = 0; omega
    | ⟨1, _⟩ => show win7_2.index t (1 : Fin 2) * 256 + 1 * q.val = q.val; omega
  rw [hmm, hb, Ideal.ofBits_zero_f32]

/-- An index of the output array lies in point t's block iff each coordinate lies in the block's range. -/
theorem mem_blk (t : Fin cfg7.N) (i : S10000x256.Idx) :
    i ∈ ((cfg7.win 3).blk t).view.set ↔ ∀ a : Fin 2, win7_3.index t a * S200x256.size a ≤ (i a).val ∧ (i a).val < win7_3.index t a * S200x256.size a + S200x256.size a := by
  show i ∈ ((View.whole main_v103).slice (win7_3.rect t)).set ↔ _
  rw [View.set_slice_whole, Rect.mem_set_unit]
  exact Iff.rfl

/-- Row r of the output is written by point r / 200. -/
theorem cover (i : S10000x256.Idx) : ∃ t : Fin cfg7.N, (cfg7.win 3).flush t = true ∧ i ∈ ((cfg7.win 3).blk t).view.set := by
  have hN : grid7.N = 50 := N_7
  have hi0 : (i 0).val < 10000 := (i 0).isLt
  have hi1 : (i 1).val < 256 := (i 1).isLt
  have hlt : (i 0).val / 200 < cfg7.N := by show _ < grid7.N; omega
  obtain ⟨e0, e1, e2, e3, e4, e5, e6, e7⟩ := idx_facts ⟨(i 0).val / 200, hlt⟩
  have e6' : win7_3.index ⟨(i 0).val / 200, hlt⟩ (0 : Fin 2) = (i 0).val / 200 := e6
  refine ⟨⟨(i 0).val / 200, hlt⟩, flush7_3 _, ?_⟩
  rw [mem_blk]
  intro a
  match a with
  | ⟨0, _⟩ => show win7_3.index ⟨(i 0).val / 200, hlt⟩ (0 : Fin 2) * 200 ≤ (i 0).val ∧ (i 0).val < win7_3.index ⟨(i 0).val / 200, hlt⟩ (0 : Fin 2) * 200 + 200; omega
  | ⟨1, _⟩ => show win7_3.index ⟨(i 0).val / 200, hlt⟩ (1 : Fin 2) * 256 ≤ (i 1).val ∧ (i 1).val < win7_3.index ⟨(i 0).val / 200, hlt⟩ (1 : Fin 2) * 256 + 256; omega

/-- The output array after the launch is the whole aggregation. -/
theorem arr (c : Dev nD) : (dat7 V c).arrAt 3 cfg7.N = Cert.KSpec.aggRelu (N := 10000) (H := 256) (Ain V c) (Hin V c) (Bin V c) :=
  (dat7 V c).arrAt_eq_of_cover 3 _ (fun t _ => flushed V c t) cover

end Cert.KernelIdeal.Region7
end
-- ==== Proof.KRegion8.lean ====
/-
  Launch 8 of the kernel program: a dense transform. Its grid has ten points; point t takes rows 1000·t … 1000·t + 999
  of the features and the whole weight matrix, multiplies them from a zero accumulator and writes the product back as
  the same rows of the output. Every output row is written by exactly one point, so after the launch the output array
  is the product of the whole feature matrix with the weights: entry (r, q) is the sum over k of X(r, k) · W(k, q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region8
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's two input arrays as it finds them. -/
abbrev Xin (c : Dev nD) : S10000x256.Idx → EReal := V c (Pipeline.arrRef spec8 0)
abbrev Win (c : Dev nD) : S256x256.Idx → EReal := V c (Pipeline.arrRef spec8 1)

/-- The printed index maps over the grid: the feature and output windows move down one block per point, the weights stay. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the product. -/
theorem flushed (c : Dev nD) (t : Fin cfg8.N) :
    (dat8 V c).flushed 2 t = ((cfg8.win 2).blk t).view.read (Elt Ideal)
      (matProd (M := 10000) (K := 256) (N := 256) (Xin V c) (Win V c)) := by
  show (cfg8.win 2).cut (grid8.coords t) ((dat8 V c).after 2 t) = _
  rw [after8_2]
  unfold out8_2
  rw [View.canon_unit_zero hz]
  simp only [View.ld_unit_zero (S := S1000x256) hz, View.ld_unit_zero (S := S256x256) hz]
  have hN : grid8.N = 10 := N_8
  have ht : t.val < 10 := lt_of_lt_of_eq t.isLt hN
  obtain ⟨e0, e1, e2, e3, e4, e5⟩ := idx_facts t
  funext j
  obtain ⟨p, q, rfl⟩ : ∃ (p : Fin 1000) (q : Fin 256), j = ix2 p q := ⟨j 0, j 1, eq_ix2 j⟩
  have hp : p.val < 1000 := p.isLt
  have hi : ((cfg8.win 2).blk t).view.emb (ix2 p q)
      = (ix2 (⟨t.val * 1000 + p.val, by omega⟩ : Fin 10000) q : S10000x256.Idx) := by
    funext a; apply Fin.ext
    match a with
    | ⟨0, _⟩ => show win8_2.index t (0 : Fin 2) * 1000 + 1 * p.val = t.val * 1000 + p.val; omega
    | ⟨1, _⟩ => show win8_2.index t (1 : Fin 2) * 256 + 1 * q.val = q.val; omega
  show k8_pay1 (iblk8 V c 0 t) (iblk8 V c 1 t) (ix2 p q)
    = matProd (M := 10000) (K := 256) (N := 256) (Xin V c) (Win V c) (((cfg8.win 2).blk t).view.emb (ix2 p q))
  rw [hi, matProd_apply]
  show FloatOps.matmul (φ₁ := .bf16) (φ₂ := .bf16) dot_S1000x256_S256x256_S1000x256_1_0_0_1_n_n none (shapeCast S1000x256 (iblk8 V c 0 t) shapeCasts_S1000x256_S1000x256) (iblk8 V c 1 t) (constant (F := Ideal) S1000x256 .f32 0x00000000#32) (ix2 p q) = _
  refine (Cert.LibMatmulPlain.matmul_plain_zero_apply (M := 1000) (K := 256) (N := 256) (φ₁ := .bf16) (φ₂ := .bf16)
    dot_S1000x256_S256x256_S1000x256_1_0_0_1_n_n rfl none _ _ p q).trans ?_
  refine Finset.sum_congr rfl fun k _ => ?_
  have hk : k.val < 256 := k.isLt
  have h0 : shapeCast S1000x256 (iblk8 V c 0 t) shapeCasts_S1000x256_S1000x256 (ix2 p k) = Xin V c (ix2 (⟨t.val * 1000 + p.val, by omega⟩ : Fin 10000) k : S10000x256.Idx) := by
      refine (congrFun (shapeCast_self _ _) _).trans ?_
      show Xin V c (((cfg8.win 0).blk t).view.emb (ix2 p k)) = _
      congr 1
      funext a; apply Fin.ext
      match a with
      | ⟨0, _⟩ => show win8_0.index t (0 : Fin 2) * 1000 + 1 * p.val = t.val * 1000 + p.val; omega
      | ⟨1, _⟩ => show win8_0.index t (1 : Fin 2) * 256 + 1 * k.val = k.val; omega
  have h1 : iblk8 V c 1 t (ix2 k q) = Win V c (ix2 k q : S256x256.Idx) := by
      show Win V c (((cfg8.win 1).blk t).view.emb (ix2 k q)) = _
      congr 1
      funext a; apply Fin.ext
      match a with
      | ⟨0, _⟩ => show win8_1.index t (0 : Fin 2) * 256 + 1 * k.val = k.val; omega
      | ⟨1, _⟩ => show win8_1.index t (1 : Fin 2) * 256 + 1 * q.val = q.val; omega
  rw [h0, h1]

/-- An index of the output array lies in point t's block iff each coordinate lies in the block's range. -/
theorem mem_blk (t : Fin cfg8.N) (i : S10000x256.Idx) :
    i ∈ ((cfg8.win 2).blk t).view.set ↔ ∀ a : Fin 2, win8_2.index t a * S1000x256.size a ≤ (i a).val ∧ (i a).val < win8_2.index t a * S1000x256.size a + S1000x256.size a := by
  show i ∈ ((View.whole main_v104).slice (win8_2.rect t)).set ↔ _
  rw [View.set_slice_whole, Rect.mem_set_unit]
  exact Iff.rfl

/-- Row r of the output is written by point r / 1000. -/
theorem cover (i : S10000x256.Idx) : ∃ t : Fin cfg8.N, (cfg8.win 2).flush t = true ∧ i ∈ ((cfg8.win 2).blk t).view.set := by
  have hN : grid8.N = 10 := N_8
  have hi0 : (i 0).val < 10000 := (i 0).isLt
  have hi1 : (i 1).val < 256 := (i 1).isLt
  have hlt : (i 0).val / 1000 < cfg8.N := by show _ < grid8.N; omega
  obtain ⟨e0, e1, e2, e3, e4, e5⟩ := idx_facts ⟨(i 0).val / 1000, hlt⟩
  have e4' : win8_2.index ⟨(i 0).val / 1000, hlt⟩ (0 : Fin 2) = (i 0).val / 1000 := e4
  refine ⟨⟨(i 0).val / 1000, hlt⟩, flush8_2 _, ?_⟩
  rw [mem_blk]
  intro a
  match a with
  | ⟨0, _⟩ => show win8_2.index ⟨(i 0).val / 1000, hlt⟩ (0 : Fin 2) * 1000 ≤ (i 0).val ∧ (i 0).val < win8_2.index ⟨(i 0).val / 1000, hlt⟩ (0 : Fin 2) * 1000 + 1000; omega
  | ⟨1, _⟩ => show win8_2.index ⟨(i 0).val / 1000, hlt⟩ (1 : Fin 2) * 256 ≤ (i 1).val ∧ (i 1).val < win8_2.index ⟨(i 0).val / 1000, hlt⟩ (1 : Fin 2) * 256 + 256; omega

/-- The output array after the launch is the whole product. -/
theorem arr (c : Dev nD) : (dat8 V c).arrAt 2 cfg8.N = matProd (M := 10000) (K := 256) (N := 256) (Xin V c) (Win V c) :=
  (dat8 V c).arrAt_eq_of_cover 2 _ (fun t _ => flushed V c t) cover

end Cert.KernelIdeal.Region8
end
-- ==== Proof.KRegion9.lean ====
/-
  Launch 9 of the kernel program: a dense aggregation. Its grid has fifty points; point t takes rows 200·t … 200·t + 199
  of the adjacency matrix, the whole feature matrix and the bias row, multiplies from a zero accumulator, adds the bias
  to every row, takes max(·, 0) and writes the block back as the same rows of the output. Every output row is written
  by exactly one point, so after the launch entry (r, q) of the output is max(Σ_k A(r, k) · H(k, q) + b(q), 0).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region9
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's three input arrays as it finds them. -/
abbrev Ain (c : Dev nD) : S10000x10000.Idx → EReal := V c (Pipeline.arrRef spec9 0)
abbrev Hin (c : Dev nD) : S10000x256.Idx → EReal := V c (Pipeline.arrRef spec9 1)
abbrev Bin (c : Dev nD) : S1x256.Idx → EReal := V c (Pipeline.arrRef spec9 2)

/-- The printed index maps over the grid: the adjacency and output windows move down one block per point, the others stay. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of the aggregation. -/
theorem flushed (c : Dev nD) (t : Fin cfg9.N) :
    (dat9 V c).flushed 3 t = ((cfg9.win 3).blk t).view.read (Elt Ideal)
      (Cert.KSpec.aggRelu (N := 10000) (H := 256) (Ain V c) (Hin V c) (Bin V c)) := by
  show (cfg9.win 3).cut (grid9.coords t) ((dat9 V c).after 3 t) = _
  rw [after9_3]
  unfold out9_3
  rw [View.canon_unit_zero hz]
  simp only [View.ld_unit_zero (S := S200x10000) hz, View.ld_unit_zero (S := S10000x256) hz, View.ld_unit_zero (S := S1x256) hz]
  have hN : grid9.N = 50 := N_9
  have ht : t.val < 50 := lt_of_lt_of_eq t.isLt hN
  obtain ⟨e0, e1, e2, e3, e4, e5, e6, e7⟩ := idx_facts t
  funext j
  obtain ⟨p, q, rfl⟩ : ∃ (p : Fin 200) (q : Fin 256), j = ix2 p q := ⟨j 0, j 1, eq_ix2 j⟩
  have hp : p.val < 200 := p.isLt
  have hi : ((cfg9.win 3).blk t).view.emb (ix2 p q)
      = (ix2 (⟨t.val * 200 + p.val, by omega⟩ : Fin 10000) q : S10000x256.Idx) := by
    funext a; apply Fin.ext
    match a with
    | ⟨0, _⟩ => show win9_3.index t (0 : Fin 2) * 200 + 1 * p.val = t.val * 200 + p.val; omega
    | ⟨1, _⟩ => show win9_3.index t (1 : Fin 2) * 256 + 1 * q.val = q.val; omega
  show k9_pay1 (iblk9 V c 0 t) (iblk9 V c 1 t) (iblk9 V c 2 t) (ix2 p q)
    = Cert.KSpec.aggRelu (N := 10000) (H := 256) (Ain V c) (Hin V c) (Bin V c) (((cfg9.win 3).blk t).view.emb (ix2 p q))
  rw [hi]
  unfold Cert.KSpec.aggRelu Cert.KSpec.aggLin
  rw [matProd_apply]
  show max (FloatOps.matmul (φ₁ := .bf16) (φ₂ := .bf16) dot_S200x10000_S10000x256_S200x256_1_0_0_1_n_n none
        (shapeCast S200x10000 (iblk9 V c 0 t) shapeCasts_S200x10000_S200x10000) (shapeCast S10000x256 (iblk9 V c 1 t) shapeCasts_S10000x256_S10000x256)
        (constant (F := Ideal) S200x256 .f32 0x00000000#32) (ix2 p q)
      + broadcastTo S200x256 (shapeCast S1x256 (iblk9 V c 2 t) shapeCasts_S1x256_S1x256) broadcasts_S1x256_S200x256 (ix2 p q))
      (Ideal.ofBits .f32 0x00000000#32) = _
  have hmm : FloatOps.matmul (φ₁ := .bf16) (φ₂ := .bf16) dot_S200x10000_S10000x256_S200x256_1_0_0_1_n_n none
        (shapeCast S200x10000 (iblk9 V c 0 t) shapeCasts_S200x10000_S200x10000) (shapeCast S10000x256 (iblk9 V c 1 t) shapeCasts_S10000x256_S10000x256)
        (constant (F := Ideal) S200x256 .f32 0x00000000#32) (ix2 p q)
      = ∑ k : Fin 10000, Ain V c (ix2 (⟨t.val * 200 + p.val, by omega⟩ : Fin 10000) k : S10000x10000.Idx) * Hin V c (ix2 k q : S10000x256.Idx) := by
    refine (Cert.LibMatmulPlain.matmul_plain_zero_apply (M := 200) (K := 10000) (N := 256) (φ₁ := .bf16) (φ₂ := .bf16)
      dot_S200x10000_S10000x256_S200x256_1_0_0_1_n_n rfl none _ _ p q).trans ?_
    refine Finset.sum_congr rfl fun k _ => ?_
    have hk : k.val < 10000 := k.isLt
    have h0 : shapeCast S200x10000 (iblk9 V c 0 t) shapeCasts_S200x10000_S200x10000 (ix2 p k)
        = Ain V c (ix2 (⟨t.val * 200 + p.val, by omega⟩ : Fin 10000) k : S10000x10000.Idx) := by
      refine (congrFun (shapeCast_self _ _) _).trans ?_
      show Ain V c (((cfg9.win 0).blk t).view.emb (ix2 p k)) = _
      congr 1
      funext a; apply Fin.ext
      match a with
      | ⟨0, _⟩ => show win9_0.index t (0 : Fin 2) * 200 + 1 * p.val = t.val * 200 + p.val; omega
      | ⟨1, _⟩ => show win9_0.index t (1 : Fin 2) * 10000 + 1 * k.val = k.val; omega
    have h1 : shapeCast S10000x256 (iblk9 V c 1 t) shapeCasts_S10000x256_S10000x256 (ix2 k q)
        = Hin V c (ix2 k q : S10000x256.Idx) := by
      refine (congrFun (shapeCast_self _ _) _).trans ?_
      show Hin V c (((cfg9.win 1).blk t).view.emb (ix2 k q)) = _
      congr 1
      funext a; apply Fin.ext
      match a with
      | ⟨0, _⟩ => show win9_1.index t (0 : Fin 2) * 10000 + 1 * k.val = k.val; omega
      | ⟨1, _⟩ => show win9_1.index t (1 : Fin 2) * 256 + 1 * q.val = q.val; omega
    rw [h0, h1]
  have hb : broadcastTo S200x256 (shapeCast S1x256 (iblk9 V c 2 t) shapeCasts_S1x256_S1x256) broadcasts_S1x256_S200x256 (ix2 p q)
      = Bin V c (ix2 (0 : Fin 1) q : S1x256.Idx) := by
    refine (broadcastTo_1b_ab_apply _ _ p q).trans ?_
    refine (congrFun (shapeCast_self _ _) _).trans ?_
    show Bin V c (((cfg9.win 2).blk t).view.emb (ix2 (0 : Fin 1) q)) = _
    congr 1
    funext a; apply Fin.ext
    match a with
    | ⟨0, _⟩ => show win9_2.index t (0 : Fin 2) * 1 + 1 * 0 = 0; omega
    | ⟨1, _⟩ => show win9_2.index t (1 : Fin 2) * 256 + 1 * q.val = q.val; omega
  rw [hmm, hb, Ideal.ofBits_zero_f32]

/-- An index of the output array lies in point t's block iff each coordinate lies in the block's range. -/
theorem mem_blk (t : Fin cfg9.N) (i : S10000x256.Idx) :
    i ∈ ((cfg9.win 3).blk t).view.set ↔ ∀ a : Fin 2, win9_3.index t a * S200x256.size a ≤ (i a).val ∧ (i a).val < win9_3.index t a * S200x256.size a + S200x256.size a := by
  show i ∈ ((View.whole main_v106).slice (win9_3.rect t)).set ↔ _
  rw [View.set_slice_whole, Rect.mem_set_unit]
  exact Iff.rfl

/-- Row r of the output is written by point r / 200. -/
theorem cover (i : S10000x256.Idx) : ∃ t : Fin cfg9.N, (cfg9.win 3).flush t = true ∧ i ∈ ((cfg9.win 3).blk t).view.set := by
  have hN : grid9.N = 50 := N_9
  have hi0 : (i 0).val < 10000 := (i 0).isLt
  have hi1 : (i 1).val < 256 := (i 1).isLt
  have hlt : (i 0).val / 200 < cfg9.N := by show _ < grid9.N; omega
  obtain ⟨e0, e1, e2, e3, e4, e5, e6, e7⟩ := idx_facts ⟨(i 0).val / 200, hlt⟩
  have e6' : win9_3.index ⟨(i 0).val / 200, hlt⟩ (0 : Fin 2) = (i 0).val / 200 := e6
  refine ⟨⟨(i 0).val / 200, hlt⟩, flush9_3 _, ?_⟩
  rw [mem_blk]
  intro a
  match a with
  | ⟨0, _⟩ => show win9_3.index ⟨(i 0).val / 200, hlt⟩ (0 : Fin 2) * 200 ≤ (i 0).val ∧ (i 0).val < win9_3.index ⟨(i 0).val / 200, hlt⟩ (0 : Fin 2) * 200 + 200; omega
  | ⟨1, _⟩ => show win9_3.index ⟨(i 0).val / 200, hlt⟩ (1 : Fin 2) * 256 ≤ (i 1).val ∧ (i 1).val < win9_3.index ⟨(i 0).val / 200, hlt⟩ (1 : Fin 2) * 256 + 256; omega

/-- The output array after the launch is the whole aggregation. -/
theorem arr (c : Dev nD) : (dat9 V c).arrAt 3 cfg9.N = Cert.KSpec.aggRelu (N := 10000) (H := 256) (Ain V c) (Hin V c) (Bin V c) :=
  (dat9 V c).arrAt_eq_of_cover 3 _ (fun t _ => flushed V c t) cover

end Cert.KernelIdeal.Region9
end
-- ==== Proof.KRegion10.lean ====
/-
  Launch 10 of the kernel program: a dense transform. Its grid has ten points; point t takes rows 1000·t … 1000·t + 999
  of the features and the whole weight matrix, multiplies them from a zero accumulator and writes the product back as
  the same rows of the output. Every output row is written by exactly one point, so after the launch the output array
  is the product of the whole feature matrix with the weights: entry (r, q) is the sum over k of X(r, k) · W(k, q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region10
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's two input arrays as it finds them. -/
abbrev Xin (c : Dev nD) : S10000x256.Idx → EReal := V c (Pipeline.arrRef spec10 0)
abbrev Win (c : Dev nD) : S256x128.Idx → EReal := V c (Pipeline.arrRef spec10 1)

/-- The printed index maps over the grid: the feature and output windows move down one block per point, the weights stay. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point t writes back is block t of the product. -/
theorem flushed (c : Dev nD) (t : Fin cfg10.N) :
    (dat10 V c).flushed 2 t = ((cfg10.win 2).blk t).view.read (Elt Ideal)
      (matProd (M := 10000) (K := 256) (N := 128) (Xin V c) (Win V c)) := by
  show (cfg10.win 2).cut (grid10.coords t) ((dat10 V c).after 2 t) = _
  rw [after10_2]
  unfold out10_2
  rw [View.canon_unit_zero hz]
  simp only [View.ld_unit_zero (S := S1000x256) hz, View.ld_unit_zero (S := S256x128) hz]
  have hN : grid10.N = 10 := N_10
  have ht : t.val < 10 := lt_of_lt_of_eq t.isLt hN
  obtain ⟨e0, e1, e2, e3, e4, e5⟩ := idx_facts t
  funext j
  obtain ⟨p, q, rfl⟩ : ∃ (p : Fin 1000) (q : Fin 128), j = ix2 p q := ⟨j 0, j 1, eq_ix2 j⟩
  have hp : p.val < 1000 := p.isLt
  have hi : ((cfg10.win 2).blk t).view.emb (ix2 p q)
      = (ix2 (⟨t.val * 1000 + p.val, by omega⟩ : Fin 10000) q : S10000x128.Idx) := by
    funext a; apply Fin.ext
    match a with
    | ⟨0, _⟩ => show win10_2.index t (0 : Fin 2) * 1000 + 1 * p.val = t.val * 1000 + p.val; omega
    | ⟨1, _⟩ => show win10_2.index t (1 : Fin 2) * 128 + 1 * q.val = q.val; omega
  show k10_pay1 (iblk10 V c 0 t) (iblk10 V c 1 t) (ix2 p q)
    = matProd (M := 10000) (K := 256) (N := 128) (Xin V c) (Win V c) (((cfg10.win 2).blk t).view.emb (ix2 p q))
  rw [hi, matProd_apply]
  show FloatOps.matmul (φ₁ := .bf16) (φ₂ := .bf16) dot_S1000x256_S256x128_S1000x128_1_0_0_1_n_n none (shapeCast S1000x256 (iblk10 V c 0 t) shapeCasts_S1000x256_S1000x256) (iblk10 V c 1 t) (constant (F := Ideal) S1000x128 .f32 0x00000000#32) (ix2 p q) = _
  refine (Cert.LibMatmulPlain.matmul_plain_zero_apply (M := 1000) (K := 256) (N := 128) (φ₁ := .bf16) (φ₂ := .bf16)
    dot_S1000x256_S256x128_S1000x128_1_0_0_1_n_n rfl none _ _ p q).trans ?_
  refine Finset.sum_congr rfl fun k _ => ?_
  have hk : k.val < 256 := k.isLt
  have h0 : shapeCast S1000x256 (iblk10 V c 0 t) shapeCasts_S1000x256_S1000x256 (ix2 p k) = Xin V c (ix2 (⟨t.val * 1000 + p.val, by omega⟩ : Fin 10000) k : S10000x256.Idx) := by
      refine (congrFun (shapeCast_self _ _) _).trans ?_
      show Xin V c (((cfg10.win 0).blk t).view.emb (ix2 p k)) = _
      congr 1
      funext a; apply Fin.ext
      match a with
      | ⟨0, _⟩ => show win10_0.index t (0 : Fin 2) * 1000 + 1 * p.val = t.val * 1000 + p.val; omega
      | ⟨1, _⟩ => show win10_0.index t (1 : Fin 2) * 256 + 1 * k.val = k.val; omega
  have h1 : iblk10 V c 1 t (ix2 k q) = Win V c (ix2 k q : S256x128.Idx) := by
      show Win V c (((cfg10.win 1).blk t).view.emb (ix2 k q)) = _
      congr 1
      funext a; apply Fin.ext
      match a with
      | ⟨0, _⟩ => show win10_1.index t (0 : Fin 2) * 256 + 1 * k.val = k.val; omega
      | ⟨1, _⟩ => show win10_1.index t (1 : Fin 2) * 128 + 1 * q.val = q.val; omega
  rw [h0, h1]

/-- An index of the output array lies in point t's block iff each coordinate lies in the block's range. -/
theorem mem_blk (t : Fin cfg10.N) (i : S10000x128.Idx) :
    i ∈ ((cfg10.win 2).blk t).view.set ↔ ∀ a : Fin 2, win10_2.index t a * S1000x128.size a ≤ (i a).val ∧ (i a).val < win10_2.index t a * S1000x128.size a + S1000x128.size a := by
  show i ∈ ((View.whole main_v107).slice (win10_2.rect t)).set ↔ _
  rw [View.set_slice_whole, Rect.mem_set_unit]
  exact Iff.rfl

/-- Row r of the output is written by point r / 1000. -/
theorem cover (i : S10000x128.Idx) : ∃ t : Fin cfg10.N, (cfg10.win 2).flush t = true ∧ i ∈ ((cfg10.win 2).blk t).view.set := by
  have hN : grid10.N = 10 := N_10
  have hi0 : (i 0).val < 10000 := (i 0).isLt
  have hi1 : (i 1).val < 128 := (i 1).isLt
  have hlt : (i 0).val / 1000 < cfg10.N := by show _ < grid10.N; omega
  obtain ⟨e0, e1, e2, e3, e4, e5⟩ := idx_facts ⟨(i 0).val / 1000, hlt⟩
  have e4' : win10_2.index ⟨(i 0).val / 1000, hlt⟩ (0 : Fin 2) = (i 0).val / 1000 := e4
  refine ⟨⟨(i 0).val / 1000, hlt⟩, flush10_2 _, ?_⟩
  rw [mem_blk]
  intro a
  match a with
  | ⟨0, _⟩ => show win10_2.index ⟨(i 0).val / 1000, hlt⟩ (0 : Fin 2) * 1000 ≤ (i 0).val ∧ (i 0).val < win10_2.index ⟨(i 0).val / 1000, hlt⟩ (0 : Fin 2) * 1000 + 1000; omega
  | ⟨1, _⟩ => show win10_2.index ⟨(i 0).val / 1000, hlt⟩ (1 : Fin 2) * 128 ≤ (i 1).val ∧ (i 1).val < win10_2.index ⟨(i 0).val / 1000, hlt⟩ (1 : Fin 2) * 128 + 128; omega

/-- The output array after the launch is the whole product. -/
theorem arr (c : Dev nD) : (dat10 V c).arrAt 2 cfg10.N = matProd (M := 10000) (K := 256) (N := 128) (Xin V c) (Win V c) :=
  (dat10 V c).arrAt_eq_of_cover 2 _ (fun t _ => flushed V c t) cover

end Cert.KernelIdeal.Region10
end
-- ==== Proof.KRegion11.lean ====
/-
  Launch 11 of the kernel program: a dense aggregation. Its grid has fifty points; point t takes rows 200·t … 200·t + 199
  of the adjacency matrix, the whole feature matrix and the bias row, multiplies from a zero accumulator, adds the bias
  to every row and writes the block back as the same rows of the output. Every output row is written
  by exactly one point, so after the launch entry (r, q) of the output is Σ_k A(r, k) · H(k, q) + b(q).
-/
import proofs.«100568_j75265006895440_2_alg».proof.Proof.Gen.KernelIdeal.Frame
import proofs.«100568_j75265006895440_2_alg».proof.Proof.LibRowBlock
import proofs.«100568_j75265006895440_2_alg».proof.Proof.KSpec
import Idealize.ShloMosaic.Lib.ValueLayout
set_option maxRecDepth 16384
noncomputable section
namespace Cert.KernelIdeal.Region11
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibDotGeneralPlain

variable (V : (c : Dev nD) → (b : Ref sig .tc) → Buf (Elt Ideal) ((c : Thread nD τ).loc b))

theorem hz : (![0, 0] : Fin 2 → Nat) = fun _ => 0 := funext fun a => by fin_cases a <;> rfl

/-- The launch's three input arrays as it finds them. -/
abbrev Ain (c : Dev nD) : S10000x10000.Idx → EReal := V c (Pipeline.arrRef spec11 0)
abbrev Hin (c : Dev nD) : S10000x128.Idx → EReal := V c (Pipeline.arrRef spec11 1)
abbrev Bin (c : Dev nD) : S1x128.Idx → EReal := V c (Pipeline.arrRef spec11 2)

/-- The printed index maps over the grid: the adjacency and output windows move down one block per point, the others stay. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- What point t writes back is block t of the aggregation. -/
theorem flushed (c : Dev nD) (t : Fin cfg11.N) :
    (dat11 V c).flushed 3 t = ((cfg11.win 3).blk t).view.read (Elt Ideal)
      (Cert.KSpec.aggLin (N := 10000) (H := 128) (Ain V c) (Hin V c) (Bin V c)) := by
  show (cfg11.win 3).cut (grid11.coords t) ((dat11 V c).after 3 t) = _
  rw [after11_3]
  unfold out11_3
  rw [View.canon_unit_zero hz]
  simp only [View.ld_unit_zero (S := S200x10000) hz, View.ld_unit_zero (S := S10000x128) hz, View.ld_unit_zero (S := S1x128) hz]
  have hN : grid11.N = 50 := N_11
  have ht : t.val < 50 := lt_of_lt_of_eq t.isLt hN
  obtain ⟨e0, e1, e2, e3, e4, e5, e6, e7⟩ := idx_facts t
  funext j
  obtain ⟨p, q, rfl⟩ : ∃ (p : Fin 200) (q : Fin 128), j = ix2 p q := ⟨j 0, j 1, eq_ix2 j⟩
  have hp : p.val < 200 := p.isLt
  have hi : ((cfg11.win 3).blk t).view.emb (ix2 p q)
      = (ix2 (⟨t.val * 200 + p.val, by omega⟩ : Fin 10000) q : S10000x128.Idx) := by
    funext a; apply Fin.ext
    match a with
    | ⟨0, _⟩ => show win11_3.index t (0 : Fin 2) * 200 + 1 * p.val = t.val * 200 + p.val; omega
    | ⟨1, _⟩ => show win11_3.index t (1 : Fin 2) * 128 + 1 * q.val = q.val; omega
  show k11_pay1 (iblk11 V c 0 t) (iblk11 V c 1 t) (iblk11 V c 2 t) (ix2 p q)
    = Cert.KSpec.aggLin (N := 10000) (H := 128) (Ain V c) (Hin V c) (Bin V c) (((cfg11.win 3).blk t).view.emb (ix2 p q))
  rw [hi]
  unfold Cert.KSpec.aggLin
  rw [matProd_apply]
  show FloatOps.matmul (φ₁ := .bf16) (φ₂ := .bf16) dot_S200x10000_S10000x128_S200x128_1_0_0_1_n_n none
        (shapeCast S200x10000 (iblk11 V c 0 t) shapeCasts_S200x10000_S200x10000) (shapeCast S10000x128 (iblk11 V c 1 t) shapeCasts_S10000x128_S10000x128)
        (constant (F := Ideal) S200x128 .f32 0x00000000#32) (ix2 p q)
      + broadcastTo S200x128 (shapeCast S1x128 (iblk11 V c 2 t) shapeCasts_S1x128_S1x128) broadcasts_S1x128_S200x128 (ix2 p q) = _
  have hmm : FloatOps.matmul (φ₁ := .bf16) (φ₂ := .bf16) dot_S200x10000_S10000x128_S200x128_1_0_0_1_n_n none
        (shapeCast S200x10000 (iblk11 V c 0 t) shapeCasts_S200x10000_S200x10000) (shapeCast S10000x128 (iblk11 V c 1 t) shapeCasts_S10000x128_S10000x128)
        (constant (F := Ideal) S200x128 .f32 0x00000000#32) (ix2 p q)
      = ∑ k : Fin 10000, Ain V c (ix2 (⟨t.val * 200 + p.val, by omega⟩ : Fin 10000) k : S10000x10000.Idx) * Hin V c (ix2 k q : S10000x128.Idx) := by
    refine (Cert.LibMatmulPlain.matmul_plain_zero_apply (M := 200) (K := 10000) (N := 128) (φ₁ := .bf16) (φ₂ := .bf16)
      dot_S200x10000_S10000x128_S200x128_1_0_0_1_n_n rfl none _ _ p q).trans ?_
    refine Finset.sum_congr rfl fun k _ => ?_
    have hk : k.val < 10000 := k.isLt
    have h0 : shapeCast S200x10000 (iblk11 V c 0 t) shapeCasts_S200x10000_S200x10000 (ix2 p k)
        = Ain V c (ix2 (⟨t.val * 200 + p.val, by omega⟩ : Fin 10000) k : S10000x10000.Idx) := by
      refine (congrFun (shapeCast_self _ _) _).trans ?_
      show Ain V c (((cfg11.win 0).blk t).view.emb (ix2 p k)) = _
      congr 1
      funext a; apply Fin.ext
      match a with
      | ⟨0, _⟩ => show win11_0.index t (0 : Fin 2) * 200 + 1 * p.val = t.val * 200 + p.val; omega
      | ⟨1, _⟩ => show win11_0.index t (1 : Fin 2) * 10000 + 1 * k.val = k.val; omega
    have h1 : shapeCast S10000x128 (iblk11 V c 1 t) shapeCasts_S10000x128_S10000x128 (ix2 k q)
        = Hin V c (ix2 k q : S10000x128.Idx) := by
      refine (congrFun (shapeCast_self _ _) _).trans ?_
      show Hin V c (((cfg11.win 1).blk t).view.emb (ix2 k q)) = _
      congr 1
      funext a; apply Fin.ext
      match a with
      | ⟨0, _⟩ => show win11_1.index t (0 : Fin 2) * 10000 + 1 * k.val = k.val; omega
      | ⟨1, _⟩ => show win11_1.index t (1 : Fin 2) * 128 + 1 * q.val = q.val; omega
    rw [h0, h1]
  have hb : broadcastTo S200x128 (shapeCast S1x128 (iblk11 V c 2 t) shapeCasts_S1x128_S1x128) broadcasts_S1x128_S200x128 (ix2 p q)
      = Bin V c (ix2 (0 : Fin 1) q : S1x128.Idx) := by
    refine (broadcastTo_1b_ab_apply _ _ p q).trans ?_
    refine (congrFun (shapeCast_self _ _) _).trans ?_
    show Bin V c (((cfg11.win 2).blk t).view.emb (ix2 (0 : Fin 1) q)) = _
    congr 1
    funext a; apply Fin.ext
    match a with
    | ⟨0, _⟩ => show win11_2.index t (0 : Fin 2) * 1 + 1 * 0 = 0; omega
    | ⟨1, _⟩ => show win11_2.index t (1 : Fin 2) * 128 + 1 * q.val = q.val; omega
  rw [hmm, hb]

/-- An index of the output array lies in point t's block iff each coordinate lies in the block's range. -/
theorem mem_blk (t : Fin cfg11.N) (i : S10000x128.Idx) :
    i ∈ ((cfg11.win 3).blk t).view.set ↔ ∀ a : Fin 2, win11_3.index t a * S200x128.size a ≤ (i a).val ∧ (i a).val < win11_3.index t a * S200x128.size a + S200x128.size a := by
  show i ∈ ((View.whole main_v109).slice (win11_3.rect t)).set ↔ _
  rw [View.set_slice_whole, Rect.mem_set_unit]
  exact Iff.rfl

/-- Row r of the output is written by point r / 200. -/
theorem cover (i : S10000x128.Idx) : ∃ t : Fin cfg11.N, (cfg11.win 3).flush t = true ∧ i ∈ ((cfg11.win 3).blk t).view.set := by
  have hN : grid11.N = 50 := N_11
  have hi0 : (i 0).val < 10000 := (i 0).isLt
  have hi1 : (i 1).val < 128 := (i 1).isLt
  have hlt : (i 0).val / 200 < cfg11.N := by show _ < grid11.N; omega
  obtain ⟨e0, e1, e2, e3, e4, e5, e6, e7⟩ := idx_facts ⟨(i 0).val / 200, hlt⟩
  have e6' : win11_3.index ⟨(i 0).val / 200, hlt⟩ (0 : Fin 2) = (i 0).val / 200 := e6
  refine ⟨⟨(i 0).val / 200, hlt⟩, flush11_3 _, ?_⟩
  rw [mem_blk]
  intro a
  match a with
  | ⟨0, _⟩ => show win11_3.index ⟨(i 0).val / 200, hlt⟩ (0 : Fin 2) * 200 ≤ (i 0).val ∧ (i 0).val < win11_3.index ⟨(i 0).val / 200, hlt⟩ (0 : Fin 2) * 200 + 200; omega
  | ⟨1, _⟩ => show win11_3.index ⟨(i 0).val / 200, hlt⟩ (1 : Fin 2) * 128 ≤ (i 1).val ∧ (i 1).val < win11_3.index ⟨(i 0).val / 200, hlt⟩ (1 : Fin 2) * 128 + 128; omega

/-- The output array after the launch is the whole aggregation. -/
theorem arr (c : Dev nD) : (dat11 V c).arrAt 3 cfg11.N = Cert.KSpec.aggLin (N := 10000) (H := 128) (Ain V c) (Hin V c) (Bin V c) :=
  (dat11 V c).arrAt_eq_of_cover 3 _ (fun t _ => flushed V c t) cover

end Cert.KernelIdeal.Region11
end
-- ==== Proof.Bridge.lean ====
/-
  One stream of the reference is the dense stack of graph convolutions over the normalised adjacency matrix.

  The reference computes a convolution edge by edge: it multiplies the features by the layer's matrix, reads for every
  edge e the product's row at the source of e, scales it by the edge weight ν e = dinv(src e) · dinv(dst e), adds the
  scaled rows into the rows at the destinations, and adds the bias to every row. The dense form first collects the
  weights into the N×N matrix A with A[d, s] = 0 + ∑ { ν e : dst e = d, src e = s } and then takes A · (X · W) + b.

  The two agree under the precondition. (0) Every entry of the edge array is a node number in [0, N), hence so is every
  entry of the source and destination lists extended by the self-loops, and on such lists the wrap of negative indices
  (v + N where v < 0) is the identity. (1) The edge weights are real numbers: the in-degree is a finite sum of ones, its
  reciprocal square root is taken only where it is positive and 0 stands elsewhere, and a product of two such reads is
  real. The features and the layer's matrix are real, so their product is real. With real numbers the product
  distributes over the sums, and the per-edge accumulation into row d equals row d of A · (X · W); the bias vector,
  placed as a row and copied to every row, adds b[f] at (d, f) in both forms. (2) max(·, 0) entry by entry is the same
  on both sides, and its result is again real, as are the entries of A (finite sums of real weights). (3) Three layers
  composed: each layer's input is real, being the features or the previous layer's max(A · (X · W) + b, 0).
-/
import proofs.«100568_j75265006895440_2_alg».proof.Proof.RefSpec
import proofs.«100568_j75265006895440_2_alg».proof.Proof.KSpec
import proofs.«100568_j75265006895440_2_alg».proof.Proof.LibGcnLayer
import proofs.«100568_j75265006895440_2_alg».proof.Proof.LibEdgeIndex
import proofs.«100568_j75265006895440_2_alg».proof.Proof.LibDegreeNorm
import proofs.«100568_j75265006895440_2_alg».proof.Proof.LibScatterGatherRead
import proofs.«100568_j75265006895440_2_alg».proof.Proof.LibDotGeneralPlain
import proofs.«100568_j75265006895440_2_alg».proof.Proof.LibHostBroadcast

noncomputable section

open scoped BigOperators

namespace Cert.Bridge

open Cert.ReferenceIdeal Cert.KSpec Cert.LibGcnLayer Cert.LibRealEntries Cert.LibDotGeneralPlain
open Idealize.ShloMosaic Idealize.ShloMosaic.ValueIdx

/-- The extended source list holds node numbers. -/
theorem srcExt_range (x1 : IVec S2x320000 32) (hx1 : ∀ i, 0 ≤ (x1 i).toInt ∧ (x1 i).toInt < 10000) (e : S330000.Idx) :
    0 ≤ (RefSpec.srcExt x1 e).toInt ∧ (RefSpec.srcExt x1 e).toInt < 10000 :=
  LibEdgeIndex.ext_range _ x1 _ _ _ hx1 e

/-- The extended destination list holds node numbers. -/
theorem dstExt_range (x1 : IVec S2x320000 32) (hx1 : ∀ i, 0 ≤ (x1 i).toInt ∧ (x1 i).toInt < 10000) (e : S330000.Idx) :
    0 ≤ (RefSpec.dstExt x1 e).toInt ∧ (RefSpec.dstExt x1 e).toInt < 10000 :=
  LibEdgeIndex.ext_range _ x1 _ _ _ hx1 e

/-- On node numbers the wrap of negative indices changes nothing. -/
theorem wrapI_srcExt (x1 : IVec S2x320000 32) (hx1 : ∀ i, 0 ≤ (x1 i).toInt ∧ (x1 i).toInt < 10000) :
    RefSpec.wrapI (RefSpec.srcExt x1) = RefSpec.srcExt x1 :=
  LibEdgeIndex.wrap_eq _ _ _ (fun _ => rfl) (fun _ => rfl) (srcExt_range x1 hx1)

theorem wrapI_dstExt (x1 : IVec S2x320000 32) (hx1 : ∀ i, 0 ≤ (x1 i).toInt ∧ (x1 i).toInt < 10000) :
    RefSpec.wrapI (RefSpec.dstExt x1) = RefSpec.dstExt x1 :=
  LibEdgeIndex.wrap_eq _ _ _ (fun _ => rfl) (fun _ => rfl) (dstExt_range x1 hx1)

/-- The edge weights are real numbers. -/
theorem norm_allReal (x1 : IVec S2x320000 32) : AllReal (RefSpec.norm (F := Ideal) x1) :=
  LibDegreeNorm.norm_allReal _ _ _ _ _ _ (fun i => LibDegreeNorm.const_zero _ i) (fun i => LibDegreeNorm.const_zero _ i)
    (fun i => LibDegreeNorm.const_zero _ i) (fun e => LibDegreeNorm.const_one _ e) _ _ _

/-- A bias vector placed as a row and copied to every row reads its entry f at (d, f). -/
theorem bias_apply {n H : ℕ} (b : (⟨1, ![H]⟩ : Shape).Idx → EReal)
    (h1 : (⟨1, ![H]⟩ : Shape).BroadcastsInDim ⟨2, ![1, H]⟩ (![1] : Fin 1 → Fin (⟨2, ![1, H]⟩ : Shape).rank))
    (h2 : (⟨2, ![1, H]⟩ : Shape).BroadcastsInDim ⟨2, ![n, H]⟩ (![0, 1] : Fin 2 → Fin (⟨2, ![n, H]⟩ : Shape).rank))
    (d : Fin n) (f : Fin H) :
    broadcastInDim ⟨2, ![n, H]⟩ ![0, 1] h2 (broadcastInDim ⟨2, ![1, H]⟩ ![1] h1 b) (ix2 d f) = b (ix1 f) := by
  rw [LibHostBroadcast.bcast_1b_ab_apply (![0, 1] : Fin 2 → Fin (⟨2, ![n, H]⟩ : Shape).rank) rfl h2,
    LibHostBroadcast.bcast_b_1b_apply (![1] : Fin 1 → Fin (⟨2, ![1, H]⟩ : Shape).rank) rfl h1]

open Classical in
/-- One convolution to 256 features is the dense form A · (X · W) + b. -/
theorem conv256_eq (x1 : IVec S2x320000 32) (hx1 : ∀ i, 0 ≤ (x1 i).toInt ∧ (x1 i).toInt < 10000)
    (X : FVec Ideal S10000x256 .f32) (W : FVec Ideal S256x256 .f32) (b : FVec Ideal S256 .f32)
    (hX : AllReal X) (hW : AllReal W)
    (A : (⟨2, ![10000, 10000]⟩ : Shape).Idx → EReal)
    (hA : ∀ d s : Fin 10000, A (ix2 d s) = 0 + ∑ e ∈ Finset.univ.filter (fun e : Fin 330000 =>
        node (by decide : 0 < 10000) (RefSpec.col (RefSpec.dstExt x1)) e = d
          ∧ node (by decide : 0 < 10000) (RefSpec.col (RefSpec.srcExt x1)) e = s), RefSpec.norm (F := Ideal) x1 (ix1 e))
    (br : (⟨2, ![1, 256]⟩ : Shape).Idx → EReal) (hbr : ∀ q : Fin 256, br (ix2 0 q) = b (ix1 q)) :
    RefSpec.conv256 (F := Ideal) x1 X W b = KSpec.aggLin A (matProd X W) br := by
  funext i
  obtain ⟨d, f, rfl⟩ : ∃ (d : Fin 10000) (f : Fin 256), i = ix2 d f := ⟨i 0, i 1, eq_ix2 i⟩
  have hdot : Host.dotGeneral (F := Ideal) dot_S10000x256_S256x256_S10000x256_1_0_0_1_n_n none X W = matProd X W :=
    dotGeneral_plain_eq _ rfl none .single X W
  unfold RefSpec.conv256 KSpec.aggLin
  rw [addf_apply, hdot]
  refine congrArg₂ (· + ·) ?_ ?_
  · unfold RefSpec.agg256
    rw [wrapI_srcExt x1 hx1]
    exact sparse_eq_dense (by decide) _ _ _ (fun i => LibDegreeNorm.const_zero _ i) _ _
      (fun e => by rw [RefSpec.col, LibEdgeIndex.col_apply]; exact dstExt_range x1 hx1 _) _ (matProd_allReal hX hW) _
      (fun e => RefSpec.norm (F := Ideal) x1 (ix1 e)) (fun e => norm_allReal x1 _)
      (fun j => LibEdgeIndex.col_spread_apply _ _ _ j) A hA d f
  · rw [bias_apply, hbr]

open Classical in
/-- One convolution to 128 features is the dense form A · (X · W) + b. -/
theorem conv128_eq (x1 : IVec S2x320000 32) (hx1 : ∀ i, 0 ≤ (x1 i).toInt ∧ (x1 i).toInt < 10000)
    (X : FVec Ideal S10000x256 .f32) (W : FVec Ideal S256x128 .f32) (b : FVec Ideal S128 .f32)
    (hX : AllReal X) (hW : AllReal W)
    (A : (⟨2, ![10000, 10000]⟩ : Shape).Idx → EReal)
    (hA : ∀ d s : Fin 10000, A (ix2 d s) = 0 + ∑ e ∈ Finset.univ.filter (fun e : Fin 330000 =>
        node (by decide : 0 < 10000) (RefSpec.col (RefSpec.dstExt x1)) e = d
          ∧ node (by decide : 0 < 10000) (RefSpec.col (RefSpec.srcExt x1)) e = s), RefSpec.norm (F := Ideal) x1 (ix1 e))
    (br : (⟨2, ![1, 128]⟩ : Shape).Idx → EReal) (hbr : ∀ q : Fin 128, br (ix2 0 q) = b (ix1 q)) :
    RefSpec.conv128 (F := Ideal) x1 X W b = KSpec.aggLin A (matProd X W) br := by
  funext i
  obtain ⟨d, f, rfl⟩ : ∃ (d : Fin 10000) (f : Fin 128), i = ix2 d f := ⟨i 0, i 1, eq_ix2 i⟩
  have hdot : Host.dotGeneral (F := Ideal) dot_S10000x256_S256x128_S10000x128_1_0_0_1_n_n none X W = matProd X W :=
    dotGeneral_plain_eq _ rfl none .single X W
  unfold RefSpec.conv128 KSpec.aggLin
  rw [addf_apply, hdot]
  refine congrArg₂ (· + ·) ?_ ?_
  · unfold RefSpec.agg128
    rw [wrapI_srcExt x1 hx1]
    exact sparse_eq_dense (by decide) _ _ _ (fun i => LibDegreeNorm.const_zero _ i) _ _
      (fun e => by rw [RefSpec.col, LibEdgeIndex.col_apply]; exact dstExt_range x1 hx1 _) _ (matProd_allReal hX hW) _
      (fun e => RefSpec.norm (F := Ideal) x1 (ix1 e)) (fun e => norm_allReal x1 _)
      (fun j => LibEdgeIndex.col_spread_apply _ _ _ j) A hA d f
  · rw [bias_apply, hbr]

/-- max(·, 0) after the dense form is the dense form with max(·, 0). -/
theorem relu256_aggLin (A : (⟨2, ![10000, 10000]⟩ : Shape).Idx → EReal) (Hm : (⟨2, ![10000, 256]⟩ : Shape).Idx → EReal)
    (br : (⟨2, ![1, 256]⟩ : Shape).Idx → EReal) :
    RefSpec.relu256 (F := Ideal) (KSpec.aggLin A Hm br) = KSpec.aggRelu A Hm br := by
  funext i
  unfold RefSpec.relu256 KSpec.aggRelu
  rw [maximumf_apply, LibDegreeNorm.const_zero]

/-- The adjacency matrix has real entries: each is a finite sum of edge weights. -/
theorem adjacency_allReal (x1 : IVec S2x320000 32) (A : (⟨2, ![10000, 10000]⟩ : Shape).Idx → EReal)
    (P : Fin 10000 → Fin 10000 → Finset (Fin 330000))
    (hA : ∀ d s : Fin 10000, A (ix2 d s) = 0 + ∑ e ∈ P d s, RefSpec.norm (F := Ideal) x1 (ix1 e)) : AllReal A := fun i => by
  obtain ⟨d, s, rfl⟩ : ∃ (d s : Fin 10000), i = ix2 d s := ⟨i 0, i 1, eq_ix2 i⟩
  rw [hA]
  exact IsReal.zero.add (IsReal.sum _ _ fun e _ => norm_allReal x1 _)

/-- A bias row that reads a real vector has real entries. -/
theorem row_allReal {H : ℕ} (b : (⟨1, ![H]⟩ : Shape).Idx → EReal) (hb : AllReal b) (br : (⟨2, ![1, H]⟩ : Shape).Idx → EReal)
    (hbr : ∀ q : Fin H, br (ix2 0 q) = b (ix1 q)) : AllReal br := fun i => by
  obtain ⟨u, q, rfl⟩ : ∃ (u : Fin 1) (q : Fin H), i = ix2 u q := ⟨i 0, i 1, eq_ix2 i⟩
  obtain rfl : u = 0 := Subsingleton.elim _ _
  rw [hbr]
  exact hb _

open Classical in
/-- THE BRIDGE: one stream of the reference is the dense stack over the adjacency matrix. -/
theorem stack_eq (x1 : IVec S2x320000 32) (hx1 : ∀ i, 0 ≤ (x1 i).toInt ∧ (x1 i).toInt < 10000)
    (X : FVec Ideal S10000x256 .f32) (W1 : FVec Ideal S256x256 .f32) (b1 : FVec Ideal S256 .f32)
    (W2 : FVec Ideal S256x256 .f32) (b2 : FVec Ideal S256 .f32) (W3 : FVec Ideal S256x128 .f32) (b3 : FVec Ideal S128 .f32)
    (hX : AllReal X) (hW1 : AllReal W1) (hb1 : AllReal b1) (hW2 : AllReal W2) (hb2 : AllReal b2) (hW3 : AllReal W3)
    (hb3 : AllReal b3)
    (A : (⟨2, ![10000, 10000]⟩ : Shape).Idx → EReal)
    (hA : ∀ d s : Fin 10000, A (ix2 d s) = 0 + ∑ e ∈ Finset.univ.filter (fun e : Fin 330000 =>
        node (by decide : 0 < 10000) (RefSpec.col (RefSpec.dstExt x1)) e = d
          ∧ node (by decide : 0 < 10000) (RefSpec.col (RefSpec.srcExt x1)) e = s), RefSpec.norm (F := Ideal) x1 (ix1 e))
    (b1r : (⟨2, ![1, 256]⟩ : Shape).Idx → EReal) (b2r : (⟨2, ![1, 256]⟩ : Shape).Idx → EReal)
    (b3r : (⟨2, ![1, 128]⟩ : Shape).Idx → EReal)
    (h1r : ∀ q : Fin 256, b1r (ix2 0 q) = b1 (ix1 q)) (h2r : ∀ q : Fin 256, b2r (ix2 0 q) = b2 (ix1 q))
    (h3r : ∀ q : Fin 128, b3r (ix2 0 q) = b3 (ix1 q)) :
    RefSpec.stack (F := Ideal) x1 X W1 b1 W2 b2 W3 b3 = KSpec.stack A X W1 b1r W2 b2r W3 b3r := by
  have hAr : AllReal A := adjacency_allReal x1 A _ hA
  have hr1 : AllReal b1r := row_allReal b1 hb1 b1r h1r
  have hr2 : AllReal b2r := row_allReal b2 hb2 b2r h2r
  have hL1 : AllReal (KSpec.aggRelu A (matProd X W1) b1r) := aggRelu_allReal hAr (matProd_allReal hX hW1) hr1
  have hL2 : AllReal (KSpec.aggRelu A (matProd (KSpec.aggRelu A (matProd X W1) b1r) W2) b2r) :=
    aggRelu_allReal hAr (matProd_allReal hL1 hW2) hr2
  unfold RefSpec.stack KSpec.stack
  rw [conv256_eq x1 hx1 X W1 b1 hX hW1 A hA b1r h1r, relu256_aggLin,
    conv256_eq x1 hx1 _ W2 b2 hL1 hW2 A hA b2r h2r, relu256_aggLin,
    conv128_eq x1 hx1 _ W3 b3 hL2 hW3 A hA b3r h3r]

end Cert.Bridge

end
-- ==== Proof.Assembly.lean ====
/-
  The two programs agree at the ideal values: the assembly.

  Suppose the kernel program, run from any memory, ends with each of its two results at the dense stack of three graph
  convolutions, A · (X · W) + b with max(·, 0) after the first two, where A is an N×N matrix determined by the stream's
  edge array and where, whenever every entry of the edge array is a node number in [0, N), A[d, s] is 0 plus the sum of
  the edge weights over the edges from s to d (self-loops included). The reference program ends with each result at the
  edge-by-edge stack of its stream's arguments. Under the precondition every float argument has real entries and the
  edge arrays hold node numbers, so the edge-by-edge stack equals the dense stack over that A; the two memories agree
  on the arguments, so both programs end with the same two results. A bias vector enters the dense form as a one-row
  matrix: the reshape of a vector of length n to 1×n keeps the row-major position, so its entry (0, q) is the vector's
  entry q.
-/
import proofs.«100568_j75265006895440_2_alg».proof.Defs
import proofs.«100568_j75265006895440_2_alg».proof.Proof.RefSide
import proofs.«100568_j75265006895440_2_alg».proof.Proof.Bridge
import proofs.«100568_j75265006895440_2_alg».proof.Proof.Gen.KernelIdeal
import Idealize.ShloMosaic.Lib.Pipeline.Value

noncomputable section

open scoped BigOperators

namespace Cert.Assembly

open Idealize.ShloMosaic Idealize.ShloMosaic.ValueIdx Idealize.SL.Sem Cert.LibRealEntries Cert.LibGcnLayer
open Cert.KernelIdeal.Facts₀

/-- A bias vector of length 256 as a one-row matrix. -/
abbrev row256 (b : FVec Ideal Cert.KernelIdeal.S256 .f32) : (⟨2, ![1, 256]⟩ : Shape).Idx → EReal :=
  shapeCast Cert.KernelIdeal.S1x256 b shapeCasts_S256_S1x256

/-- A bias vector of length 128 as a one-row matrix. -/
abbrev row128 (b : FVec Ideal Cert.KernelIdeal.S128 .f32) : (⟨2, ![1, 128]⟩ : Shape).Idx → EReal :=
  shapeCast Cert.KernelIdeal.S1x128 b shapeCasts_S128_S1x128

/-- The one-row matrix reads the vector's entry q at (0, q): both have row-major position q. -/
theorem row256_apply (b : FVec Ideal Cert.KernelIdeal.S256 .f32) (q : Fin 256) : row256 b (ix2 0 q) = b (ix1 q) := by
  refine shapeCast_apply b _ (ix2 0 q) (ix1 q) ?_
  rw [Shape.rowMajor_val_one, Shape.rowMajor_val_two]
  show q.val = 0 * 256 + q.val
  omega

theorem row128_apply (b : FVec Ideal Cert.KernelIdeal.S128 .f32) (q : Fin 128) : row128 b (ix2 0 q) = b (ix1 q) := by
  refine shapeCast_apply b _ (ix2 0 q) (ix1 q) ?_
  rw [Shape.rowMajor_val_one, Shape.rowMajor_val_two]
  show q.val = 0 * 128 + q.val
  omega

open Classical in
/-- If the kernel ends at the dense stacks over an adjacency matrix that, on edge arrays of node numbers, collects the
    edge weights, then kernel and reference end with equal results and unchanged arguments. -/
theorem algebraic_of
    (Ahat : IVec Cert.KernelIdeal.S2x320000 32 → (⟨2, ![10000, 10000]⟩ : Shape).Idx → EReal)
    (hAhat : ∀ x1 : IVec Cert.KernelIdeal.S2x320000 32, (∀ i, 0 ≤ (x1 i).toInt ∧ (x1 i).toInt < 10000) → ∀ d s : Fin 10000,
      Ahat x1 (ix2 d s) = 0 + ∑ e ∈ Finset.univ.filter (fun e : Fin 330000 =>
        node (by decide : 0 < 10000) (Cert.RefSpec.col (Cert.RefSpec.dstExt x1)) e = d
          ∧ node (by decide : 0 < 10000) (Cert.RefSpec.col (Cert.RefSpec.srcExt x1)) e = s),
        Cert.RefSpec.norm (F := Ideal) x1 (ix1 e))
    (hk : ∀ (m : (ℓ : Loc Cert.KernelIdeal.nD Cert.KernelIdeal.τ Cert.KernelIdeal.sig) → Buf (Elt Ideal) ℓ)
        (ρ : Dev Cert.KernelIdeal.nD → PrngReg),
        θ_run (Cert.KernelIdeal.defs (F := Ideal)) (onTc (τ := Cert.KernelIdeal.τ) (Cert.KernelIdeal.main (F := Ideal)))
          ⟨m, fun _ => 0, ρ⟩ (fun r => ∀ c : Dev Cert.KernelIdeal.nD,
          r.2.mem ((c.tc : Thread Cert.KernelIdeal.nD Cert.KernelIdeal.τ).loc Cert.KernelIdeal.main_v54) = Cert.KSpec.stack (Ahat (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (row256 (m ((c.tc : Thread Cert.KernelIdeal.nD Cert.KernelIdeal.τ).loc Cert.KernelIdeal.main_arg5)))
            (m ((c.tc : Thread Cert.KernelIdeal.nD Cert.KernelIdeal.τ).loc Cert.KernelIdeal.main_arg6)) (row256 (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (row128 (m ((c.tc : Thread Cert.KernelIdeal.nD Cert.KernelIdeal.τ).loc Cert.KernelIdeal.main_arg9)))
          ∧ r.2.mem ((c.tc : Thread Cert.KernelIdeal.nD Cert.KernelIdeal.τ).loc Cert.KernelIdeal.main_v109) = Cert.KSpec.stack (Ahat (m ((c.tc : Thread Cert.KernelIdeal.nD Cert.KernelIdeal.τ).loc Cert.KernelIdeal.main_arg3))) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (row256 (m ((c.tc : Thread Cert.KernelIdeal.nD Cert.KernelIdeal.τ).loc Cert.KernelIdeal.main_arg11)))
            (m ((c.tc : Thread Cert.KernelIdeal.nD Cert.KernelIdeal.τ).loc Cert.KernelIdeal.main_arg12)) (row256 (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (row128 (m ((c.tc : Thread Cert.KernelIdeal.nD Cert.KernelIdeal.τ).loc Cert.KernelIdeal.main_arg15)))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KSpec.stack (Ahat (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (row256 (m ((c.tc : Thread Cert.KernelIdeal.nD Cert.KernelIdeal.τ).loc Cert.KernelIdeal.main_arg5)))
            (m ((c.tc : Thread Cert.KernelIdeal.nD Cert.KernelIdeal.τ).loc Cert.KernelIdeal.main_arg6)) (row256 (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (row128 (m ((c.tc : Thread Cert.KernelIdeal.nD Cert.KernelIdeal.τ).loc Cert.KernelIdeal.main_arg9))),
    fun c => Cert.KSpec.stack (Ahat (m ((c.tc : Thread Cert.KernelIdeal.nD Cert.KernelIdeal.τ).loc Cert.KernelIdeal.main_arg3))) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (row256 (m ((c.tc : Thread Cert.KernelIdeal.nD Cert.KernelIdeal.τ).loc Cert.KernelIdeal.main_arg11)))
            (m ((c.tc : Thread Cert.KernelIdeal.nD Cert.KernelIdeal.τ).loc Cert.KernelIdeal.main_arg12)) (row256 (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (row128 (m ((c.tc : Thread Cert.KernelIdeal.nD Cert.KernelIdeal.τ).loc Cert.KernelIdeal.main_arg15))), hk m ρ, ?_⟩
  refine (θ_run Cert.ReferenceIdeal.defs _ _).mono (fun r h c => ?_) (Cert.RefSide.ref_run m' ρ')
  obtain ⟨⟨r0, r2, r4, r5, r6, r7, r8, r9, r10, r11, r12, r13, r14, r15⟩, hx1, hx3⟩ := Cert.RefSide.pre_facts m hpre c
  obtain ⟨e0, e1, e2, e3, e4, e5, e6, e7, e8, e9, e10, e11, e12, e13, e14, e15⟩ := hagree c
  refine ⟨(h c).1.trans ?_, (h c).2.1.trans ?_, (h c).2.2⟩
  · rw [e0, e1, e4, e5, e6, e7, e8, e9]
    exact Cert.Bridge.stack_eq _ hx1 _ _ _ _ _ _ _ r0 r4 r5 r6 r7 r8 r9 _ (hAhat _ hx1) _ _ _
      (row256_apply _) (row256_apply _) (row128_apply _)
  · rw [e2, e3, e10, e11, e12, e13, e14, e15]
    exact Cert.Bridge.stack_eq _ hx3 _ _ _ _ _ _ _ r2 r10 r11 r12 r13 r14 r15 _ (hAhat _ hx3) _ _ _
      (row256_apply _) (row256_apply _) (row128_apply _)

end Cert.Assembly

end
-- ==== Proof.KVal.lean ====
/-
  The idealized kernel's two results as dense stacks of graph convolutions.

  Each stream of the kernel program is: the dense normalised adjacency A built once by the host (a scatter-add of the
  edge weights into an N×N zero matrix), then three times a dense transform launch (X · W, row blocks of 1000)
  followed by a dense aggregation launch (A · H + b, row blocks of 200, max(·, 0) after the first two). Launch by
  launch, the output array of each is the whole product or aggregation of the arrays it was launched on; those arrays
  are the previous launch's output, an argument of the program as launched, the host's reshape of a bias argument to
  one row, or the adjacency carried unchanged from where the host built it. Composed, each result buffer ends at
  `KSpec.stack A X W₁ b₁ W₂ b₂ W₃ b₃` of the program's arguments.
-/
import proofs.«100568_j75265006895440_2_alg».proof.Proof.KernelRun
import proofs.«100568_j75265006895440_2_alg».proof.Proof.KCarry
import proofs.«100568_j75265006895440_2_alg».proof.Proof.KAdj
import proofs.«100568_j75265006895440_2_alg».proof.Proof.KRegion0
import proofs.«100568_j75265006895440_2_alg».proof.Proof.KRegion1
import proofs.«100568_j75265006895440_2_alg».proof.Proof.KRegion2
import proofs.«100568_j75265006895440_2_alg».proof.Proof.KRegion3
import proofs.«100568_j75265006895440_2_alg».proof.Proof.KRegion4
import proofs.«100568_j75265006895440_2_alg».proof.Proof.KRegion5
import proofs.«100568_j75265006895440_2_alg».proof.Proof.KRegion6
import proofs.«100568_j75265006895440_2_alg».proof.Proof.KRegion7
import proofs.«100568_j75265006895440_2_alg».proof.Proof.KRegion8
import proofs.«100568_j75265006895440_2_alg».proof.Proof.KRegion9
import proofs.«100568_j75265006895440_2_alg».proof.Proof.KRegion10
import proofs.«100568_j75265006895440_2_alg».proof.Proof.KRegion11
import proofs.«100568_j75265006895440_2_alg».proof.Proof.KSpec
import proofs.«100568_j75265006895440_2_alg».proof.Proof.Assembly

set_option maxRecDepth 16384
noncomputable section
namespace Cert.KVal
open Cert.KernelIdeal Cert.KernelIdeal.Gen
open Idealize.ShloMosaic Idealize.ShloMosaic.TcCoe Idealize.ShloMosaic.ValueIdx
open Idealize.SL Idealize.SL.Sem
open Cert.LibDotGeneralPlain Cert.KSpec
open Cert.Assembly (row256 row128)

variable (m : (ℓ : Loc nD τ sig) → Buf (Elt Ideal) ℓ) (ρ : Dev nD → PrngReg)

/-- The first transform of the x stream. -/
theorem xh1 (c : Dev nD) : (W4 m ρ c (Proc.devRef .tc main_v46) : S10000x256.Idx → EReal) = (matProd (M := 10000) (K := 256) (N := 256) (m ((c : Thread nD τ).loc main_arg0)) (m ((c : Thread nD τ).loc main_arg4))) := by
  refine (W4_arr m ρ c 2).trans ?_
  refine (Cert.KernelIdeal.Region0.arr (V3 m ρ) c).trans ?_
  show matProd (M := 10000) (K := 256) (N := 256) (W3 m ρ c (Proc.devRef .tc main_arg0)) (W3 m ρ c (Proc.devRef .tc main_arg4)) = _
  rw [Cert.KCarry.W3_arg0 m ρ c, Cert.KCarry.W3_arg4 m ρ c]

/-- The first aggregation of the x stream. -/
theorem xx1 (c : Dev nD) : (W6 m ρ c (Proc.devRef .tc main_v48) : S10000x256.Idx → EReal) = (aggRelu (N := 10000) (H := 256) (W3 m ρ c (Proc.devRef .tc main_v45)) (matProd (M := 10000) (K := 256) (N := 256) (m ((c : Thread nD τ).loc main_arg0)) (m ((c : Thread nD τ).loc main_arg4))) (row256 (m ((c : Thread nD τ).loc main_arg5)))) := by
  refine (W6_arr m ρ c 3).trans ?_
  refine (Cert.KernelIdeal.Region1.arr (V5 m ρ) c).trans ?_
  show aggRelu (N := 10000) (H := 256) (W5 m ρ c (Proc.devRef .tc main_v45)) (W5 m ρ c (Proc.devRef .tc main_v46)) (W5 m ρ c (Proc.devRef .tc main_v47)) = _
  rw [Cert.KCarry.W5_v45 m ρ c, Cert.KCarry.W5_v46 m ρ c, Cert.KCarry.W5_v47 m ρ c, Cert.KCarry.W4_arg5 m ρ c, xh1 m ρ c]

/-- The second transform of the x stream. -/
theorem xh2 (c : Dev nD) : (W7 m ρ c (Proc.devRef .tc main_v49) : S10000x256.Idx → EReal) = (matProd (M := 10000) (K := 256) (N := 256) (aggRelu (N := 10000) (H := 256) (W3 m ρ c (Proc.devRef .tc main_v45)) (matProd (M := 10000) (K := 256) (N := 256) (m ((c : Thread nD τ).loc main_arg0)) (m ((c : Thread nD τ).loc main_arg4))) (row256 (m ((c : Thread nD τ).loc main_arg5)))) (m ((c : Thread nD τ).loc main_arg6))) := by
  refine (W7_arr m ρ c 2).trans ?_
  refine (Cert.KernelIdeal.Region2.arr (V6 m ρ) c).trans ?_
  show matProd (M := 10000) (K := 256) (N := 256) (W6 m ρ c (Proc.devRef .tc main_v48)) (W6 m ρ c (Proc.devRef .tc main_arg6)) = _
  rw [xx1 m ρ c, Cert.KCarry.W6_arg6 m ρ c]

/-- The second aggregation of the x stream. -/
theorem xx2 (c : Dev nD) : (W9 m ρ c (Proc.devRef .tc main_v51) : S10000x256.Idx → EReal) = (aggRelu (N := 10000) (H := 256) (W3 m ρ c (Proc.devRef .tc main_v45)) (matProd (M := 10000) (K := 256) (N := 256) (aggRelu (N := 10000) (H := 256) (W3 m ρ c (Proc.devRef .tc main_v45)) (matProd (M := 10000) (K := 256) (N := 256) (m ((c : Thread nD τ).loc main_arg0)) (m ((c : Thread nD τ).loc main_arg4))) (row256 (m ((c : Thread nD τ).loc main_arg5)))) (m ((c : Thread nD τ).loc main_arg6))) (row256 (m ((c : Thread nD τ).loc main_arg7)))) := by
  refine (W9_arr m ρ c 3).trans ?_
  refine (Cert.KernelIdeal.Region3.arr (V8 m ρ) c).trans ?_
  show aggRelu (N := 10000) (H := 256) (W8 m ρ c (Proc.devRef .tc main_v45)) (W8 m ρ c (Proc.devRef .tc main_v49)) (W8 m ρ c (Proc.devRef .tc main_v50)) = _
  rw [Cert.KCarry.W8_v45 m ρ c, Cert.KCarry.W8_v49 m ρ c, Cert.KCarry.W8_v50 m ρ c, Cert.KCarry.W7_arg7 m ρ c, xh2 m ρ c]

/-- The third transform of the x stream. -/
theorem xh3 (c : Dev nD) : (W10 m ρ c (Proc.devRef .tc main_v52) : S10000x128.Idx → EReal) = (matProd (M := 10000) (K := 256) (N := 128) (aggRelu (N := 10000) (H := 256) (W3 m ρ c (Proc.devRef .tc main_v45)) (matProd (M := 10000) (K := 256) (N := 256) (aggRelu (N := 10000) (H := 256) (W3 m ρ c (Proc.devRef .tc main_v45)) (matProd (M := 10000) (K := 256) (N := 256) (m ((c : Thread nD τ).loc main_arg0)) (m ((c : Thread nD τ).loc main_arg4))) (row256 (m ((c : Thread nD τ).loc main_arg5)))) (m ((c : Thread nD τ).loc main_arg6))) (row256 (m ((c : Thread nD τ).loc main_arg7)))) (m ((c : Thread nD τ).loc main_arg8))) := by
  refine (W10_arr m ρ c 2).trans ?_
  refine (Cert.KernelIdeal.Region4.arr (V9 m ρ) c).trans ?_
  show matProd (M := 10000) (K := 256) (N := 128) (W9 m ρ c (Proc.devRef .tc main_v51)) (W9 m ρ c (Proc.devRef .tc main_arg8)) = _
  rw [xx2 m ρ c, Cert.KCarry.W9_arg8 m ρ c]

/-- The third aggregation of the x stream. -/
theorem xx3 (c : Dev nD) : (W12 m ρ c (Proc.devRef .tc main_v54) : S10000x128.Idx → EReal) = (aggLin (N := 10000) (H := 128) (W3 m ρ c (Proc.devRef .tc main_v45)) (matProd (M := 10000) (K := 256) (N := 128) (aggRelu (N := 10000) (H := 256) (W3 m ρ c (Proc.devRef .tc main_v45)) (matProd (M := 10000) (K := 256) (N := 256) (aggRelu (N := 10000) (H := 256) (W3 m ρ c (Proc.devRef .tc main_v45)) (matProd (M := 10000) (K := 256) (N := 256) (m ((c : Thread nD τ).loc main_arg0)) (m ((c : Thread nD τ).loc main_arg4))) (row256 (m ((c : Thread nD τ).loc main_arg5)))) (m ((c : Thread nD τ).loc main_arg6))) (row256 (m ((c : Thread nD τ).loc main_arg7)))) (m ((c : Thread nD τ).loc main_arg8))) (row128 (m ((c : Thread nD τ).loc main_arg9)))) := by
  refine (W12_arr m ρ c 3).trans ?_
  refine (Cert.KernelIdeal.Region5.arr (V11 m ρ) c).trans ?_
  show aggLin (N := 10000) (H := 128) (W11 m ρ c (Proc.devRef .tc main_v45)) (W11 m ρ c (Proc.devRef .tc main_v52)) (W11 m ρ c (Proc.devRef .tc main_v53)) = _
  rw [Cert.KCarry.W11_v45 m ρ c, Cert.KCarry.W11_v52 m ρ c, Cert.KCarry.W11_v53 m ρ c, Cert.KCarry.W10_arg9 m ρ c, xh3 m ρ c]

/-- The first transform of the y stream. -/
theorem yh1 (c : Dev nD) : (W16 m ρ c (Proc.devRef .tc main_v101) : S10000x256.Idx → EReal) = (matProd (M := 10000) (K := 256) (N := 256) (m ((c : Thread nD τ).loc main_arg2)) (m ((c : Thread nD τ).loc main_arg10))) := by
  refine (W16_arr m ρ c 2).trans ?_
  refine (Cert.KernelIdeal.Region6.arr (V15 m ρ) c).trans ?_
  show matProd (M := 10000) (K := 256) (N := 256) (W15 m ρ c (Proc.devRef .tc main_arg2)) (W15 m ρ c (Proc.devRef .tc main_arg10)) = _
  rw [Cert.KCarry.W15_arg2 m ρ c, Cert.KCarry.W15_arg10 m ρ c]

/-- The first aggregation of the y stream. -/
theorem yx1 (c : Dev nD) : (W18 m ρ c (Proc.devRef .tc main_v103) : S10000x256.Idx → EReal) = (aggRelu (N := 10000) (H := 256) (W15 m ρ c (Proc.devRef .tc main_v100)) (matProd (M := 10000) (K := 256) (N := 256) (m ((c : Thread nD τ).loc main_arg2)) (m ((c : Thread nD τ).loc main_arg10))) (row256 (m ((c : Thread nD τ).loc main_arg11)))) := by
  refine (W18_arr m ρ c 3).trans ?_
  refine (Cert.KernelIdeal.Region7.arr (V17 m ρ) c).trans ?_
  show aggRelu (N := 10000) (H := 256) (W17 m ρ c (Proc.devRef .tc main_v100)) (W17 m ρ c (Proc.devRef .tc main_v101)) (W17 m ρ c (Proc.devRef .tc main_v102)) = _
  rw [Cert.KCarry.W17_v100 m ρ c, Cert.KCarry.W17_v101 m ρ c, Cert.KCarry.W17_v102 m ρ c, Cert.KCarry.W16_arg11 m ρ c, yh1 m ρ c]

/-- The second transform of the y stream. -/
theorem yh2 (c : Dev nD) : (W19 m ρ c (Proc.devRef .tc main_v104) : S10000x256.Idx → EReal) = (matProd (M := 10000) (K := 256) (N := 256) (aggRelu (N := 10000) (H := 256) (W15 m ρ c (Proc.devRef .tc main_v100)) (matProd (M := 10000) (K := 256) (N := 256) (m ((c : Thread nD τ).loc main_arg2)) (m ((c : Thread nD τ).loc main_arg10))) (row256 (m ((c : Thread nD τ).loc main_arg11)))) (m ((c : Thread nD τ).loc main_arg12))) := by
  refine (W19_arr m ρ c 2).trans ?_
  refine (Cert.KernelIdeal.Region8.arr (V18 m ρ) c).trans ?_
  show matProd (M := 10000) (K := 256) (N := 256) (W18 m ρ c (Proc.devRef .tc main_v103)) (W18 m ρ c (Proc.devRef .tc main_arg12)) = _
  rw [yx1 m ρ c, Cert.KCarry.W18_arg12 m ρ c]

/-- The second aggregation of the y stream. -/
theorem yx2 (c : Dev nD) : (W21 m ρ c (Proc.devRef .tc main_v106) : S10000x256.Idx → EReal) = (aggRelu (N := 10000) (H := 256) (W15 m ρ c (Proc.devRef .tc main_v100)) (matProd (M := 10000) (K := 256) (N := 256) (aggRelu (N := 10000) (H := 256) (W15 m ρ c (Proc.devRef .tc main_v100)) (matProd (M := 10000) (K := 256) (N := 256) (m ((c : Thread nD τ).loc main_arg2)) (m ((c : Thread nD τ).loc main_arg10))) (row256 (m ((c : Thread nD τ).loc main_arg11)))) (m ((c : Thread nD τ).loc main_arg12))) (row256 (m ((c : Thread nD τ).loc main_arg13)))) := by
  refine (W21_arr m ρ c 3).trans ?_
  refine (Cert.KernelIdeal.Region9.arr (V20 m ρ) c).trans ?_
  show aggRelu (N := 10000) (H := 256) (W20 m ρ c (Proc.devRef .tc main_v100)) (W20 m ρ c (Proc.devRef .tc main_v104)) (W20 m ρ c (Proc.devRef .tc main_v105)) = _
  rw [Cert.KCarry.W20_v100 m ρ c, Cert.KCarry.W20_v104 m ρ c, Cert.KCarry.W20_v105 m ρ c, Cert.KCarry.W19_arg13 m ρ c, yh2 m ρ c]

/-- The third transform of the y stream. -/
theorem yh3 (c : Dev nD) : (W22 m ρ c (Proc.devRef .tc main_v107) : S10000x128.Idx → EReal) = (matProd (M := 10000) (K := 256) (N := 128) (aggRelu (N := 10000) (H := 256) (W15 m ρ c (Proc.devRef .tc main_v100)) (matProd (M := 10000) (K := 256) (N := 256) (aggRelu (N := 10000) (H := 256) (W15 m ρ c (Proc.devRef .tc main_v100)) (matProd (M := 10000) (K := 256) (N := 256) (m ((c : Thread nD τ).loc main_arg2)) (m ((c : Thread nD τ).loc main_arg10))) (row256 (m ((c : Thread nD τ).loc main_arg11)))) (m ((c : Thread nD τ).loc main_arg12))) (row256 (m ((c : Thread nD τ).loc main_arg13)))) (m ((c : Thread nD τ).loc main_arg14))) := by
  refine (W22_arr m ρ c 2).trans ?_
  refine (Cert.KernelIdeal.Region10.arr (V21 m ρ) c).trans ?_
  show matProd (M := 10000) (K := 256) (N := 128) (W21 m ρ c (Proc.devRef .tc main_v106)) (W21 m ρ c (Proc.devRef .tc main_arg14)) = _
  rw [yx2 m ρ c, Cert.KCarry.W21_arg14 m ρ c]

/-- The third aggregation of the y stream. -/
theorem yx3 (c : Dev nD) : (W24 m ρ c (Proc.devRef .tc main_v109) : S10000x128.Idx → EReal) = (aggLin (N := 10000) (H := 128) (W15 m ρ c (Proc.devRef .tc main_v100)) (matProd (M := 10000) (K := 256) (N := 128) (aggRelu (N := 10000) (H := 256) (W15 m ρ c (Proc.devRef .tc main_v100)) (matProd (M := 10000) (K := 256) (N := 256) (aggRelu (N := 10000) (H := 256) (W15 m ρ c (Proc.devRef .tc main_v100)) (matProd (M := 10000) (K := 256) (N := 256) (m ((c : Thread nD τ).loc main_arg2)) (m ((c : Thread nD τ).loc main_arg10))) (row256 (m ((c : Thread nD τ).loc main_arg11)))) (m ((c : Thread nD τ).loc main_arg12))) (row256 (m ((c : Thread nD τ).loc main_arg13)))) (m ((c : Thread nD τ).loc main_arg14))) (row128 (m ((c : Thread nD τ).loc main_arg15)))) := by
  refine (W24_arr m ρ c 3).trans ?_
  refine (Cert.KernelIdeal.Region11.arr (V23 m ρ) c).trans ?_
  show aggLin (N := 10000) (H := 128) (W23 m ρ c (Proc.devRef .tc main_v100)) (W23 m ρ c (Proc.devRef .tc main_v107)) (W23 m ρ c (Proc.devRef .tc main_v108)) = _
  rw [Cert.KCarry.W23_v100 m ρ c, Cert.KCarry.W23_v107 m ρ c, Cert.KCarry.W23_v108 m ρ c, Cert.KCarry.W22_arg15 m ρ c, yh3 m ρ c]

/-- The first stream's result buffer at the end of the run. -/
theorem outx (c : Dev nD) : (W24 m ρ c (Proc.devRef .tc main_v54) : S10000x128.Idx → EReal)
    = stack (Cert.KAdj.Ahat (m ((c : Thread nD τ).loc main_arg1))) (m ((c : Thread nD τ).loc main_arg0)) (m ((c : Thread nD τ).loc main_arg4)) (row256 (m ((c : Thread nD τ).loc main_arg5))) (m ((c : Thread nD τ).loc main_arg6)) (row256 (m ((c : Thread nD τ).loc main_arg7))) (m ((c : Thread nD τ).loc main_arg8)) (row128 (m ((c : Thread nD τ).loc main_arg9))) := by
  rw [Cert.KCarry.W24_v54 m ρ c]
  refine (xx3 m ρ c).trans ?_
  rw [Cert.KAdj.W3_adj m ρ c]
  rfl

/-- The second stream's result buffer at the end of the run. -/
theorem outy (c : Dev nD) : (W24 m ρ c (Proc.devRef .tc main_v109) : S10000x128.Idx → EReal)
    = stack (Cert.KAdj.Ahat (m ((c : Thread nD τ).loc main_arg3))) (m ((c : Thread nD τ).loc main_arg2)) (m ((c : Thread nD τ).loc main_arg10)) (row256 (m ((c : Thread nD τ).loc main_arg11))) (m ((c : Thread nD τ).loc main_arg12)) (row256 (m ((c : Thread nD τ).loc main_arg13))) (m ((c : Thread nD τ).loc main_arg14)) (row128 (m ((c : Thread nD τ).loc main_arg15))) := by
  refine (yx3 m ρ c).trans ?_
  rw [Cert.KAdj.W15_adj m ρ c (Cert.KCarry.W12_arg3 m ρ c)]
  rfl

/-- The run, read: every weakly fair execution ends with the two results at the dense stacks of the arguments and the
    arguments unchanged. -/
theorem run : θ_run (defs (F := Ideal)) (onTc (τ := τ) (main (F := Ideal))) ⟨m, fun _ => 0, ρ⟩ (fun r => ∀ c : Dev nD,
      r.2.mem ((c.tc : Thread nD τ).loc main_v54) = stack (Cert.KAdj.Ahat (m ((c.tc : Thread nD τ).loc main_arg1))) (m ((c.tc : Thread nD τ).loc main_arg0)) (m ((c.tc : Thread nD τ).loc main_arg4)) (row256 (m ((c.tc : Thread nD τ).loc main_arg5))) (m ((c.tc : Thread nD τ).loc main_arg6)) (row256 (m ((c.tc : Thread nD τ).loc main_arg7))) (m ((c.tc : Thread nD τ).loc main_arg8)) (row128 (m ((c.tc : Thread nD τ).loc main_arg9)))
      ∧ r.2.mem ((c.tc : Thread nD τ).loc main_v109) = stack (Cert.KAdj.Ahat (m ((c.tc : Thread nD τ).loc main_arg3))) (m ((c.tc : Thread nD τ).loc main_arg2)) (m ((c.tc : Thread nD τ).loc main_arg10)) (row256 (m ((c.tc : Thread nD τ).loc main_arg11))) (m ((c.tc : Thread nD τ).loc main_arg12)) (row256 (m ((c.tc : Thread nD τ).loc main_arg13))) (m ((c.tc : Thread nD τ).loc main_arg14)) (row128 (m ((c.tc : Thread nD τ).loc main_arg15)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (outx m ρ c), (h c).2.1.trans (outy m ρ c), (h c).2.2⟩)
    (Cert.KernelIdeal.Run.results m ρ)

end Cert.KVal
end
-- ==== Proof.lean ====
/-
  Two streams of three graph convolutions each, computed two ways, give the same arrays.

  The reference gathers, for every edge e (with one self-loop per node appended), row src e of X · W, scales it by
  norm e = dinv(src e) · dinv(dst e), and sums the scaled rows into row dst e; the kernel builds the dense matrix
  A(i, n) = Σ { norm e : dst e = i, src e = n } once per stream and computes A · (X · W) by tiled products. Entry by
  entry both are Σ over the edges e into i of norm e · (X · W)(src e, q), plus the bias: the product with a fixed
  column distributes over the sum that makes A(i, n) because every weight and every feature is a real number
  (the inputs are finite, the degrees are positive integers, so 1/sqrt(deg) is real), and grouping the edges into i by
  their source n is a reordering of a finite sum. The claim needs every edge endpoint to be a node, 0 ≤ index < 10000:
  outside that range the reference's gather clamps a source while the scatter that builds A drops the edge.
  The three frames are the generated ones (the reference's from its run); the idealization's ledger is empty.
-/
import proofs.«100568_j75265006895440_2_alg».proof.Defs
import proofs.«100568_j75265006895440_2_alg».proof.Proof.Gen.Kernel
import proofs.«100568_j75265006895440_2_alg».proof.Proof.Gen.Kernel.Skeleton
import proofs.«100568_j75265006895440_2_alg».proof.Proof.Gen.Kernel.Launch
import proofs.«100568_j75265006895440_2_alg».proof.Proof.Gen.Kernel.Points
import proofs.«100568_j75265006895440_2_alg».proof.Proof.Gen.Kernel.Frame
import proofs.«100568_j75265006895440_2_alg».proof.Proof.Gen.KernelIdeal
import proofs.«100568_j75265006895440_2_alg».proof.Proof.Gen.KernelIdeal.Skeleton
import proofs.«100568_j75265006895440_2_alg».proof.Proof.Gen.KernelIdeal.Launch
import proofs.«100568_j75265006895440_2_alg».proof.Proof.Gen.KernelIdeal.Points
import proofs.«100568_j75265006895440_2_alg».proof.Proof.Gen.KernelIdeal.Frame
import proofs.«100568_j75265006895440_2_alg».proof.Proof.Gen.ReferenceIdeal
import proofs.«100568_j75265006895440_2_alg».proof.Proof.Gen.Pre_finite_inputs
import proofs.«100568_j75265006895440_2_alg».proof.Proof.RefSide
import proofs.«100568_j75265006895440_2_alg».proof.Proof.KAdj
import proofs.«100568_j75265006895440_2_alg».proof.Proof.KVal
import proofs.«100568_j75265006895440_2_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.RefSide.frame_ri,
  trivial,
  Cert.Assembly.algebraic_of Cert.KAdj.Ahat (fun x1 hx1 d s => Cert.KAdj.Ahat_apply x1 hx1 d s) (fun m ρ => Cert.KVal.run m ρ)⟩

end Cert.Proof

end
